-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v82)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v82) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S3200000 : Shape := ⟨1, ![3200000]⟩
abbrev S64x128 : Shape := ⟨2, ![64, 128]⟩
abbrev S64 : Shape := ⟨1, ![64]⟩
abbrev S32x64 : Shape := ⟨2, ![32, 64]⟩
abbrev S32 : Shape := ⟨1, ![32]⟩
abbrev S4x32 : Shape := ⟨2, ![4, 32]⟩
abbrev S4 : Shape := ⟨1, ![4]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S3200000 : S_.BroadcastsInDim S3200000 (![] : Fin 0 → Fin S3200000.rank)
  reducesTo_S3200000_S_d0 : S3200000.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S32x64 : S_.BroadcastsInDim S32x64 (![] : Fin 0 → Fin S32x64.rank)
  reducesTo_S32x64_S_d0_1 : S32x64.ReducesTo [0, 1] S_
  bcast_S_S32 : S_.BroadcastsInDim S32 (![] : Fin 0 → Fin S32.rank)
  reducesTo_S32_S_d0 : S32.ReducesTo [0] S_
  bcast_S_S4x32 : S_.BroadcastsInDim S4x32 (![] : Fin 0 → Fin S4x32.rank)
  reducesTo_S4x32_S_d0_1 : S4x32.ReducesTo [0, 1] S_
  bcast_S_S4 : S_.BroadcastsInDim S4 (![] : Fin 0 → Fin S4.rank)
  reducesTo_S4_S_d0 : S4.ReducesTo [0] S_

variable [Facts]

def fn_part2 {F : FTy → Type} [FloatOps F] (main_arg8 : FVec F S4 .f32) (main_v33 : IVec S_ 1) : IVec S_ 1 :=
  let main_v34 : FVec F S4 .f32 := Host.absf main_arg8
  let main_cst_12 : FVec F S_ .f32 := constant S_ .f32 0x7F800000#32
  let main_v35 : FVec F S4 .f32 := broadcastInDim S4 ![] bcast_S_S4 main_cst_12
  let main_v36 : IVec S4 1 := cmpf .olt main_v34 main_v35
  let main_c_13 : IVec S_ 1 := constantI S_ 1 1#1
  let main_v37 : IVec S_ 1 := (fun x v => Host.reduce IntOp.andi x v reducesTo_S4_S_d0 h_S_) main_v36 main_c_13
  let main_v38 : IVec S_ 1 := andi main_v33 main_v37
  main_v38

def fn_part1 {F : FTy → Type} [FloatOps F] (main_arg5 : FVec F S32x64 .f32) (main_arg6 : FVec F S32 .f32) (main_arg7 : FVec F S4x32 .f32) (main_arg8 : FVec F S4 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S32x64 .f32 := Host.absf main_arg5
  let main_cst_6 : FVec F S_ .f32 := constant S_ .f32 0x7F800000#32
  let main_v20 : FVec F S32x64 .f32 := broadcastInDim S32x64 ![] bcast_S_S32x64 main_cst_6
  let main_v21 : IVec S32x64 1 := cmpf .olt main_v19 main_v20
  let main_c_7 : IVec S_ 1 := constantI S_ 1 1#1
  let main_v22 : IVec S_ 1 := (fun x v => Host.reduce IntOp.andi x v reducesTo_S32x64_S_d0_1 h_S_) main_v21 main_c_7
  let main_v23 : IVec S_ 1 := andi main_v18 main_v22
  let main_v24 : FVec F S32 .f32 := Host.absf main_arg6
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S4x32 .f32 := Host.absf main_arg7
  let main_cst_10 : FVec F S_ .f32 := constant S_ .f32 0x7F800000#32
  let main_v30 : FVec F S4x32 .f32 := broadcastInDim S4x32 ![] bcast_S_S4x32 main_cst_10
  let main_v31 : IVec S4x32 1 := cmpf .olt main_v29 main_v30
  let main_c_11 : IVec S_ 1 := constantI S_ 1 1#1
  let main_v32 : IVec S_ 1 := (fun x v => Host.reduce IntOp.andi x v reducesTo_S4x32_S_d0_1 h_S_) main_v31 main_c_11
  let main_v33 : IVec S_ 1 := andi main_v28 main_v32
  fn_part2 (F := F) main_arg8 main_v33

def fn {F : FTy → Type} [FloatOps F] (main_arg0 : FVec F S100000x128 .f32) (main_arg1 : IVec S2x3200000 32) (main_arg2 : FVec F S3200000 .f32) (main_arg3 : FVec F S64x128 .f32) (main_arg4 : FVec F S64 .f32) (main_arg5 : FVec F S32x64 .f32) (main_arg6 : FVec F S32 .f32) (main_arg7 : FVec F S4x32 .f32) (main_arg8 : FVec F S4 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S3200000 .f32 := Host.absf main_arg2
  let main_cst_0 : FVec F S_ .f32 := constant S_ .f32 0x7F800000#32
  let main_v5 : FVec F S3200000 .f32 := broadcastInDim S3200000 ![] bcast_S_S3200000 main_cst_0
  let main_v6 : IVec S3200000 1 := cmpf .olt main_v4 main_v5
  let main_c_1 : IVec S_ 1 := constantI S_ 1 1#1
  let main_v7 : IVec S_ 1 := (fun x v => Host.reduce IntOp.andi x v reducesTo_S3200000_S_d0 h_S_) main_v6 main_c_1
  let main_v8 : IVec S_ 1 := andi main_v3 main_v7
  let main_v9 : FVec F S64x128 .f32 := Host.absf main_arg3
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_v13 main_v16
-- ==== Kernel.lean ====
abbrev S100000x128 : Shape := ⟨2, ![100000, 128]⟩
abbrev S2x3200000 : Shape := ⟨2, ![2, 3200000]⟩
abbrev S3200000 : Shape := ⟨1, ![3200000]⟩
abbrev S64x128 : Shape := ⟨2, ![64, 128]⟩
abbrev S64 : Shape := ⟨1, ![64]⟩
abbrev S32x64 : Shape := ⟨2, ![32, 64]⟩
abbrev S32 : Shape := ⟨1, ![32]⟩
abbrev S4x32 : Shape := ⟨2, ![4, 32]⟩
abbrev S4 : Shape := ⟨1, ![4]⟩
abbrev S1x3200000 : Shape := ⟨2, ![1, 3200000]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S100000x64 : Shape := ⟨2, ![100000, 64]⟩
abbrev S10000x128 : Shape := ⟨2, ![10000, 128]⟩
abbrev S10000x64 : Shape := ⟨2, ![10000, 64]⟩
abbrev S3300000x64 : Shape := ⟨2, ![3300000, 64]⟩
abbrev S1x64 : Shape := ⟨2, ![1, 64]⟩
abbrev S100000x32 : Shape := ⟨2, ![100000, 32]⟩
abbrev S10000x32 : Shape := ⟨2, ![10000, 32]⟩
abbrev S3300000x32 : Shape := ⟨2, ![3300000, 32]⟩
abbrev S1x32 : Shape := ⟨2, ![1, 32]⟩
abbrev S100000x4 : Shape := ⟨2, ![100000, 4]⟩
abbrev S10000x4 : Shape := ⟨2, ![10000, 4]⟩
abbrev S3300000x4 : Shape := ⟨2, ![3300000, 4]⟩
abbrev S1x4 : Shape := ⟨2, ![1, 4]⟩
abbrev S10000 : Shape := ⟨1, ![10000]⟩
abbrev S10000x1 : Shape := ⟨2, ![10000, 1]⟩

abbrev nBuf : Space → Nat
  | .hbm => 115
  | .vmem => 30
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S3200000, .f32⟩
  | .hbm, ⟨3, _⟩ => ⟨S64x128, .f32⟩
  | .hbm, ⟨4, _⟩ => ⟨S64, .f32⟩
  | .hbm, ⟨5, _⟩ => ⟨S32x64, .f32⟩
  | .hbm, ⟨6, _⟩ => ⟨S32, .f32⟩
  | .hbm, ⟨7, _⟩ => ⟨S4x32, .f32⟩
  | .hbm, ⟨8, _⟩ => ⟨S4, .f32⟩
  | .hbm, ⟨9, _⟩ => ⟨S1x3200000, .i32⟩
  | .hbm, ⟨10, _⟩ => ⟨S3200000, .i32⟩
  | .hbm, ⟨11, _⟩ => ⟨S1x3200000, .i32⟩
  | .hbm, ⟨12, _⟩ => ⟨S3200000, .i32⟩
  | .hbm, ⟨13, _⟩ => ⟨S100000, .i32⟩
  | .hbm, ⟨14, _⟩ => ⟨S3300000, .i32⟩
  | .hbm, ⟨15, _⟩ => ⟨S3300000, .i32⟩
  | .hbm, ⟨16, _⟩ => ⟨S_, .f32⟩
  | .hbm, ⟨17, _⟩ => ⟨S100000, .f32⟩
  | .hbm, ⟨18, _⟩ => ⟨S3300000, .f32⟩
  | .hbm, ⟨19, _⟩ => ⟨S_, .f32⟩
  | .hbm, ⟨20, _⟩ => ⟨S100000, .f32⟩
  | .hbm, ⟨21, _⟩ => ⟨S3300000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S_, .f32⟩
  | .hbm, ⟨27, _⟩ => ⟨S100000, .f32⟩
  | .hbm, ⟨28, _⟩ => ⟨S100000, .i1⟩
  | .hbm, ⟨29, _⟩ => ⟨S_, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S100000, .f32⟩
  | .hbm, ⟨34, _⟩ => ⟨S_, .f32⟩
  | .hbm, ⟨35, _⟩ => ⟨S_, .f32⟩
  | .hbm, ⟨36, _⟩ => ⟨S100000, .f32⟩
  | .hbm, ⟨37, _⟩ => ⟨S100000, .f32⟩
  | .hbm, ⟨38, _⟩ => ⟨S_, .i32⟩
  | .hbm, ⟨39, _⟩ => ⟨S3300000, .i32⟩
  | .hbm, ⟨40, _⟩ => ⟨S3300000, .i1⟩
  | .hbm, ⟨41, _⟩ => ⟨S_, .i32⟩
  | .hbm, ⟨42, _⟩ => ⟨S3300000, .i32⟩
  | .hbm, ⟨43, _⟩ => ⟨S3300000, .i32⟩
  | .hbm, ⟨44, _⟩ => ⟨S3300000, .i32⟩
  | .hbm, ⟨45, _⟩ => ⟨S3300000x1, .i32⟩
  | .hbm, ⟨46, _⟩ => ⟨S3300000, .f32⟩
  | .hbm, ⟨47, _⟩ => ⟨S3300000, .f32⟩
  | .hbm, ⟨48, _⟩ => ⟨S_, .i32⟩
  | .hbm, ⟨49, _⟩ => ⟨S3300000, .i32⟩
  | .hbm, ⟨50, _⟩ => ⟨S3300000, .i1⟩
  | .hbm, ⟨51, _⟩ => ⟨S_, .i32⟩
  | .hbm, ⟨52, _⟩ => ⟨S3300000, .i32⟩
  | .hbm, ⟨53, _⟩ => ⟨S3300000, .i32⟩
  | .hbm, ⟨54, _⟩ => ⟨S3300000, .i32⟩
  | .hbm, ⟨55, _⟩ => ⟨S3300000x1, .i32⟩
  | .hbm, ⟨56, _⟩ => ⟨S3300000, .f32⟩
  | .hbm, ⟨57, _⟩ => ⟨S3300000, .f32⟩
  | .hbm, ⟨58, _⟩ => ⟨S100000x64, .f32⟩
  | .hbm, ⟨59, _⟩ => ⟨S3300000x1, .f32⟩
  | .hbm, ⟨60, _⟩ => ⟨S_, .i32⟩
  | .hbm, ⟨61, _⟩ => ⟨S3300000, .i32⟩
  | .hbm, ⟨62, _⟩ => ⟨S3300000, .i1⟩
  | .hbm, ⟨63, _⟩ => ⟨S_, .i32⟩
  | .hbm, ⟨64, _⟩ => ⟨S3300000, .i32⟩
  | .hbm, ⟨65, _⟩ => ⟨S3300000, .i32⟩
  | .hbm, ⟨66, _⟩ => ⟨S3300000, .i32⟩
  | .hbm, ⟨67, _⟩ => ⟨S3300000x1, .i32⟩
  | .hbm, ⟨68, _⟩ => ⟨S3300000x64, .f32⟩
  | .hbm, ⟨69, _⟩ => ⟨S3300000x64, .f32⟩
  | .hbm, ⟨70, _⟩ => ⟨S3300000x64, .f32⟩
  | .hbm, ⟨71, _⟩ => ⟨S_, .f32⟩
  | .hbm, ⟨72, _⟩ => ⟨S100000x64, .f32⟩
  | .hbm, ⟨73, _⟩ => ⟨S3300000x1, .i32⟩
  | .hbm, ⟨74, _⟩ => ⟨S100000x64, .f32⟩
  | .hbm, ⟨75, _⟩ => ⟨S1x64, .f32⟩
  | .hbm, ⟨76, _⟩ => ⟨S100000x64, .f32⟩
  | .hbm, ⟨77, _⟩ => ⟨S100000x32, .f32⟩
  | .hbm, ⟨78, _⟩ => ⟨S3300000x1, .f32⟩
  | .hbm, ⟨79, _⟩ => ⟨S_, .i32⟩
  | .hbm, ⟨80, _⟩ => ⟨S3300000, .i32⟩
  | .hbm, ⟨81, _⟩ => ⟨S3300000, .i1⟩
  | .hbm, ⟨82, _⟩ => ⟨S_, .i32⟩
  | .hbm, ⟨83, _⟩ => ⟨S3300000, .i32⟩
  | .hbm, ⟨84, _⟩ => ⟨S3300000, .i32⟩
  | .hbm, ⟨85, _⟩ => ⟨S3300000, .i32⟩
  | .hbm, ⟨86, _⟩ => ⟨S3300000x1, .i32⟩
  | .hbm, ⟨87, _⟩ => ⟨S3300000x32, .f32⟩
  | .hbm, ⟨88, _⟩ => ⟨S3300000x32, .f32⟩
  | .hbm, ⟨89, _⟩ => ⟨S3300000x32, .f32⟩
  | .hbm, ⟨90, _⟩ => ⟨S_, .f32⟩
  | .hbm, ⟨91, _⟩ => ⟨S100000x32, .f32⟩
  | .hbm, ⟨92, _⟩ => ⟨S3300000x1, .i32⟩
  | .hbm, ⟨93, _⟩ => ⟨S100000x32, .f32⟩
  | .hbm, ⟨94, _⟩ => ⟨S1x32, .f32⟩
  | .hbm, ⟨95, _⟩ => ⟨S100000x32, .f32⟩
  | .hbm, ⟨96, _⟩ => ⟨S100000x4, .f32⟩
  | .hbm, ⟨97, _⟩ => ⟨S3300000x1, .f32⟩
  | .hbm, ⟨98, _⟩ => ⟨S_, .i32⟩
  | .hbm, ⟨99, _⟩ => ⟨S3300000, .i32⟩
  | .hbm, ⟨100, _⟩ => ⟨S3300000, .i1⟩
  | .hbm, ⟨101, _⟩ => ⟨S_, .i32⟩
  | .hbm, ⟨102, _⟩ => ⟨S3300000, .i32⟩
  | .hbm, ⟨103, _⟩ => ⟨S3300000, .i32⟩
  | .hbm, ⟨104, _⟩ => ⟨S3300000, .i32⟩
  | .hbm, ⟨105, _⟩ => ⟨S3300000x1, .i32⟩
  | .hbm, ⟨106, _⟩ => ⟨S3300000x4, .f32⟩
  | .hbm, ⟨107, _⟩ => ⟨S3300000x4, .f32⟩
  | .hbm, ⟨108, _⟩ => ⟨S3300000x4, .f32⟩
  | .hbm, ⟨109, _⟩ => ⟨S_, .f32⟩
  | .hbm, ⟨110, _⟩ => ⟨S100000x4, .f32⟩
  | .hbm, ⟨111, _⟩ => ⟨S3300000x1, .i32⟩
  | .hbm, ⟨112, _⟩ => ⟨S100000x4, .f32⟩
  | .hbm, ⟨113, _⟩ => ⟨S1x4, .f32⟩
  | .hbm, ⟨114, _⟩ => ⟨S100000x4, .f32⟩
  | .local _ .vmem, ⟨0, _⟩ => ⟨S10000x128, .f32⟩
  | .local _ .vmem, ⟨1, _⟩ => ⟨S10000x128, .f32⟩
  | .local _ .vmem, ⟨2, _⟩ => ⟨S64x128, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S32x64, .f32⟩
  | .local _ .vmem, ⟨13, _⟩ => ⟨S10000x32, .f32⟩
  | .local _ .vmem, ⟨14, _⟩ => ⟨S10000x32, .f32⟩
  | .local _ .vmem, ⟨15, _⟩ => ⟨S10000x32, .f32⟩
  | .local _ .vmem, ⟨16, _⟩ => ⟨S10000x32, .f32⟩
  | .local _ .vmem, ⟨17, _⟩ => ⟨S1x32, .f32⟩
  | .local _ .vmem, ⟨18, _⟩ => ⟨S10000x32, .f32⟩
  | .local _ .vmem, ⟨19, _⟩ => ⟨S10000x32, .f32⟩
  | .local _ .vmem, ⟨20, _⟩ => ⟨S10000x32, .f32⟩
  | .local _ .vmem, ⟨21, _⟩ => ⟨S10000x32, .f32⟩
  | .local _ .vmem, ⟨22, _⟩ => ⟨S4x32, .f32⟩
  | .local _ .vmem, ⟨23, _⟩ => ⟨S10000x4, .f32⟩
  | .local _ .vmem, ⟨24, _⟩ => ⟨S10000x4, .f32⟩
  | .local _ .vmem, ⟨25, _⟩ => ⟨S10000x4, .f32⟩
  | .local _ .vmem, ⟨26, _⟩ => ⟨S10000x4, .f32⟩
  | .local _ .vmem, ⟨27, _⟩ => ⟨S1x4, .f32⟩
  | .local _ .vmem, ⟨28, _⟩ => ⟨S10000x4, .f32⟩
  | .local _ .vmem, ⟨29, _⟩ => ⟨S10000x4, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v16 : Ref sig .tc := ⟨.hbm, 32, rfl⟩
abbrev main_v17 : Ref sig .tc := ⟨.hbm, 33, rfl⟩
abbrev main_cst_4 : Ref sig .tc := ⟨.hbm, 34, rfl⟩
abbrev main_call1_v0 : Ref sig .tc := ⟨.hbm, 35, rfl⟩
abbrev main_call1_v1 : Ref sig .tc := ⟨.hbm, 36, rfl⟩
abbrev main_v18 : Ref sig .tc := ⟨.hbm, 37, rfl⟩
abbrev main_c : Ref sig .tc := ⟨.hbm, 38, rfl⟩
abbrev main_v19 : Ref sig .tc := ⟨.hbm, 39, rfl⟩
abbrev main_v20 : Ref sig .tc := ⟨.hbm, 40, rfl⟩
abbrev main_c_5 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_c_6 : Ref sig .tc := ⟨.hbm, 48, rfl⟩
abbrev main_v27 : Ref sig .tc := ⟨.hbm, 49, rfl⟩
abbrev main_v28 : Ref sig .tc := ⟨.hbm, 50, rfl⟩
abbrev main_c_7 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_c_8 : Ref sig .tc := ⟨.hbm, 60, rfl⟩
abbrev main_v37 : Ref sig .tc := ⟨.hbm, 61, rfl⟩
abbrev main_v38 : Ref sig .tc := ⟨.hbm, 62, rfl⟩
abbrev main_c_9 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_10 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_c_11 : Ref sig .tc := ⟨.hbm, 79, rfl⟩
abbrev main_v53 : Ref sig .tc := ⟨.hbm, 80, rfl⟩
abbrev main_v54 : Ref sig .tc := ⟨.hbm, 81, rfl⟩
abbrev main_c_12 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_cst_13 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_c_14 : Ref sig .tc := ⟨.hbm, 98, rfl⟩
abbrev main_v69 : Ref sig .tc := ⟨.hbm, 99, rfl⟩
abbrev main_v70 : Ref sig .tc := ⟨.hbm, 100, rfl⟩
abbrev main_c_15 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_cst_16 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S32x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x32 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x32 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x32 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S4x32 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S10000x4 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x4 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x4 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S10000x4 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S100000 : S_.BroadcastsInDim S100000 (![] : Fin 0 → Fin S100000.rank)
  bcast_S3300000_S3300000x1_0 : S3300000.BroadcastsInDim S3300000x1 (![0] : Fin 1 → Fin S3300000x1.rank)
  bcast_S_S3300000 : S_.BroadcastsInDim S3300000 (![] : Fin 0 → Fin S3300000.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S10000x64_S10000x64_0_0 : ∀ a, (![0, 0] : Fin 2 → Nat) a + S10000x64.size a ≤ S10000x64.size a
  h_S10000x64 : 0 < S10000x64.numel
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S32x64_S32x64_0_0 : ∀ a, (![0, 0] : Fin 2 → Nat) a + S32x64.size a ≤ S32x64.size a
  h_S32x64 : 0 < S32x64.numel
  inb_S10000x32_S10000x32_0_0 : ∀ a, (![0, 0] : Fin 2 → Nat) a + S10000x32.size a ≤ S10000x32.size a
  h_S10000x32 : 0 < S10000x32.numel
  bcast_S3300000x1_S3300000x32_0_1 : S3300000x1.BroadcastsInDim S3300000x32 (![0, 1] : Fin 2 → Fin S3300000x32.rank)
  bcast_S_S100000x32 : S_.BroadcastsInDim S100000x32 (![] : Fin 0 → Fin S100000x32.rank)
  shapeCasts_S32_S1x32 : S32.ShapeCasts S1x32
  shapeCasts_S10000x32_S10000x32 : S10000x32.ShapeCasts S10000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  inb_S4x32_S4x32_0_0 : ∀ a, (![0, 0] : Fin 2 → Nat) a + S4x32.size a ≤ S4x32.size a
  h_S4x32 : 0 < S4x32.numel
  inb_S10000x4_S10000x4_0_0 : ∀ a, (![0, 0] : Fin 2 → Nat) a + S10000x4.size a ≤ S10000x4.size a
  h_S10000x4 : 0 < S10000x4.numel
  bcast_S3300000x1_S3300000x4_0_1 : S3300000x1.BroadcastsInDim S3300000x4 (![0, 1] : Fin 2 → Fin S3300000x4.rank)
  bcast_S_S100000x4 : S_.BroadcastsInDim S100000x4 (![] : Fin 0 → Fin S100000x4.rank)
  shapeCasts_S4_S1x4 : S4.ShapeCasts S1x4
  shapeCasts_S10000x4_S10000x4 : S10000x4.ShapeCasts S10000x4
  inb_S1x4_S1x4_0_0 : ∀ a, (![0, 0] : Fin 2 → Nat) a + S1x4.size a ≤ S1x4.size a
  h_S1x4 : 0 < S1x4.numel
  shapeCasts_S1x4_S1x4 : S1x4.ShapeCasts S1x4
  broadcasts_S1x4_S10000x4 : S1x4.Broadcasts S10000x4
  reduces_S10000x4_S10000 : S10000x4.Reduces [1] S10000
  shapeCasts_S10000_S10000x1 : S10000.ShapeCasts S10000x1
  broadcasts_S10000x1_S10000x4 : S10000x1.Broadcasts S10000x4
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S10000x128_S64x128_S10000x64_1_1_0_0_n_n_wf : DotDims.WF S10000x128 S64x128 S10000x64 [1] [1] [0] [0] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S10000x64_S32x64_S10000x32_1_1_0_0_n_n_wf : DotDims.WF S10000x64 S32x64 S10000x32 [1] [1] [0] [0] [] []
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1
  dot_S10000x32_S4x32_S10000x4_1_1_0_0_n_n_wf : DotDims.WF S10000x32 S4x32 S10000x4 [1] [1] [0] [0] [] []
  gather_S100000x4_S3300000x1_S3300000x4_1_0_n_n_0_1_14_wf : GatherDims.WF S100000x4 S3300000x1 S3300000x4 [1] [0] [] [0] [] 1 ![1, 4]
  scatter_S100000x4_S3300000x1_S3300000x4_1_0_0_1_wf : ScatterDims.WF S100000x4 S3300000x1 S3300000x4 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S32x64.size a ≤ S32x64.size a
  hwx2_1 : ∀ i : grid2.Coords, EltTy.bits .f32 = 32 ∨ (Rect.block (s := S32x64) S32x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x32.size a ≤ S100000x32.size a
  hwx2_2 : ∀ i : grid2.Coords, EltTy.bits .f32 = 32 ∨ (Rect.block (s := S100000x32) S10000x32.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x32.size a ≤ S100000x32.size a
  hwx3_0 : ∀ i : grid3.Coords, EltTy.bits .f32 = 32 ∨ (Rect.block (s := S100000x32) S10000x32.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x32.size a ≤ S1x32.size a
  hwx3_1 : ∀ i : grid3.Coords, EltTy.bits .f32 = 32 ∨ (Rect.block (s := S1x32) S1x32.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x32.size a ≤ S100000x32.size a
  hwx3_2 : ∀ i : grid3.Coords, EltTy.bits .f32 = 32 ∨ (Rect.block (s := S100000x32) S10000x32.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x32.size a ≤ S100000x32.size a
  hwx4_0 : ∀ i : grid4.Coords, EltTy.bits .f32 = 32 ∨ (Rect.block (s := S100000x32) S10000x32.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S4x32.size a ≤ S4x32.size a
  hwx4_1 : ∀ i : grid4.Coords, EltTy.bits .f32 = 32 ∨ (Rect.block (s := S4x32) S4x32.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x4.size a ≤ S100000x4.size a
  hwx4_2 : ∀ i : grid4.Coords, EltTy.bits .f32 = 32 ∨ (Rect.block (s := S100000x4) S10000x4.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x4.size a ≤ S100000x4.size a
  hwx5_0 : ∀ i : grid5.Coords, EltTy.bits .f32 = 32 ∨ (Rect.block (s := S100000x4) S10000x4.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x4.size a ≤ S1x4.size a
  hwx5_1 : ∀ i : grid5.Coords, EltTy.bits .f32 = 32 ∨ (Rect.block (s := S1x4) S1x4.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x4.size a ≤ S100000x4.size a
  hwx5_2 : ∀ i : grid5.Coords, EltTy.bits .f32 = 32 ∨ (Rect.block (s := S100000x4) S10000x4.size (cc5_transform_2 i) (hinb5_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S10000x128_S64x128_S10000x64_1_1_0_0_n_n : DotDims S10000x128 S64x128 S10000x64 where
  lhsContracting := [1]
  rhsContracting := [1]
  lhsNonContracting := [0]
  rhsNonContracting := [0]
  lhsBatch := []
  rhsBatch := []
  wf := dot_S10000x128_S64x128_S10000x64_1_1_0_0_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S10000x64_S32x64_S10000x32_1_1_0_0_n_n : DotDims S10000x64 S32x64 S10000x32 where
  lhsContracting := [1]
  rhsContracting := [1]
  lhsNonContracting := [0]
  rhsNonContracting := [0]
  lhsBatch := []
  rhsBatch := []
  wf := dot_S10000x64_S32x64_S10000x32_1_1_0_0_n_n_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf
def dot_S10000x32_S4x32_S10000x4_1_1_0_0_n_n : DotDims S10000x32 S4x32 S10000x4 where
  lhsContracting := [1]
  rhsContracting := [1]
  lhsNonContracting := [0]
  rhsNonContracting := [0]
  lhsBatch := []
  rhsBatch := []
  wf := dot_S10000x32_S4x32_S10000x4_1_1_0_0_n_n_wf
def gather_S100000x4_S3300000x1_S3300000x4_1_0_n_n_0_1_14 : GatherDims S100000x4 S3300000x1 S3300000x4 where
  offsetDims := [1]
  collapsedSliceDims := [0]
  operandBatchingDims := []
  startIndicesBatchingDims := []
  startIndexMap := [0]
  indexVectorDim := 1
  sliceSizes := ![1, 4]
  wf := gather_S100000x4_S3300000x1_S3300000x4_1_0_n_n_0_1_14_wf
def scatter_S100000x4_S3300000x1_S3300000x4_1_0_0_1 : ScatterDims S100000x4 S3300000x1 S3300000x4 where
  updateWindowDims := [1]
  insertedWindowDims := [0]
  scatterDimsToOperandDims := [0]
  indexVectorDim := 1
  wf := scatter_S100000x4_S3300000x1_S3300000x4_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v35) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v48) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v49) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v50) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v50) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S32x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v51) S10000x32.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v64) S10000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v65) S1x32.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v66) S10000x32.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v66) S10000x32.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S4x32.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v67) S10000x4.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v80) S10000x4.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v81) S1x4.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v82) S10000x4.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S100000x128 : Shape := ⟨2, ![100000, 128]⟩
abbrev S2x3200000 : Shape := ⟨2, ![2, 3200000]⟩
abbrev S3200000 : Shape := ⟨1, ![3200000]⟩
abbrev S64x128 : Shape := ⟨2, ![64, 128]⟩
abbrev S64 : Shape := ⟨1, ![64]⟩
abbrev S32x64 : Shape := ⟨2, ![32, 64]⟩
abbrev S32 : Shape := ⟨1, ![32]⟩
abbrev S4x32 : Shape := ⟨2, ![4, 32]⟩
abbrev S4 : Shape := ⟨1, ![4]⟩
abbrev S1x3200000 : Shape := ⟨2, ![1, 3200000]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S128x64 : Shape := ⟨2, ![128, 64]⟩
abbrev S100000x64 : Shape := ⟨2, ![100000, 64]⟩
abbrev S3300000x64 : Shape := ⟨2, ![3300000, 64]⟩
abbrev S1x64 : Shape := ⟨2, ![1, 64]⟩
abbrev S64x32 : Shape := ⟨2, ![64, 32]⟩
abbrev S100000x32 : Shape := ⟨2, ![100000, 32]⟩
abbrev S3300000x32 : Shape := ⟨2, ![3300000, 32]⟩
abbrev S1x32 : Shape := ⟨2, ![1, 32]⟩
abbrev S32x4 : Shape := ⟨2, ![32, 4]⟩
abbrev S100000x4 : Shape := ⟨2, ![100000, 4]⟩
abbrev S3300000x4 : Shape := ⟨2, ![3300000, 4]⟩
abbrev S1x4 : Shape := ⟨2, ![1, 4]⟩
abbrev S100000x1 : Shape := ⟨2, ![100000, 1]⟩

abbrev nBuf : Space → Nat
  | .hbm => 151
  | .vmem => 0
  | .smem => 0
  | _ => 0

abbrev hbmTy0_0 (i : Nat) : BufTy := match i % 128 with
  | 0 => ⟨S100000x128, .f32⟩
  | 1 => ⟨S2x3200000, .i32⟩
  | 2 => ⟨S3200000, .f32⟩
  | 3 => ⟨S64x128, .f32⟩
  | 4 => ⟨S64, .f32⟩
  | 5 => ⟨S32x64, .f32⟩
  | 6 => ⟨S32, .f32⟩
  | 7 => ⟨S4x32, .f32⟩
  | 8 => ⟨S4, .f32⟩
  | 9 => ⟨S1x3200000, .i32⟩
  | 10 => ⟨S3200000, .i32⟩
  | 11 => ⟨S1x3200000, .i32⟩
  | 12 => ⟨S3200000, .i32⟩
  | 13 => ⟨S100000, .i32⟩
  | 14 => ⟨S3300000, .i32⟩
  | 15 => ⟨S3300000, .i32⟩
  | 16 => ⟨S_, .f32⟩
  | 17 => ⟨S100000, .f32⟩
  | 18 => ⟨S3300000, .f32⟩
  | 19 => ⟨S_, .f32⟩
  | 20 => ⟨S100000, .f32⟩
  | 21 => ⟨S3300000x1, .i32⟩
  | 22 => ⟨S100000, .f32⟩
  | 23 => ⟨S_, .f32⟩
  | 24 => ⟨S100000, .f32⟩
  | 25 => ⟨S100000, .i1⟩
  | 26 => ⟨S_, .f32⟩
  | 27 => ⟨S100000, .f32⟩
  | 28 => ⟨S100000, .i1⟩
  | 29 => ⟨S_, .f32⟩
  | 30 => ⟨S_, .f32⟩
  | 31 => ⟨S100000, .f32⟩
  | 32 => ⟨S100000, .f32⟩
  | 33 => ⟨S100000, .f32⟩
  | 34 => ⟨S_, .f32⟩
  | 35 => ⟨S_, .f32⟩
  | 36 => ⟨S100000, .f32⟩
  | 37 => ⟨S100000, .f32⟩
  | 38 => ⟨S_, .i32⟩
  | 39 => ⟨S3300000, .i32⟩
  | 40 => ⟨S3300000, .i1⟩
  | 41 => ⟨S_, .i32⟩
  | 42 => ⟨S3300000, .i32⟩
  | 43 => ⟨S3300000, .i32⟩
  | 44 => ⟨S3300000, .i32⟩
  | 45 => ⟨S3300000x1, .i32⟩
  | 46 => ⟨S3300000, .f32⟩
  | 47 => ⟨S3300000, .f32⟩
  | 48 => ⟨S_, .i32⟩
  | 49 => ⟨S3300000, .i32⟩
  | 50 => ⟨S3300000, .i1⟩
  | 51 => ⟨S_, .i32⟩
  | 52 => ⟨S3300000, .i32⟩
  | 53 => ⟨S3300000, .i32⟩
  | 54 => ⟨S3300000, .i32⟩
  | 55 => ⟨S3300000x1, .i32⟩
  | 56 => ⟨S3300000, .f32⟩
  | 57 => ⟨S3300000, .f32⟩
  | 58 => ⟨S128x64, .f32⟩
  | 59 => ⟨S100000x64, .f32⟩
  | 60 => ⟨S3300000x1, .f32⟩
  | 61 => ⟨S_, .i32⟩
  | 62 => ⟨S3300000, .i32⟩
  | 63 => ⟨S3300000, .i1⟩
  | 64 => ⟨S_, .i32⟩
  | 65 => ⟨S3300000, .i32⟩
  | 66 => ⟨S3300000, .i32⟩
  | 67 => ⟨S3300000, .i32⟩
  | 68 => ⟨S3300000x1, .i32⟩
  | 69 => ⟨S3300000x64, .f32⟩
  | 70 => ⟨S3300000x64, .f32⟩
  | 71 => ⟨S3300000x64, .f32⟩
  | 72 => ⟨S_, .f32⟩
  | 73 => ⟨S100000x64, .f32⟩
  | 74 => ⟨S3300000x1, .i32⟩
  | 75 => ⟨S100000x64, .f32⟩
  | 76 => ⟨S1x64, .f32⟩
  | 77 => ⟨S100000x64, .f32⟩
  | 78 => ⟨S100000x64, .f32⟩
  | 79 => ⟨S_, .f32⟩
  | 80 => ⟨S_, .f32⟩
  | 81 => ⟨S100000x64, .f32⟩
  | 82 => ⟨S100000x64, .i1⟩
  | 83 => ⟨S_, .f32⟩
  | 84 => ⟨S100000x64, .f32⟩
  | 85 => ⟨S100000x64, .f32⟩
  | 86 => ⟨S100000x64, .f32⟩
  | 87 => ⟨S64x32, .f32⟩
  | 88 => ⟨S100000x32, .f32⟩
  | 89 => ⟨S3300000x1, .f32⟩
  | 90 => ⟨S_, .i32⟩
  | 91 => ⟨S3300000, .i32⟩
  | 92 => ⟨S3300000, .i1⟩
  | 93 => ⟨S_, .i32⟩
  | 94 => ⟨S3300000, .i32⟩
  | 95 => ⟨S3300000, .i32⟩
  | 96 => ⟨S3300000, .i32⟩
  | 97 => ⟨S3300000x1, .i32⟩
  | 98 => ⟨S3300000x32, .f32⟩
  | 99 => ⟨S3300000x32, .f32⟩
  | 100 => ⟨S3300000x32, .f32⟩
  | 101 => ⟨S_, .f32⟩
  | 102 => ⟨S100000x32, .f32⟩
  | 103 => ⟨S3300000x1, .i32⟩
  | 104 => ⟨S100000x32, .f32⟩
  | 105 => ⟨S1x32, .f32⟩
  | 106 => ⟨S100000x32, .f32⟩
  | 107 => ⟨S100000x32, .f32⟩
  | 108 => ⟨S_, .f32⟩
  | 109 => ⟨S_, .f32⟩
  | 110 => ⟨S100000x32, .f32⟩
  | 111 => ⟨S100000x32, .i1⟩
  | 112 => ⟨S_, .f32⟩
  | 113 => ⟨S100000x32, .f32⟩
  | 114 => ⟨S100000x32, .f32⟩
  | 115 => ⟨S100000x32, .f32⟩
  | 116 => ⟨S32x4, .f32⟩
  | 117 => ⟨S100000x4, .f32⟩
  | 118 => ⟨S3300000x1, .f32⟩
  | 119 => ⟨S_, .i32⟩
  | 120 => ⟨S3300000, .i32⟩
  | 121 => ⟨S3300000, .i1⟩
  | 122 => ⟨S_, .i32⟩
  | 123 => ⟨S3300000, .i32⟩
  | 124 => ⟨S3300000, .i32⟩
  | 125 => ⟨S3300000, .i32⟩
  | 126 => ⟨S3300000x1, .i32⟩
  | 127 => ⟨S3300000x4, .f32⟩
  | _ => ⟨S100000x128, .f32⟩

abbrev hbmTy0_1 (i : Nat) : BufTy := match i % 128 with
  | 0 => ⟨S3300000x4, .f32⟩
  | 1 => ⟨S3300000x4, .f32⟩
  | 2 => ⟨S_, .f32⟩
  | 3 => ⟨S100000x4, .f32⟩
  | 4 => ⟨S3300000x1, .i32⟩
  | 5 => ⟨S100000x4, .f32⟩
  | 6 => ⟨S1x4, .f32⟩
  | 7 => ⟨S100000x4, .f32⟩
  | 8 => ⟨S100000x4, .f32⟩
  | 9 => ⟨S_, .f32⟩
  | 10 => ⟨S100000, .f32⟩
  | 11 => ⟨S_, .f32⟩
  | 12 => ⟨S100000, .f32⟩
  | 13 => ⟨S100000, .f32⟩
  | 14 => ⟨S100000x1, .f32⟩
  | 15 => ⟨S100000x4, .f32⟩
  | 16 => ⟨S100000x4, .f32⟩
  | 17 => ⟨S100000x4, .f32⟩
  | 18 => ⟨S_, .f32⟩
  | 19 => ⟨S100000, .f32⟩
  | 20 => ⟨S100000x1, .f32⟩
  | 21 => ⟨S100000x4, .f32⟩
  | 22 => ⟨S100000x4, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v16 : Ref sig .tc := ⟨.hbm, 32, rfl⟩
abbrev main_v17 : Ref sig .tc := ⟨.hbm, 33, rfl⟩
abbrev main_cst_4 : Ref sig .tc := ⟨.hbm, 34, rfl⟩
abbrev main_call1_v0 : Ref sig .tc := ⟨.hbm, 35, rfl⟩
abbrev main_call1_v1 : Ref sig .tc := ⟨.hbm, 36, rfl⟩
abbrev main_v18 : Ref sig .tc := ⟨.hbm, 37, rfl⟩
abbrev main_c : Ref sig .tc := ⟨.hbm, 38, rfl⟩
abbrev main_v19 : Ref sig .tc := ⟨.hbm, 39, rfl⟩
abbrev main_v20 : Ref sig .tc := ⟨.hbm, 40, rfl⟩
abbrev main_c_5 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_c_6 : Ref sig .tc := ⟨.hbm, 48, rfl⟩
abbrev main_v27 : Ref sig .tc := ⟨.hbm, 49, rfl⟩
abbrev main_v28 : Ref sig .tc := ⟨.hbm, 50, rfl⟩
abbrev main_c_7 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_c_8 : Ref sig .tc := ⟨.hbm, 61, rfl⟩
abbrev main_v38 : Ref sig .tc := ⟨.hbm, 62, rfl⟩
abbrev main_v39 : Ref sig .tc := ⟨.hbm, 63, rfl⟩
abbrev main_c_9 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_cst_10 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_cst_11 : Ref sig .tc := ⟨.hbm, 79, rfl⟩
abbrev main_call2_cst : Ref sig .tc := ⟨.hbm, 80, rfl⟩
abbrev main_call2_v0 : Ref sig .tc := ⟨.hbm, 81, rfl⟩
abbrev main_call2_v1 : Ref sig .tc := ⟨.hbm, 82, rfl⟩
abbrev main_call2_v2 : Ref sig .tc := ⟨.hbm, 83, rfl⟩
abbrev main_call2_v3 : Ref sig .tc := ⟨.hbm, 84, rfl⟩
abbrev main_call2_v4 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_c_12 : Ref sig .tc := ⟨.hbm, 90, rfl⟩
abbrev main_v57 : Ref sig .tc := ⟨.hbm, 91, rfl⟩
abbrev main_v58 : Ref sig .tc := ⟨.hbm, 92, rfl⟩
abbrev main_c_13 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_cst_14 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_cst_15 : Ref sig .tc := ⟨.hbm, 108, rfl⟩
abbrev main_call3_cst : Ref sig .tc := ⟨.hbm, 109, rfl⟩
abbrev main_call3_v0 : Ref sig .tc := ⟨.hbm, 110, rfl⟩
abbrev main_call3_v1 : Ref sig .tc := ⟨.hbm, 111, rfl⟩
abbrev main_call3_v2 : Ref sig .tc := ⟨.hbm, 112, rfl⟩
abbrev main_call3_v3 : Ref sig .tc := ⟨.hbm, 113, rfl⟩
abbrev main_call3_v4 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_c_16 : Ref sig .tc := ⟨.hbm, 119, rfl⟩
abbrev main_v76 : Ref sig .tc := ⟨.hbm, 120, rfl⟩
abbrev main_v77 : Ref sig .tc := ⟨.hbm, 121, rfl⟩
abbrev main_c_17 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_cst_18 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_cst_19 : Ref sig .tc := ⟨.hbm, 137, rfl⟩
abbrev main_v91 : Ref sig .tc := ⟨.hbm, 138, rfl⟩
abbrev main_cst_20 : Ref sig .tc := ⟨.hbm, 139, rfl⟩
abbrev main_v92 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩
abbrev main_v97 : Ref sig .tc := ⟨.hbm, 145, rfl⟩
abbrev main_cst_21 : Ref sig .tc := ⟨.hbm, 146, rfl⟩
abbrev main_v98 : Ref sig .tc := ⟨.hbm, 147, rfl⟩
abbrev main_v99 : Ref sig .tc := ⟨.hbm, 148, rfl⟩
abbrev main_v100 : Ref sig .tc := ⟨.hbm, 149, rfl⟩
abbrev main_v101 : Ref sig .tc := ⟨.hbm, 150, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S100000 : S_.BroadcastsInDim S100000 (![] : Fin 0 → Fin S100000.rank)
  bcast_S3300000_S3300000x1_0 : S3300000.BroadcastsInDim S3300000x1 (![0] : Fin 1 → Fin S3300000x1.rank)
  bcast_S_S3300000 : S_.BroadcastsInDim S3300000 (![] : Fin 0 → Fin S3300000.rank)
  transposes_S64x128_S128x64_1_0 : S64x128.Transposes [1, 0] S128x64
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  transposes_S32x64_S64x32_1_0 : S32x64.Transposes [1, 0] S64x32
  bcast_S3300000x1_S3300000x32_0_1 : S3300000x1.BroadcastsInDim S3300000x32 (![0, 1] : Fin 2 → Fin S3300000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  transposes_S4x32_S32x4_1_0 : S4x32.Transposes [1, 0] S32x4
  bcast_S3300000x1_S3300000x4_0_1 : S3300000x1.BroadcastsInDim S3300000x4 (![0, 1] : Fin 2 → Fin S3300000x4.rank)
  bcast_S_S100000x4 : S_.BroadcastsInDim S100000x4 (![] : Fin 0 → Fin S100000x4.rank)
  bcast_S4_S1x4_1 : S4.BroadcastsInDim S1x4 (![1] : Fin 1 → Fin S1x4.rank)
  bcast_S1x4_S100000x4_0_1 : S1x4.BroadcastsInDim S100000x4 (![0, 1] : Fin 2 → Fin S100000x4.rank)
  reducesTo_S100000x4_S100000_d1 : S100000x4.ReducesTo [1] S100000
  h_S_ : 0 < S_.numel
  bcast_S100000_S100000x1_0 : S100000.BroadcastsInDim S100000x1 (![0] : Fin 1 → Fin S100000x1.rank)
  bcast_S100000x1_S100000x4_0_1 : S100000x1.BroadcastsInDim S100000x4 (![0, 1] : Fin 2 → Fin S100000x4.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x128_S128x64_S100000x64_1_0_0_1_n_n_wf : DotDims.WF S100000x128 S128x64 S100000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S100000x64_S64x32_S100000x32_1_0_0_1_n_n_wf : DotDims.WF S100000x64 S64x32 S100000x32 [1] [0] [0] [1] [] []
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1
  dot_S100000x32_S32x4_S100000x4_1_0_0_1_n_n_wf : DotDims.WF S100000x32 S32x4 S100000x4 [1] [0] [0] [1] [] []
  gather_S100000x4_S3300000x1_S3300000x4_1_0_n_n_0_1_14_wf : GatherDims.WF S100000x4 S3300000x1 S3300000x4 [1] [0] [] [0] [] 1 ![1, 4]
  scatter_S100000x4_S3300000x1_S3300000x4_1_0_0_1_wf : ScatterDims.WF S100000x4 S3300000x1 S3300000x4 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf
def dot_S100000x32_S32x4_S100000x4_1_0_0_1_n_n : DotDims S100000x32 S32x4 S100000x4 where
  lhsContracting := [1]
  rhsContracting := [0]
  lhsNonContracting := [0]
  rhsNonContracting := [1]
  lhsBatch := []
  rhsBatch := []
  wf := dot_S100000x32_S32x4_S100000x4_1_0_0_1_n_n_wf
def gather_S100000x4_S3300000x1_S3300000x4_1_0_n_n_0_1_14 : GatherDims S100000x4 S3300000x1 S3300000x4 where
  offsetDims := [1]
  collapsedSliceDims := [0]
  operandBatchingDims := []
  startIndicesBatchingDims := []
  startIndexMap := [0]
  indexVectorDim := 1
  sliceSizes := ![1, 4]
  wf := gather_S100000x4_S3300000x1_S3300000x4_1_0_n_n_0_1_14_wf
def scatter_S100000x4_S3300000x1_S3300000x4_1_0_0_1 : ScatterDims S100000x4 S3300000x1 S3300000x4 where
  updateWindowDims := [1]
  insertedWindowDims := [0]
  scatterDimsToOperandDims := [0]
  indexVectorDim := 1
  wf := scatter_S100000x4_S3300000x1_S3300000x4_1_0_0_1_wf

class Facts : Prop extends Facts₀ where

variable [Facts]
-- ==== Proof.KernelRun.lean ====
/-
  The idealized kernel's run with its result named.

  The program is fourteen segments: stretches of host operations and six grid regions. The contents of every buffer
  at each boundary are a fold from the launch memory (`W0` … `W14` of the generated frame); the run ends with every
  unscoped buffer at the last boundary's contents `W14`. Read at the result buffer this names the result; read at
  the nine arguments it gives them back unchanged.
-/
import proofs.«161395_j41188736369372_1_alg».proof.Proof.Gen.KernelIdeal.Frame

set_option maxRecDepth 16384

noncomputable section

namespace Cert.KernelIdeal.ResultRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of the idealized kernel terminates, nothing faulting, with the result buffer at the
    last boundary's contents and the nine arguments as launched. -/
theorem run_result : θ_run defs (onTc (τ := τ) (main (F := F))) ⟨m, fun _ => 0, ρ⟩ (fun r => ∀ c : Dev nD,
      r.2.mem ((c.tc : Thread nD τ).loc main_v82) = W14 m ρ c (Proc.devRef .tc main_v82)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v82 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c),
       (h c _ (mem_uc main_arg8 (by decide))).trans (W14_main_arg8 m ρ c)⟩)

end Cert.KernelIdeal.ResultRun

end
-- ==== Proof.Stages.lean ====
/-
  The reference network's three kinds of layer step, each as ONE function of whole arrays, spelled with the host
  operations the reference program itself applies (so that the reference's run meets them syntactically).

  * `dense1`, `dense2`, `dense3`: a feature matrix `x : [100000, K]` against a weight `w : [N, K]` is the product
    `x · wᵀ`, entry `(r, n) = ∑ₖ x(r, k) · w(n, k)` — the host spells it as a transposition of `w` followed by the
    general dot product contracting `x`'s columns with the transposed weight's rows.
  * `act64`, `act32`: the aggregated features plus the bias (the bias laid out as one row and repeated down the
    rows), then the leaky rectifier `v ↦ v` where `v ≥ 0` and `c · v` elsewhere, `c` the literal slope.
  * `soft`: the aggregated features plus the bias, then the softmax of every row: with `M` the larger of `-∞` and
    the row's maximum, entry `j` is `exp(vⱼ - M) / ∑ₖ exp(vₖ - M)`.
-/
import proofs.«161395_j41188736369372_1_alg».proof.ReferenceIdeal
import proofs.«161395_j41188736369372_1_alg».proof.Proof.Gen.ReferenceIdeal

noncomputable section

namespace Cert.ReferenceIdeal.Stages

open Cert.ReferenceIdeal Cert.ReferenceIdeal.Gen Idealize.ShloMosaic

variable {F : FTy → Type} [FloatOps F]

/-- `x · wᵀ` for `x : [100000, 128]`, `w : [64, 128]`. -/
def dense1 (x : FVec F S100000x128 .f32) (w : FVec F S64x128 .f32) : FVec F S100000x64 .f32 :=
  Host.dotGeneral dot_S100000x128_S128x64_S100000x64_1_0_0_1_n_n none x
    (transpose S128x64 [1, 0] w transposes_S64x128_S128x64_1_0)

/-- `x · wᵀ` for `x : [100000, 64]`, `w : [32, 64]`. -/
def dense2 (x : FVec F S100000x64 .f32) (w : FVec F S32x64 .f32) : FVec F S100000x32 .f32 :=
  Host.dotGeneral dot_S100000x64_S64x32_S100000x32_1_0_0_1_n_n none x
    (transpose S64x32 [1, 0] w transposes_S32x64_S64x32_1_0)

/-- `x · wᵀ` for `x : [100000, 32]`, `w : [4, 32]`. -/
def dense3 (x : FVec F S100000x32 .f32) (w : FVec F S4x32 .f32) : FVec F S100000x4 .f32 :=
  Host.dotGeneral dot_S100000x32_S32x4_S100000x4_1_0_0_1_n_n none x
    (transpose S32x4 [1, 0] w transposes_S4x32_S32x4_1_0)

/-- Bias, then the leaky rectifier, at width 64: with `v = a + b` (the bias repeated down the rows), `v` where
    `v ≥ 0` and `c · v` elsewhere. -/
def act64 (a : FVec F S100000x64 .f32) (b : FVec F S64 .f32) : FVec F S100000x64 .f32 :=
  let v : FVec F S100000x64 .f32 :=
    addf a (broadcastInDim S100000x64 ![0, 1] bcast_S1x64_S100000x64_0_1 (broadcastInDim S1x64 ![1] bcast_S64_S1x64_1 b))
  select (cmpf .oge v (broadcastInDim S100000x64 ![] bcast_S_S100000x64 (constant S_ .f32 0x00000000#32))) v
    (mulf (broadcastInDim S100000x64 ![] bcast_S_S100000x64 (constant S_ .f32 0x3C23D70A#32)) v)

/-- Bias, then the leaky rectifier, at width 32. -/
def act32 (a : FVec F S100000x32 .f32) (b : FVec F S32 .f32) : FVec F S100000x32 .f32 :=
  let v : FVec F S100000x32 .f32 :=
    addf a (broadcastInDim S100000x32 ![0, 1] bcast_S1x32_S100000x32_0_1 (broadcastInDim S1x32 ![1] bcast_S32_S1x32_1 b))
  select (cmpf .oge v (broadcastInDim S100000x32 ![] bcast_S_S100000x32 (constant S_ .f32 0x00000000#32))) v
    (mulf (broadcastInDim S100000x32 ![] bcast_S_S100000x32 (constant S_ .f32 0x3C23D70A#32)) v)

/-- Bias, then the softmax of every row of four entries. -/
def soft (a : FVec F S100000x4 .f32) (b : FVec F S4 .f32) : FVec F S100000x4 .f32 :=
  let v : FVec F S100000x4 .f32 :=
    addf a (broadcastInDim S100000x4 ![0, 1] bcast_S1x4_S100000x4_0_1 (broadcastInDim S1x4 ![1] bcast_S4_S1x4_1 b))
  let mx : FVec F S100000 .f32 :=
    maximumf (broadcastInDim S100000 ![] bcast_S_S100000 (constant S_ .f32 0xFF800000#32))
      (Host.reduce FloatOps.maximumf v (constant S_ .f32 0xFF800000#32) reducesTo_S100000x4_S100000_d1 h_S_)
  let e : FVec F S100000x4 .f32 :=
    Host.exp (subf v (broadcastInDim S100000x4 ![0, 1] bcast_S100000x1_S100000x4_0_1
      (broadcastInDim S100000x1 ![0] bcast_S100000_S100000x1_0 mx)))
  Host.divf e (broadcastInDim S100000x4 ![0, 1] bcast_S100000x1_S100000x4_0_1
    (broadcastInDim S100000x1 ![0] bcast_S100000_S100000x1_0
      (Host.reduceAdd e (constant S_ .f32 0x00000000#32) reducesTo_S100000x4_S100000_d1 h_S_)))

end Cert.ReferenceIdeal.Stages

end
-- ==== Proof.DenseRegions.lean ====
/-
  The three matrix-product regions of the idealized kernel, from blocks to whole arrays.

  Each region walks ten grid points; point `t` loads rows `10000·t … 10000·t + 9999` of the feature matrix and the
  whole weight, and writes back the same rows of the output. Given that what the body stores from such a block is
  those rows of the whole product `x · wᵀ` (the hypothesis `hB` of each theorem, a statement about the body's
  arithmetic alone), the output array ends holding the whole product: the ten row blocks tile the array, block `t`
  at rows `10000·t + r`, and each is the restriction of one whole-array function.
-/
import proofs.«161395_j41188736369372_1_alg».proof.Proof.Stages
import proofs.«161395_j41188736369372_1_alg».proof.Proof.Gen.KernelIdeal.Frame
import Idealize.ShloMosaic.Lib.ValueIdx
import Idealize.ShloMosaic.Lib.Pipeline.Value

set_option maxRecDepth 16384

noncomputable section

namespace Cert.KernelIdeal.DenseRegions

open Cert.KernelIdeal Cert.KernelIdeal.Gen Idealize.ShloMosaic Idealize.ShloMosaic.TcCoe Idealize.ShloMosaic.ValueIdx
open Idealize.SL Idealize.SL.Sem
open Idealize.ShloMosaic.Pipeline (Dat Cfg Window)

-- the buffer contents a region is entered with
variable (V : (c : Dev nD) → (b : Ref sig .tc) → Buf (Elt Ideal) ((c : Thread nD τ).loc b))

/-! ## Region 0: rows `10000·t … 10000·t + 9999` of `x · W₁ᵀ` at grid point `t` -/

/-- Over the grid the output's and the left operand's blocks are at block row `t`, block column `0`; the weight's
    block is the whole weight. -/
theorem idx0 : ∀ t : Fin cfg0.N, win0_2.index t (0 : Fin 2) = t.val ∧ win0_2.index t (1 : Fin 2) = 0
    ∧ win0_0.index t (0 : Fin 2) = t.val ∧ win0_0.index t (1 : Fin 2) = 0
    ∧ win0_1.index t (0 : Fin 2) = 0 ∧ win0_1.index t (1 : Fin 2) = 0 :=
  (by decide +kernel : ∀ t : Fin grid0.N, _)

/-- An index of the output array lies in point `t`'s block iff each coordinate lies in the block's range. -/
theorem mem_blk0 (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v35).slice (win0_2.rect t)).set ↔ _
  rw [View.set_slice_whole, Rect.mem_set_unit]
  exact Iff.rfl

/-- Row `r` of the output is written at point `r / 10000`: the ten blocks tile the array. -/
theorem cover0 (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 10 := N_0
  refine ⟨⟨(i 0).val / 10000, by rw [hN]; omega⟩, flush0_2 _, ?_⟩
  rw [mem_blk0]
  obtain ⟨e0, e1, -, -, -, -⟩ := idx0 ⟨(i 0).val / 10000, by rw [hN]; omega⟩
  intro a
  match a with
  | ⟨0, _⟩ => show win0_2.index _ (0 : Fin 2) * 10000 ≤ (i 0).val ∧ (i 0).val < win0_2.index _ (0 : Fin 2) * 10000 + 10000; rw [e0]; show (i 0).val / 10000 * 10000 ≤ _ ∧ _ < (i 0).val / 10000 * 10000 + 10000; omega
  | ⟨1, _⟩ => show win0_2.index _ (1 : Fin 2) * 64 ≤ (i 1).val ∧ (i 1).val < win0_2.index _ (1 : Fin 2) * 64 + 64; rw [e1]; omega

/-- What the body stores from a block holding rows `10000·t + r` of `x` and the whole weight, read at `j`, is the
    whole product at the index `i` with `i₀ = 10000·t + j₀`, `i₁ = j₁`. -/
theorem block0
    (hB : ∀ (xb : Vec Ideal S10000x128 .f32) (w : Vec Ideal S64x128 .f32) (x : FVec Ideal S100000x128 .f32) (e : Fin 10000 → Fin 100000),
      (∀ r k, xb (ix2 r k) = x (ix2 (e r) k)) → ∀ r j, out0_2 (F := Ideal) xb w (ix2 r j) = Cert.ReferenceIdeal.Stages.dense1 (F := Ideal) x w (ix2 (e r) j))
    (x : FVec Ideal S100000x128 .f32) (w : Vec Ideal S64x128 .f32) (xb : Vec Ideal S10000x128 .f32) (wb : Vec Ideal S64x128 .f32)
    (t : ℕ) (ht : t < 10)
    (hx : ∀ (r : Fin 10000) (k : Fin 128), xb (ix2 r k) = x (ix2 (⟨t * 10000 + r.val, by have := r.isLt; omega⟩ : Fin 100000) k))
    (hw : wb = w) (j : S10000x64.Idx) (i : S100000x64.Idx)
    (h0 : (i 0).val = t * 10000 + (j 0).val) (h1 : (i 1).val = (j 1).val) :
    out0_2 (F := Ideal) xb wb j = Cert.ReferenceIdeal.Stages.dense1 (F := Ideal) x w i := by
  subst hw
  have hi : i = ix2 (⟨t * 10000 + (j 0).val, by have hj : (j 0).val < 10000 := (j 0).isLt; omega⟩ : Fin 100000) (j 1) := by
    funext a; apply Fin.ext
    match a with
    | ⟨0, _⟩ => exact h0
    | ⟨1, _⟩ => exact h1
  rw [hi, eq_ix2 j]
  exact hB xb wb x (fun r => ⟨t * 10000 + r.val, by have := r.isLt; omega⟩) hx (j 0) (j 1)

/-- What point `t` writes back is block `t` of the whole product. -/
theorem flushed0 (c : Dev nD)
    (hB : ∀ (xb : Vec Ideal S10000x128 .f32) (w : Vec Ideal S64x128 .f32) (x : FVec Ideal S100000x128 .f32) (e : Fin 10000 → Fin 100000),
      (∀ r k, xb (ix2 r k) = x (ix2 (e r) k)) → ∀ r j, out0_2 (F := Ideal) xb w (ix2 r j) = Cert.ReferenceIdeal.Stages.dense1 (F := Ideal) x w (ix2 (e r) j))
    (t : Fin cfg0.N) :
    (dat0 V c).flushed 2 t = ((cfg0.win 2).blk t).view.read (Elt Ideal) (Cert.ReferenceIdeal.Stages.dense1 (F := Ideal) (V c main_arg0) (V c main_arg3)) := by
  show (cfg0.win 2).cut (grid0.coords t) ((dat0 V c).after 2 t) = _
  rw [after0_2]
  obtain ⟨e0, e1, e2, e3, e4, e5⟩ := idx0 t
  have hN : cfg0.N = 10 := N_0
  have ht : t.val < 10 := hN ▸ t.isLt
  funext j
  show out0_2 (F := Ideal) (iblk0 V c 0 t) (iblk0 V c 1 t) j = Cert.ReferenceIdeal.Stages.dense1 (F := Ideal) (V c main_arg0) (V c main_arg3) (((cfg0.win 2).blk t).view.emb j)
  refine block0 hB (V c main_arg0) (V c main_arg3) (iblk0 V c 0 t) (iblk0 V c 1 t) t.val ht ?_ ?_ j _ ?_ ?_
  · intro r k
    show V c main_arg0 (((cfg0.win 0).blk t).view.emb (ix2 r k)) = V c main_arg0 _
    refine congrArg (V c main_arg0) ?_
    funext a; apply Fin.ext
    match a with
    | ⟨0, _⟩ => show win0_0.index t (0 : Fin 2) * 10000 + 1 * r.val = t.val * 10000 + r.val; rw [e2]; omega
    | ⟨1, _⟩ => show win0_0.index t (1 : Fin 2) * 128 + 1 * k.val = k.val; rw [e3]; omega
  · funext y
    show V c main_arg3 (((cfg0.win 1).blk t).view.emb y) = V c main_arg3 y
    refine congrArg (V c main_arg3) ?_
    funext a; apply Fin.ext
    match a with
    | ⟨0, _⟩ => show win0_1.index t (0 : Fin 2) * 64 + 1 * (y 0).val = (y 0).val; rw [e4]; omega
    | ⟨1, _⟩ => show win0_1.index t (1 : Fin 2) * 128 + 1 * (y 1).val = (y 1).val; rw [e5]; omega
  · show win0_2.index t (0 : Fin 2) * 10000 + 1 * (j 0).val = t.val * 10000 + (j 0).val; rw [e0]; omega
  · show win0_2.index t (1 : Fin 2) * 64 + 1 * (j 1).val = (j 1).val; rw [e1]; omega

/-- The region's output array ends holding the whole product of the arrays it was entered with. -/
theorem final0 (c : Dev nD)
    (hB : ∀ (xb : Vec Ideal S10000x128 .f32) (w : Vec Ideal S64x128 .f32) (x : FVec Ideal S100000x128 .f32) (e : Fin 10000 → Fin 100000),
      (∀ r k, xb (ix2 r k) = x (ix2 (e r) k)) → ∀ r j, out0_2 (F := Ideal) xb w (ix2 r j) = Cert.ReferenceIdeal.Stages.dense1 (F := Ideal) x w (ix2 (e r) j)) :
    (dat0 V c).arrAt 2 cfg0.N = Cert.ReferenceIdeal.Stages.dense1 (F := Ideal) (V c main_arg0) (V c main_arg3) :=
  (dat0 V c).arrAt_eq_of_cover 2 _ (fun t _ => flushed0 V c hB t) cover0

/-! ## Region 2: rows `10000·t … 10000·t + 9999` of `h₁ · W₂ᵀ` at grid point `t` -/

/-- Over the grid the output's and the left operand's blocks are at block row `t`, block column `0`; the weight's
    block is the whole weight. -/
theorem idx2 : ∀ t : Fin cfg2.N, win2_2.index t (0 : Fin 2) = t.val ∧ win2_2.index t (1 : Fin 2) = 0
    ∧ win2_0.index t (0 : Fin 2) = t.val ∧ win2_0.index t (1 : Fin 2) = 0
    ∧ win2_1.index t (0 : Fin 2) = 0 ∧ win2_1.index t (1 : Fin 2) = 0 :=
  (by decide +kernel : ∀ t : Fin grid2.N, _)

/-- An index of the output array lies in point `t`'s block iff each coordinate lies in the block's range. -/
theorem mem_blk2 (t : Fin cfg2.N) (i : S100000x32.Idx) :
    i ∈ ((cfg2.win 2).blk t).view.set ↔ ∀ a : Fin 2, win2_2.index t a * S10000x32.size a ≤ (i a).val ∧ (i a).val < win2_2.index t a * S10000x32.size a + S10000x32.size a := by
  show i ∈ ((View.whole main_v51).slice (win2_2.rect t)).set ↔ _
  rw [View.set_slice_whole, Rect.mem_set_unit]
  exact Iff.rfl

/-- Row `r` of the output is written at point `r / 10000`: the ten blocks tile the array. -/
theorem cover2 (i : S100000x32.Idx) : ∃ t : Fin cfg2.N, (cfg2.win 2).flush t = true ∧ i ∈ ((cfg2.win 2).blk t).view.set := by
  have hi0 : (i 0).val < 100000 := (i 0).isLt
  have hi1 : (i 1).val < 32 := (i 1).isLt
  have hN : cfg2.N = 10 := N_2
  refine ⟨⟨(i 0).val / 10000, by rw [hN]; omega⟩, flush2_2 _, ?_⟩
  rw [mem_blk2]
  obtain ⟨e0, e1, -, -, -, -⟩ := idx2 ⟨(i 0).val / 10000, by rw [hN]; omega⟩
  intro a
  match a with
  | ⟨0, _⟩ => show win2_2.index _ (0 : Fin 2) * 10000 ≤ (i 0).val ∧ (i 0).val < win2_2.index _ (0 : Fin 2) * 10000 + 10000; rw [e0]; show (i 0).val / 10000 * 10000 ≤ _ ∧ _ < (i 0).val / 10000 * 10000 + 10000; omega
  | ⟨1, _⟩ => show win2_2.index _ (1 : Fin 2) * 32 ≤ (i 1).val ∧ (i 1).val < win2_2.index _ (1 : Fin 2) * 32 + 32; rw [e1]; omega

/-- What the body stores from a block holding rows `10000·t + r` of `x` and the whole weight, read at `j`, is the
    whole product at the index `i` with `i₀ = 10000·t + j₀`, `i₁ = j₁`. -/
theorem block2
    (hB : ∀ (xb : Vec Ideal S10000x64 .f32) (w : Vec Ideal S32x64 .f32) (x : FVec Ideal S100000x64 .f32) (e : Fin 10000 → Fin 100000),
      (∀ r k, xb (ix2 r k) = x (ix2 (e r) k)) → ∀ r j, out2_2 (F := Ideal) xb w (ix2 r j) = Cert.ReferenceIdeal.Stages.dense2 (F := Ideal) x w (ix2 (e r) j))
    (x : FVec Ideal S100000x64 .f32) (w : Vec Ideal S32x64 .f32) (xb : Vec Ideal S10000x64 .f32) (wb : Vec Ideal S32x64 .f32)
    (t : ℕ) (ht : t < 10)
    (hx : ∀ (r : Fin 10000) (k : Fin 64), xb (ix2 r k) = x (ix2 (⟨t * 10000 + r.val, by have := r.isLt; omega⟩ : Fin 100000) k))
    (hw : wb = w) (j : S10000x32.Idx) (i : S100000x32.Idx)
    (h0 : (i 0).val = t * 10000 + (j 0).val) (h1 : (i 1).val = (j 1).val) :
    out2_2 (F := Ideal) xb wb j = Cert.ReferenceIdeal.Stages.dense2 (F := Ideal) x w i := by
  subst hw
  have hi : i = ix2 (⟨t * 10000 + (j 0).val, by have hj : (j 0).val < 10000 := (j 0).isLt; omega⟩ : Fin 100000) (j 1) := by
    funext a; apply Fin.ext
    match a with
    | ⟨0, _⟩ => exact h0
    | ⟨1, _⟩ => exact h1
  rw [hi, eq_ix2 j]
  exact hB xb wb x (fun r => ⟨t * 10000 + r.val, by have := r.isLt; omega⟩) hx (j 0) (j 1)

/-- What point `t` writes back is block `t` of the whole product. -/
theorem flushed2 (c : Dev nD)
    (hB : ∀ (xb : Vec Ideal S10000x64 .f32) (w : Vec Ideal S32x64 .f32) (x : FVec Ideal S100000x64 .f32) (e : Fin 10000 → Fin 100000),
      (∀ r k, xb (ix2 r k) = x (ix2 (e r) k)) → ∀ r j, out2_2 (F := Ideal) xb w (ix2 r j) = Cert.ReferenceIdeal.Stages.dense2 (F := Ideal) x w (ix2 (e r) j))
    (t : Fin cfg2.N) :
    (dat2 V c).flushed 2 t = ((cfg2.win 2).blk t).view.read (Elt Ideal) (Cert.ReferenceIdeal.Stages.dense2 (F := Ideal) (V c main_v50) (V c main_arg5)) := by
  show (cfg2.win 2).cut (grid2.coords t) ((dat2 V c).after 2 t) = _
  rw [after2_2]
  obtain ⟨e0, e1, e2, e3, e4, e5⟩ := idx2 t
  have hN : cfg2.N = 10 := N_2
  have ht : t.val < 10 := hN ▸ t.isLt
  funext j
  show out2_2 (F := Ideal) (iblk2 V c 0 t) (iblk2 V c 1 t) j = Cert.ReferenceIdeal.Stages.dense2 (F := Ideal) (V c main_v50) (V c main_arg5) (((cfg2.win 2).blk t).view.emb j)
  refine block2 hB (V c main_v50) (V c main_arg5) (iblk2 V c 0 t) (iblk2 V c 1 t) t.val ht ?_ ?_ j _ ?_ ?_
  · intro r k
    show V c main_v50 (((cfg2.win 0).blk t).view.emb (ix2 r k)) = V c main_v50 _
    refine congrArg (V c main_v50) ?_
    funext a; apply Fin.ext
    match a with
    | ⟨0, _⟩ => show win2_0.index t (0 : Fin 2) * 10000 + 1 * r.val = t.val * 10000 + r.val; rw [e2]; omega
    | ⟨1, _⟩ => show win2_0.index t (1 : Fin 2) * 64 + 1 * k.val = k.val; rw [e3]; omega
  · funext y
    show V c main_arg5 (((cfg2.win 1).blk t).view.emb y) = V c main_arg5 y
    refine congrArg (V c main_arg5) ?_
    funext a; apply Fin.ext
    match a with
    | ⟨0, _⟩ => show win2_1.index t (0 : Fin 2) * 32 + 1 * (y 0).val = (y 0).val; rw [e4]; omega
    | ⟨1, _⟩ => show win2_1.index t (1 : Fin 2) * 64 + 1 * (y 1).val = (y 1).val; rw [e5]; omega
  · show win2_2.index t (0 : Fin 2) * 10000 + 1 * (j 0).val = t.val * 10000 + (j 0).val; rw [e0]; omega
  · show win2_2.index t (1 : Fin 2) * 32 + 1 * (j 1).val = (j 1).val; rw [e1]; omega

/-- The region's output array ends holding the whole product of the arrays it was entered with. -/
theorem final2 (c : Dev nD)
    (hB : ∀ (xb : Vec Ideal S10000x64 .f32) (w : Vec Ideal S32x64 .f32) (x : FVec Ideal S100000x64 .f32) (e : Fin 10000 → Fin 100000),
      (∀ r k, xb (ix2 r k) = x (ix2 (e r) k)) → ∀ r j, out2_2 (F := Ideal) xb w (ix2 r j) = Cert.ReferenceIdeal.Stages.dense2 (F := Ideal) x w (ix2 (e r) j)) :
    (dat2 V c).arrAt 2 cfg2.N = Cert.ReferenceIdeal.Stages.dense2 (F := Ideal) (V c main_v50) (V c main_arg5) :=
  (dat2 V c).arrAt_eq_of_cover 2 _ (fun t _ => flushed2 V c hB t) cover2

/-! ## Region 4: rows `10000·t … 10000·t + 9999` of `h₂ · W₃ᵀ` at grid point `t` -/

/-- Over the grid the output's and the left operand's blocks are at block row `t`, block column `0`; the weight's
    block is the whole weight. -/
theorem idx4 : ∀ t : Fin cfg4.N, win4_2.index t (0 : Fin 2) = t.val ∧ win4_2.index t (1 : Fin 2) = 0
    ∧ win4_0.index t (0 : Fin 2) = t.val ∧ win4_0.index t (1 : Fin 2) = 0
    ∧ win4_1.index t (0 : Fin 2) = 0 ∧ win4_1.index t (1 : Fin 2) = 0 :=
  (by decide +kernel : ∀ t : Fin grid4.N, _)

/-- An index of the output array lies in point `t`'s block iff each coordinate lies in the block's range. -/
theorem mem_blk4 (t : Fin cfg4.N) (i : S100000x4.Idx) :
    i ∈ ((cfg4.win 2).blk t).view.set ↔ ∀ a : Fin 2, win4_2.index t a * S10000x4.size a ≤ (i a).val ∧ (i a).val < win4_2.index t a * S10000x4.size a + S10000x4.size a := by
  show i ∈ ((View.whole main_v67).slice (win4_2.rect t)).set ↔ _
  rw [View.set_slice_whole, Rect.mem_set_unit]
  exact Iff.rfl

/-- Row `r` of the output is written at point `r / 10000`: the ten blocks tile the array. -/
theorem cover4 (i : S100000x4.Idx) : ∃ t : Fin cfg4.N, (cfg4.win 2).flush t = true ∧ i ∈ ((cfg4.win 2).blk t).view.set := by
  have hi0 : (i 0).val < 100000 := (i 0).isLt
  have hi1 : (i 1).val < 4 := (i 1).isLt
  have hN : cfg4.N = 10 := N_4
  refine ⟨⟨(i 0).val / 10000, by rw [hN]; omega⟩, flush4_2 _, ?_⟩
  rw [mem_blk4]
  obtain ⟨e0, e1, -, -, -, -⟩ := idx4 ⟨(i 0).val / 10000, by rw [hN]; omega⟩
  intro a
  match a with
  | ⟨0, _⟩ => show win4_2.index _ (0 : Fin 2) * 10000 ≤ (i 0).val ∧ (i 0).val < win4_2.index _ (0 : Fin 2) * 10000 + 10000; rw [e0]; show (i 0).val / 10000 * 10000 ≤ _ ∧ _ < (i 0).val / 10000 * 10000 + 10000; omega
  | ⟨1, _⟩ => show win4_2.index _ (1 : Fin 2) * 4 ≤ (i 1).val ∧ (i 1).val < win4_2.index _ (1 : Fin 2) * 4 + 4; rw [e1]; omega

/-- What the body stores from a block holding rows `10000·t + r` of `x` and the whole weight, read at `j`, is the
    whole product at the index `i` with `i₀ = 10000·t + j₀`, `i₁ = j₁`. -/
theorem block4
    (hB : ∀ (xb : Vec Ideal S10000x32 .f32) (w : Vec Ideal S4x32 .f32) (x : FVec Ideal S100000x32 .f32) (e : Fin 10000 → Fin 100000),
      (∀ r k, xb (ix2 r k) = x (ix2 (e r) k)) → ∀ r j, out4_2 (F := Ideal) xb w (ix2 r j) = Cert.ReferenceIdeal.Stages.dense3 (F := Ideal) x w (ix2 (e r) j))
    (x : FVec Ideal S100000x32 .f32) (w : Vec Ideal S4x32 .f32) (xb : Vec Ideal S10000x32 .f32) (wb : Vec Ideal S4x32 .f32)
    (t : ℕ) (ht : t < 10)
    (hx : ∀ (r : Fin 10000) (k : Fin 32), xb (ix2 r k) = x (ix2 (⟨t * 10000 + r.val, by have := r.isLt; omega⟩ : Fin 100000) k))
    (hw : wb = w) (j : S10000x4.Idx) (i : S100000x4.Idx)
    (h0 : (i 0).val = t * 10000 + (j 0).val) (h1 : (i 1).val = (j 1).val) :
    out4_2 (F := Ideal) xb wb j = Cert.ReferenceIdeal.Stages.dense3 (F := Ideal) x w i := by
  subst hw
  have hi : i = ix2 (⟨t * 10000 + (j 0).val, by have hj : (j 0).val < 10000 := (j 0).isLt; omega⟩ : Fin 100000) (j 1) := by
    funext a; apply Fin.ext
    match a with
    | ⟨0, _⟩ => exact h0
    | ⟨1, _⟩ => exact h1
  rw [hi, eq_ix2 j]
  exact hB xb wb x (fun r => ⟨t * 10000 + r.val, by have := r.isLt; omega⟩) hx (j 0) (j 1)

/-- What point `t` writes back is block `t` of the whole product. -/
theorem flushed4 (c : Dev nD)
    (hB : ∀ (xb : Vec Ideal S10000x32 .f32) (w : Vec Ideal S4x32 .f32) (x : FVec Ideal S100000x32 .f32) (e : Fin 10000 → Fin 100000),
      (∀ r k, xb (ix2 r k) = x (ix2 (e r) k)) → ∀ r j, out4_2 (F := Ideal) xb w (ix2 r j) = Cert.ReferenceIdeal.Stages.dense3 (F := Ideal) x w (ix2 (e r) j))
    (t : Fin cfg4.N) :
    (dat4 V c).flushed 2 t = ((cfg4.win 2).blk t).view.read (Elt Ideal) (Cert.ReferenceIdeal.Stages.dense3 (F := Ideal) (V c main_v66) (V c main_arg7)) := by
  show (cfg4.win 2).cut (grid4.coords t) ((dat4 V c).after 2 t) = _
  rw [after4_2]
  obtain ⟨e0, e1, e2, e3, e4, e5⟩ := idx4 t
  have hN : cfg4.N = 10 := N_4
  have ht : t.val < 10 := hN ▸ t.isLt
  funext j
  show out4_2 (F := Ideal) (iblk4 V c 0 t) (iblk4 V c 1 t) j = Cert.ReferenceIdeal.Stages.dense3 (F := Ideal) (V c main_v66) (V c main_arg7) (((cfg4.win 2).blk t).view.emb j)
  refine block4 hB (V c main_v66) (V c main_arg7) (iblk4 V c 0 t) (iblk4 V c 1 t) t.val ht ?_ ?_ j _ ?_ ?_
  · intro r k
    show V c main_v66 (((cfg4.win 0).blk t).view.emb (ix2 r k)) = V c main_v66 _
    refine congrArg (V c main_v66) ?_
    funext a; apply Fin.ext
    match a with
    | ⟨0, _⟩ => show win4_0.index t (0 : Fin 2) * 10000 + 1 * r.val = t.val * 10000 + r.val; rw [e2]; omega
    | ⟨1, _⟩ => show win4_0.index t (1 : Fin 2) * 32 + 1 * k.val = k.val; rw [e3]; omega
  · funext y
    show V c main_arg7 (((cfg4.win 1).blk t).view.emb y) = V c main_arg7 y
    refine congrArg (V c main_arg7) ?_
    funext a; apply Fin.ext
    match a with
    | ⟨0, _⟩ => show win4_1.index t (0 : Fin 2) * 4 + 1 * (y 0).val = (y 0).val; rw [e4]; omega
    | ⟨1, _⟩ => show win4_1.index t (1 : Fin 2) * 32 + 1 * (y 1).val = (y 1).val; rw [e5]; omega
  · show win4_2.index t (0 : Fin 2) * 10000 + 1 * (j 0).val = t.val * 10000 + (j 0).val; rw [e0]; omega
  · show win4_2.index t (1 : Fin 2) * 4 + 1 * (j 1).val = (j 1).val; rw [e1]; omega

/-- The region's output array ends holding the whole product of the arrays it was entered with. -/
theorem final4 (c : Dev nD)
    (hB : ∀ (xb : Vec Ideal S10000x32 .f32) (w : Vec Ideal S4x32 .f32) (x : FVec Ideal S100000x32 .f32) (e : Fin 10000 → Fin 100000),
      (∀ r k, xb (ix2 r k) = x (ix2 (e r) k)) → ∀ r j, out4_2 (F := Ideal) xb w (ix2 r j) = Cert.ReferenceIdeal.Stages.dense3 (F := Ideal) x w (ix2 (e r) j)) :
    (dat4 V c).arrAt 2 cfg4.N = Cert.ReferenceIdeal.Stages.dense3 (F := Ideal) (V c main_v66) (V c main_arg7) :=
  (dat4 V c).arrAt_eq_of_cover 2 _ (fun t _ => flushed4 V c hB t) cover4

end Cert.KernelIdeal.DenseRegions

end
-- ==== Proof.ActRegions.lean ====
/-
  The three bias-and-activation regions of the idealized kernel, from blocks to whole arrays.

  Each region walks ten grid points; point `t` loads rows `10000·t … 10000·t + 9999` of the aggregated features and
  the bias laid out as one row, and writes back the same rows of the output. Given that what the body stores from
  such a block is those rows of the whole-array step — bias, then the leaky rectifier or the row softmax, both of
  which act on each row by itself (the hypothesis `hB` of each theorem, a statement about the body's arithmetic
  alone) — the output array ends holding the whole-array step: the ten row blocks tile the array.
-/
import proofs.«161395_j41188736369372_1_alg».proof.Proof.Stages
import proofs.«161395_j41188736369372_1_alg».proof.Proof.Gen.KernelIdeal.Frame
import Idealize.ShloMosaic.Lib.ValueIdx
import Idealize.ShloMosaic.Lib.Pipeline.Value

set_option maxRecDepth 16384

noncomputable section

namespace Cert.KernelIdeal.ActRegions

open Cert.KernelIdeal Cert.KernelIdeal.Gen Idealize.ShloMosaic Idealize.ShloMosaic.TcCoe Idealize.ShloMosaic.ValueIdx
open Idealize.SL Idealize.SL.Sem
open Idealize.ShloMosaic.Pipeline (Dat Cfg Window)

-- the buffer contents a region is entered with
variable (V : (c : Dev nD) → (b : Ref sig .tc) → Buf (Elt Ideal) ((c : Thread nD τ).loc b))

/-! ## Region 1: rows `10000·t … 10000·t + 9999` of the bias and leaky rectifier at width 64 at grid point `t` -/

/-- Over the grid the output's and the features' blocks are at block row `t`, block column `0`; the bias row's
    block is the whole row. -/
theorem idx1 : ∀ t : Fin cfg1.N, win1_2.index t (0 : Fin 2) = t.val ∧ win1_2.index t (1 : Fin 2) = 0
    ∧ win1_0.index t (0 : Fin 2) = t.val ∧ win1_0.index t (1 : Fin 2) = 0
    ∧ win1_1.index t (0 : Fin 2) = 0 ∧ win1_1.index t (1 : Fin 2) = 0 :=
  (by decide +kernel : ∀ t : Fin grid1.N, _)

/-- An index of the output array lies in point `t`'s block iff each coordinate lies in the block's range. -/
theorem mem_blk1 (t : Fin cfg1.N) (i : S100000x64.Idx) :
    i ∈ ((cfg1.win 2).blk t).view.set ↔ ∀ a : Fin 2, win1_2.index t a * S10000x64.size a ≤ (i a).val ∧ (i a).val < win1_2.index t a * S10000x64.size a + S10000x64.size a := by
  show i ∈ ((View.whole main_v50).slice (win1_2.rect t)).set ↔ _
  rw [View.set_slice_whole, Rect.mem_set_unit]
  exact Iff.rfl

/-- Row `r` of the output is written at point `r / 10000`: the ten blocks tile the array. -/
theorem cover1 (i : S100000x64.Idx) : ∃ t : Fin cfg1.N, (cfg1.win 2).flush t = true ∧ i ∈ ((cfg1.win 2).blk t).view.set := by
  have hi0 : (i 0).val < 100000 := (i 0).isLt
  have hi1 : (i 1).val < 64 := (i 1).isLt
  have hN : cfg1.N = 10 := N_1
  refine ⟨⟨(i 0).val / 10000, by rw [hN]; omega⟩, flush1_2 _, ?_⟩
  rw [mem_blk1]
  obtain ⟨e0, e1, -, -, -, -⟩ := idx1 ⟨(i 0).val / 10000, by rw [hN]; omega⟩
  intro a
  match a with
  | ⟨0, _⟩ => show win1_2.index _ (0 : Fin 2) * 10000 ≤ (i 0).val ∧ (i 0).val < win1_2.index _ (0 : Fin 2) * 10000 + 10000; rw [e0]; show (i 0).val / 10000 * 10000 ≤ _ ∧ _ < (i 0).val / 10000 * 10000 + 10000; omega
  | ⟨1, _⟩ => show win1_2.index _ (1 : Fin 2) * 64 ≤ (i 1).val ∧ (i 1).val < win1_2.index _ (1 : Fin 2) * 64 + 64; rw [e1]; omega

/-- What the body stores from a block holding rows `10000·t + r` of `a` and the bias laid out as one row, read at
    `j`, is the whole-array step at the index `i` with `i₀ = 10000·t + j₀`, `i₁ = j₁`. -/
theorem block1
    (hB : ∀ (ab : Vec Ideal S10000x64 .f32) (bb : Vec Ideal S1x64 .f32) (a : FVec Ideal S100000x64 .f32) (b : FVec Ideal S64 .f32) (e : Fin 10000 → Fin 100000),
      (∀ r k, ab (ix2 r k) = a (ix2 (e r) k)) → (∀ k, bb (ix2 0 k) = b (ix1 k)) → ∀ r j, out1_2 (F := Ideal) ab bb (ix2 r j) = Cert.ReferenceIdeal.Stages.act64 (F := Ideal) a b (ix2 (e r) j))
    (a : FVec Ideal S100000x64 .f32) (b : FVec Ideal S64 .f32) (ab : Vec Ideal S10000x64 .f32) (bb : Vec Ideal S1x64 .f32)
    (t : ℕ) (ht : t < 10)
    (ha : ∀ (r : Fin 10000) (k : Fin 64), ab (ix2 r k) = a (ix2 (⟨t * 10000 + r.val, by have := r.isLt; omega⟩ : Fin 100000) k))
    (hb : ∀ k, bb (ix2 0 k) = b (ix1 k)) (j : S10000x64.Idx) (i : S100000x64.Idx)
    (h0 : (i 0).val = t * 10000 + (j 0).val) (h1 : (i 1).val = (j 1).val) :
    out1_2 (F := Ideal) ab bb j = Cert.ReferenceIdeal.Stages.act64 (F := Ideal) a b i := by
  have hi : i = ix2 (⟨t * 10000 + (j 0).val, by have hj : (j 0).val < 10000 := (j 0).isLt; omega⟩ : Fin 100000) (j 1) := by
    funext d; apply Fin.ext
    match d with
    | ⟨0, _⟩ => exact h0
    | ⟨1, _⟩ => exact h1
  rw [hi, eq_ix2 j]
  exact hB ab bb a b (fun r => ⟨t * 10000 + r.val, by have := r.isLt; omega⟩) ha hb (j 0) (j 1)

/-- What point `t` writes back is block `t` of the whole-array step. -/
theorem flushed1 (c : Dev nD) (b : FVec Ideal S64 .f32) (hb : ∀ k : Fin 64, V c main_v49 (ix2 0 k) = b (ix1 k))
    (hB : ∀ (ab : Vec Ideal S10000x64 .f32) (bb : Vec Ideal S1x64 .f32) (a : FVec Ideal S100000x64 .f32) (b : FVec Ideal S64 .f32) (e : Fin 10000 → Fin 100000),
      (∀ r k, ab (ix2 r k) = a (ix2 (e r) k)) → (∀ k, bb (ix2 0 k) = b (ix1 k)) → ∀ r j, out1_2 (F := Ideal) ab bb (ix2 r j) = Cert.ReferenceIdeal.Stages.act64 (F := Ideal) a b (ix2 (e r) j))
    (t : Fin cfg1.N) :
    (dat1 V c).flushed 2 t = ((cfg1.win 2).blk t).view.read (Elt Ideal) (Cert.ReferenceIdeal.Stages.act64 (F := Ideal) (V c main_v48) b) := by
  show (cfg1.win 2).cut (grid1.coords t) ((dat1 V c).after 2 t) = _
  rw [after1_2]
  obtain ⟨e0, e1, e2, e3, e4, e5⟩ := idx1 t
  have hN : cfg1.N = 10 := N_1
  have ht : t.val < 10 := hN ▸ t.isLt
  funext j
  show out1_2 (F := Ideal) (iblk1 V c 0 t) (iblk1 V c 1 t) j = Cert.ReferenceIdeal.Stages.act64 (F := Ideal) (V c main_v48) b (((cfg1.win 2).blk t).view.emb j)
  refine block1 hB (V c main_v48) b (iblk1 V c 0 t) (iblk1 V c 1 t) t.val ht ?_ ?_ j _ ?_ ?_
  · intro r k
    show V c main_v48 (((cfg1.win 0).blk t).view.emb (ix2 r k)) = V c main_v48 _
    refine congrArg (V c main_v48) ?_
    funext d; apply Fin.ext
    match d with
    | ⟨0, _⟩ => show win1_0.index t (0 : Fin 2) * 10000 + 1 * r.val = t.val * 10000 + r.val; rw [e2]; omega
    | ⟨1, _⟩ => show win1_0.index t (1 : Fin 2) * 64 + 1 * k.val = k.val; rw [e3]; omega
  · intro k
    refine Eq.trans ?_ (hb k)
    show V c main_v49 (((cfg1.win 1).blk t).view.emb (ix2 0 k)) = V c main_v49 (ix2 0 k)
    refine congrArg (V c main_v49) ?_
    funext d; apply Fin.ext
    match d with
    | ⟨0, _⟩ => show win1_1.index t (0 : Fin 2) * 1 + 1 * 0 = 0; rw [e4]
    | ⟨1, _⟩ => show win1_1.index t (1 : Fin 2) * 64 + 1 * k.val = k.val; rw [e5]; omega
  · show win1_2.index t (0 : Fin 2) * 10000 + 1 * (j 0).val = t.val * 10000 + (j 0).val; rw [e0]; omega
  · show win1_2.index t (1 : Fin 2) * 64 + 1 * (j 1).val = (j 1).val; rw [e1]; omega

/-- The region's output array ends holding the whole-array step of the array it was entered with and the bias. -/
theorem final1 (c : Dev nD) (b : FVec Ideal S64 .f32) (hb : ∀ k : Fin 64, V c main_v49 (ix2 0 k) = b (ix1 k))
    (hB : ∀ (ab : Vec Ideal S10000x64 .f32) (bb : Vec Ideal S1x64 .f32) (a : FVec Ideal S100000x64 .f32) (b : FVec Ideal S64 .f32) (e : Fin 10000 → Fin 100000),
      (∀ r k, ab (ix2 r k) = a (ix2 (e r) k)) → (∀ k, bb (ix2 0 k) = b (ix1 k)) → ∀ r j, out1_2 (F := Ideal) ab bb (ix2 r j) = Cert.ReferenceIdeal.Stages.act64 (F := Ideal) a b (ix2 (e r) j)) :
    (dat1 V c).arrAt 2 cfg1.N = Cert.ReferenceIdeal.Stages.act64 (F := Ideal) (V c main_v48) b :=
  (dat1 V c).arrAt_eq_of_cover 2 _ (fun t _ => flushed1 V c b hb hB t) cover1

/-! ## Region 3: rows `10000·t … 10000·t + 9999` of the bias and leaky rectifier at width 32 at grid point `t` -/

/-- Over the grid the output's and the features' blocks are at block row `t`, block column `0`; the bias row's
    block is the whole row. -/
theorem idx3 : ∀ t : Fin cfg3.N, win3_2.index t (0 : Fin 2) = t.val ∧ win3_2.index t (1 : Fin 2) = 0
    ∧ win3_0.index t (0 : Fin 2) = t.val ∧ win3_0.index t (1 : Fin 2) = 0
    ∧ win3_1.index t (0 : Fin 2) = 0 ∧ win3_1.index t (1 : Fin 2) = 0 :=
  (by decide +kernel : ∀ t : Fin grid3.N, _)

/-- An index of the output array lies in point `t`'s block iff each coordinate lies in the block's range. -/
theorem mem_blk3 (t : Fin cfg3.N) (i : S100000x32.Idx) :
    i ∈ ((cfg3.win 2).blk t).view.set ↔ ∀ a : Fin 2, win3_2.index t a * S10000x32.size a ≤ (i a).val ∧ (i a).val < win3_2.index t a * S10000x32.size a + S10000x32.size a := by
  show i ∈ ((View.whole main_v66).slice (win3_2.rect t)).set ↔ _
  rw [View.set_slice_whole, Rect.mem_set_unit]
  exact Iff.rfl

/-- Row `r` of the output is written at point `r / 10000`: the ten blocks tile the array. -/
theorem cover3 (i : S100000x32.Idx) : ∃ t : Fin cfg3.N, (cfg3.win 2).flush t = true ∧ i ∈ ((cfg3.win 2).blk t).view.set := by
  have hi0 : (i 0).val < 100000 := (i 0).isLt
  have hi1 : (i 1).val < 32 := (i 1).isLt
  have hN : cfg3.N = 10 := N_3
  refine ⟨⟨(i 0).val / 10000, by rw [hN]; omega⟩, flush3_2 _, ?_⟩
  rw [mem_blk3]
  obtain ⟨e0, e1, -, -, -, -⟩ := idx3 ⟨(i 0).val / 10000, by rw [hN]; omega⟩
  intro a
  match a with
  | ⟨0, _⟩ => show win3_2.index _ (0 : Fin 2) * 10000 ≤ (i 0).val ∧ (i 0).val < win3_2.index _ (0 : Fin 2) * 10000 + 10000; rw [e0]; show (i 0).val / 10000 * 10000 ≤ _ ∧ _ < (i 0).val / 10000 * 10000 + 10000; omega
  | ⟨1, _⟩ => show win3_2.index _ (1 : Fin 2) * 32 ≤ (i 1).val ∧ (i 1).val < win3_2.index _ (1 : Fin 2) * 32 + 32; rw [e1]; omega

/-- What the body stores from a block holding rows `10000·t + r` of `a` and the bias laid out as one row, read at
    `j`, is the whole-array step at the index `i` with `i₀ = 10000·t + j₀`, `i₁ = j₁`. -/
theorem block3
    (hB : ∀ (ab : Vec Ideal S10000x32 .f32) (bb : Vec Ideal S1x32 .f32) (a : FVec Ideal S100000x32 .f32) (b : FVec Ideal S32 .f32) (e : Fin 10000 → Fin 100000),
      (∀ r k, ab (ix2 r k) = a (ix2 (e r) k)) → (∀ k, bb (ix2 0 k) = b (ix1 k)) → ∀ r j, out3_2 (F := Ideal) ab bb (ix2 r j) = Cert.ReferenceIdeal.Stages.act32 (F := Ideal) a b (ix2 (e r) j))
    (a : FVec Ideal S100000x32 .f32) (b : FVec Ideal S32 .f32) (ab : Vec Ideal S10000x32 .f32) (bb : Vec Ideal S1x32 .f32)
    (t : ℕ) (ht : t < 10)
    (ha : ∀ (r : Fin 10000) (k : Fin 32), ab (ix2 r k) = a (ix2 (⟨t * 10000 + r.val, by have := r.isLt; omega⟩ : Fin 100000) k))
    (hb : ∀ k, bb (ix2 0 k) = b (ix1 k)) (j : S10000x32.Idx) (i : S100000x32.Idx)
    (h0 : (i 0).val = t * 10000 + (j 0).val) (h1 : (i 1).val = (j 1).val) :
    out3_2 (F := Ideal) ab bb j = Cert.ReferenceIdeal.Stages.act32 (F := Ideal) a b i := by
  have hi : i = ix2 (⟨t * 10000 + (j 0).val, by have hj : (j 0).val < 10000 := (j 0).isLt; omega⟩ : Fin 100000) (j 1) := by
    funext d; apply Fin.ext
    match d with
    | ⟨0, _⟩ => exact h0
    | ⟨1, _⟩ => exact h1
  rw [hi, eq_ix2 j]
  exact hB ab bb a b (fun r => ⟨t * 10000 + r.val, by have := r.isLt; omega⟩) ha hb (j 0) (j 1)

/-- What point `t` writes back is block `t` of the whole-array step. -/
theorem flushed3 (c : Dev nD) (b : FVec Ideal S32 .f32) (hb : ∀ k : Fin 32, V c main_v65 (ix2 0 k) = b (ix1 k))
    (hB : ∀ (ab : Vec Ideal S10000x32 .f32) (bb : Vec Ideal S1x32 .f32) (a : FVec Ideal S100000x32 .f32) (b : FVec Ideal S32 .f32) (e : Fin 10000 → Fin 100000),
      (∀ r k, ab (ix2 r k) = a (ix2 (e r) k)) → (∀ k, bb (ix2 0 k) = b (ix1 k)) → ∀ r j, out3_2 (F := Ideal) ab bb (ix2 r j) = Cert.ReferenceIdeal.Stages.act32 (F := Ideal) a b (ix2 (e r) j))
    (t : Fin cfg3.N) :
    (dat3 V c).flushed 2 t = ((cfg3.win 2).blk t).view.read (Elt Ideal) (Cert.ReferenceIdeal.Stages.act32 (F := Ideal) (V c main_v64) b) := by
  show (cfg3.win 2).cut (grid3.coords t) ((dat3 V c).after 2 t) = _
  rw [after3_2]
  obtain ⟨e0, e1, e2, e3, e4, e5⟩ := idx3 t
  have hN : cfg3.N = 10 := N_3
  have ht : t.val < 10 := hN ▸ t.isLt
  funext j
  show out3_2 (F := Ideal) (iblk3 V c 0 t) (iblk3 V c 1 t) j = Cert.ReferenceIdeal.Stages.act32 (F := Ideal) (V c main_v64) b (((cfg3.win 2).blk t).view.emb j)
  refine block3 hB (V c main_v64) b (iblk3 V c 0 t) (iblk3 V c 1 t) t.val ht ?_ ?_ j _ ?_ ?_
  · intro r k
    show V c main_v64 (((cfg3.win 0).blk t).view.emb (ix2 r k)) = V c main_v64 _
    refine congrArg (V c main_v64) ?_
    funext d; apply Fin.ext
    match d with
    | ⟨0, _⟩ => show win3_0.index t (0 : Fin 2) * 10000 + 1 * r.val = t.val * 10000 + r.val; rw [e2]; omega
    | ⟨1, _⟩ => show win3_0.index t (1 : Fin 2) * 32 + 1 * k.val = k.val; rw [e3]; omega
  · intro k
    refine Eq.trans ?_ (hb k)
    show V c main_v65 (((cfg3.win 1).blk t).view.emb (ix2 0 k)) = V c main_v65 (ix2 0 k)
    refine congrArg (V c main_v65) ?_
    funext d; apply Fin.ext
    match d with
    | ⟨0, _⟩ => show win3_1.index t (0 : Fin 2) * 1 + 1 * 0 = 0; rw [e4]
    | ⟨1, _⟩ => show win3_1.index t (1 : Fin 2) * 32 + 1 * k.val = k.val; rw [e5]; omega
  · show win3_2.index t (0 : Fin 2) * 10000 + 1 * (j 0).val = t.val * 10000 + (j 0).val; rw [e0]; omega
  · show win3_2.index t (1 : Fin 2) * 32 + 1 * (j 1).val = (j 1).val; rw [e1]; omega

/-- The region's output array ends holding the whole-array step of the array it was entered with and the bias. -/
theorem final3 (c : Dev nD) (b : FVec Ideal S32 .f32) (hb : ∀ k : Fin 32, V c main_v65 (ix2 0 k) = b (ix1 k))
    (hB : ∀ (ab : Vec Ideal S10000x32 .f32) (bb : Vec Ideal S1x32 .f32) (a : FVec Ideal S100000x32 .f32) (b : FVec Ideal S32 .f32) (e : Fin 10000 → Fin 100000),
      (∀ r k, ab (ix2 r k) = a (ix2 (e r) k)) → (∀ k, bb (ix2 0 k) = b (ix1 k)) → ∀ r j, out3_2 (F := Ideal) ab bb (ix2 r j) = Cert.ReferenceIdeal.Stages.act32 (F := Ideal) a b (ix2 (e r) j)) :
    (dat3 V c).arrAt 2 cfg3.N = Cert.ReferenceIdeal.Stages.act32 (F := Ideal) (V c main_v64) b :=
  (dat3 V c).arrAt_eq_of_cover 2 _ (fun t _ => flushed3 V c b hb hB t) cover3

/-! ## Region 5: rows `10000·t … 10000·t + 9999` of the bias and row softmax at grid point `t` -/

/-- Over the grid the output's and the features' blocks are at block row `t`, block column `0`; the bias row's
    block is the whole row. -/
theorem idx5 : ∀ t : Fin cfg5.N, win5_2.index t (0 : Fin 2) = t.val ∧ win5_2.index t (1 : Fin 2) = 0
    ∧ win5_0.index t (0 : Fin 2) = t.val ∧ win5_0.index t (1 : Fin 2) = 0
    ∧ win5_1.index t (0 : Fin 2) = 0 ∧ win5_1.index t (1 : Fin 2) = 0 :=
  (by decide +kernel : ∀ t : Fin grid5.N, _)

/-- An index of the output array lies in point `t`'s block iff each coordinate lies in the block's range. -/
theorem mem_blk5 (t : Fin cfg5.N) (i : S100000x4.Idx) :
    i ∈ ((cfg5.win 2).blk t).view.set ↔ ∀ a : Fin 2, win5_2.index t a * S10000x4.size a ≤ (i a).val ∧ (i a).val < win5_2.index t a * S10000x4.size a + S10000x4.size a := by
  show i ∈ ((View.whole main_v82).slice (win5_2.rect t)).set ↔ _
  rw [View.set_slice_whole, Rect.mem_set_unit]
  exact Iff.rfl

/-- Row `r` of the output is written at point `r / 10000`: the ten blocks tile the array. -/
theorem cover5 (i : S100000x4.Idx) : ∃ t : Fin cfg5.N, (cfg5.win 2).flush t = true ∧ i ∈ ((cfg5.win 2).blk t).view.set := by
  have hi0 : (i 0).val < 100000 := (i 0).isLt
  have hi1 : (i 1).val < 4 := (i 1).isLt
  have hN : cfg5.N = 10 := N_5
  refine ⟨⟨(i 0).val / 10000, by rw [hN]; omega⟩, flush5_2 _, ?_⟩
  rw [mem_blk5]
  obtain ⟨e0, e1, -, -, -, -⟩ := idx5 ⟨(i 0).val / 10000, by rw [hN]; omega⟩
  intro a
  match a with
  | ⟨0, _⟩ => show win5_2.index _ (0 : Fin 2) * 10000 ≤ (i 0).val ∧ (i 0).val < win5_2.index _ (0 : Fin 2) * 10000 + 10000; rw [e0]; show (i 0).val / 10000 * 10000 ≤ _ ∧ _ < (i 0).val / 10000 * 10000 + 10000; omega
  | ⟨1, _⟩ => show win5_2.index _ (1 : Fin 2) * 4 ≤ (i 1).val ∧ (i 1).val < win5_2.index _ (1 : Fin 2) * 4 + 4; rw [e1]; omega

/-- What the body stores from a block holding rows `10000·t + r` of `a` and the bias laid out as one row, read at
    `j`, is the whole-array step at the index `i` with `i₀ = 10000·t + j₀`, `i₁ = j₁`. -/
theorem block5
    (hB : ∀ (ab : Vec Ideal S10000x4 .f32) (bb : Vec Ideal S1x4 .f32) (a : FVec Ideal S100000x4 .f32) (b : FVec Ideal S4 .f32) (e : Fin 10000 → Fin 100000),
      (∀ r k, ab (ix2 r k) = a (ix2 (e r) k)) → (∀ k, bb (ix2 0 k) = b (ix1 k)) → ∀ r j, out5_2 (F := Ideal) ab bb (ix2 r j) = Cert.ReferenceIdeal.Stages.soft (F := Ideal) a b (ix2 (e r) j))
    (a : FVec Ideal S100000x4 .f32) (b : FVec Ideal S4 .f32) (ab : Vec Ideal S10000x4 .f32) (bb : Vec Ideal S1x4 .f32)
    (t : ℕ) (ht : t < 10)
    (ha : ∀ (r : Fin 10000) (k : Fin 4), ab (ix2 r k) = a (ix2 (⟨t * 10000 + r.val, by have := r.isLt; omega⟩ : Fin 100000) k))
    (hb : ∀ k, bb (ix2 0 k) = b (ix1 k)) (j : S10000x4.Idx) (i : S100000x4.Idx)
    (h0 : (i 0).val = t * 10000 + (j 0).val) (h1 : (i 1).val = (j 1).val) :
    out5_2 (F := Ideal) ab bb j = Cert.ReferenceIdeal.Stages.soft (F := Ideal) a b i := by
  have hi : i = ix2 (⟨t * 10000 + (j 0).val, by have hj : (j 0).val < 10000 := (j 0).isLt; omega⟩ : Fin 100000) (j 1) := by
    funext d; apply Fin.ext
    match d with
    | ⟨0, _⟩ => exact h0
    | ⟨1, _⟩ => exact h1
  rw [hi, eq_ix2 j]
  exact hB ab bb a b (fun r => ⟨t * 10000 + r.val, by have := r.isLt; omega⟩) ha hb (j 0) (j 1)

/-- What point `t` writes back is block `t` of the whole-array step. -/
theorem flushed5 (c : Dev nD) (b : FVec Ideal S4 .f32) (hb : ∀ k : Fin 4, V c main_v81 (ix2 0 k) = b (ix1 k))
    (hB : ∀ (ab : Vec Ideal S10000x4 .f32) (bb : Vec Ideal S1x4 .f32) (a : FVec Ideal S100000x4 .f32) (b : FVec Ideal S4 .f32) (e : Fin 10000 → Fin 100000),
      (∀ r k, ab (ix2 r k) = a (ix2 (e r) k)) → (∀ k, bb (ix2 0 k) = b (ix1 k)) → ∀ r j, out5_2 (F := Ideal) ab bb (ix2 r j) = Cert.ReferenceIdeal.Stages.soft (F := Ideal) a b (ix2 (e r) j))
    (t : Fin cfg5.N) :
    (dat5 V c).flushed 2 t = ((cfg5.win 2).blk t).view.read (Elt Ideal) (Cert.ReferenceIdeal.Stages.soft (F := Ideal) (V c main_v80) b) := by
  show (cfg5.win 2).cut (grid5.coords t) ((dat5 V c).after 2 t) = _
  rw [after5_2]
  obtain ⟨e0, e1, e2, e3, e4, e5⟩ := idx5 t
  have hN : cfg5.N = 10 := N_5
  have ht : t.val < 10 := hN ▸ t.isLt
  funext j
  show out5_2 (F := Ideal) (iblk5 V c 0 t) (iblk5 V c 1 t) j = Cert.ReferenceIdeal.Stages.soft (F := Ideal) (V c main_v80) b (((cfg5.win 2).blk t).view.emb j)
  refine block5 hB (V c main_v80) b (iblk5 V c 0 t) (iblk5 V c 1 t) t.val ht ?_ ?_ j _ ?_ ?_
  · intro r k
    show V c main_v80 (((cfg5.win 0).blk t).view.emb (ix2 r k)) = V c main_v80 _
    refine congrArg (V c main_v80) ?_
    funext d; apply Fin.ext
    match d with
    | ⟨0, _⟩ => show win5_0.index t (0 : Fin 2) * 10000 + 1 * r.val = t.val * 10000 + r.val; rw [e2]; omega
    | ⟨1, _⟩ => show win5_0.index t (1 : Fin 2) * 4 + 1 * k.val = k.val; rw [e3]; omega
  · intro k
    refine Eq.trans ?_ (hb k)
    show V c main_v81 (((cfg5.win 1).blk t).view.emb (ix2 0 k)) = V c main_v81 (ix2 0 k)
    refine congrArg (V c main_v81) ?_
    funext d; apply Fin.ext
    match d with
    | ⟨0, _⟩ => show win5_1.index t (0 : Fin 2) * 1 + 1 * 0 = 0; rw [e4]
    | ⟨1, _⟩ => show win5_1.index t (1 : Fin 2) * 4 + 1 * k.val = k.val; rw [e5]; omega
  · show win5_2.index t (0 : Fin 2) * 10000 + 1 * (j 0).val = t.val * 10000 + (j 0).val; rw [e0]; omega
  · show win5_2.index t (1 : Fin 2) * 4 + 1 * (j 1).val = (j 1).val; rw [e1]; omega

/-- The region's output array ends holding the whole-array step of the array it was entered with and the bias. -/
theorem final5 (c : Dev nD) (b : FVec Ideal S4 .f32) (hb : ∀ k : Fin 4, V c main_v81 (ix2 0 k) = b (ix1 k))
    (hB : ∀ (ab : Vec Ideal S10000x4 .f32) (bb : Vec Ideal S1x4 .f32) (a : FVec Ideal S100000x4 .f32) (b : FVec Ideal S4 .f32) (e : Fin 10000 → Fin 100000),
      (∀ r k, ab (ix2 r k) = a (ix2 (e r) k)) → (∀ k, bb (ix2 0 k) = b (ix1 k)) → ∀ r j, out5_2 (F := Ideal) ab bb (ix2 r j) = Cert.ReferenceIdeal.Stages.soft (F := Ideal) a b (ix2 (e r) j)) :
    (dat5 V c).arrAt 2 cfg5.N = Cert.ReferenceIdeal.Stages.soft (F := Ideal) (V c main_v80) b :=
  (dat5 V c).arrAt_eq_of_cover 2 _ (fun t _ => flushed5 V c b hb hB t) cover5

end Cert.KernelIdeal.ActRegions

end
-- ==== Proof.KernelFold.lean ====
/-
  The idealized kernel's result, read back through the fold of its fourteen segments.

  The result buffer holds what the last region leaves; that region was entered with what the last stretch of host
  operations left; and so on back to the launch memory. Three kinds of step alternate:
  * a matrix-product region leaves `x · wᵀ` of the arrays it was entered with (`DenseRegions`);
  * a stretch of host operations gathers every edge's source row, scales it by the edge's weight, and sums it into
    the edge's destination row (`agg64`, `agg32`, `agg4` below: one function of the index vectors `s`, `d`, the
    weights `n` and the features), and lays the bias out as one row;
  * a bias-and-activation region leaves the leaky rectifier, or the row softmax, of features plus bias (`ActRegions`).
  The index vectors, the edge weights and the arguments are written once, before the first region, and no later
  segment writes them: each is carried unchanged to where it is read.
-/
import proofs.«161395_j41188736369372_1_alg».proof.Proof.DenseRegions
import proofs.«161395_j41188736369372_1_alg».proof.Proof.ActRegions
import Idealize.ShloMosaic.Lib.StableHlo.Run
import Idealize.ShloMosaic.Lib.ValueLayout

set_option maxRecDepth 16384

noncomputable section

namespace Cert.KernelIdeal.Fold

open Cert.KernelIdeal Cert.KernelIdeal.Gen Idealize.ShloMosaic Idealize.ShloMosaic.TcCoe Idealize.ShloMosaic.ValueIdx
open Idealize.SL Idealize.SL.Sem Idealize.ShloMosaic.StableHlo

/-- The contents of a buffer of shape `S` and element type `φ`. -/
abbrev C {F : FTy → Type} (S : Shape) (φ : EltTy) : Type := (⟨S, φ⟩ : BufTy).Contents (Elt F)

section Agg
variable {F : FTy → Type} [FloatOps F]

/-- The aggregation at width 64: every edge's source row of `h`, scaled by the edge's weight `n`, summed into the edge's
    destination row (a source index below zero is first shifted up by the number of nodes). -/
def agg64 (s d : C (F := F) S3300000 .i32) (n : C (F := F) S3300000 .f32) (h : C (F := F) S100000x64 .f32) : C (F := F) S100000x64 .f32 :=
  Host.scatterAdd scatter_S100000x64_S3300000x1_S3300000x64_1_0_0_1
    (broadcastInDim S100000x64 ![] bcast_S_S100000x64 (constant S_ .f32 0x00000000#32))
    (broadcastInDim S3300000x1 ![0] bcast_S3300000_S3300000x1_0 d)
    (mulf (broadcastInDim S3300000x64 ![0, 1] bcast_S3300000x1_S3300000x64_0_1 (broadcastInDim S3300000x1 ![0] bcast_S3300000_S3300000x1_0 n))
      (Host.gather gather_S100000x64_S3300000x1_S3300000x64_1_0_n_n_0_1_164 h
        (broadcastInDim S3300000x1 ![0] bcast_S3300000_S3300000x1_0
          (select (cmpi .slt s (broadcastInDim S3300000 ![] bcast_S_S3300000 (constantI S_ 32 0#32)))
            (addi s (broadcastInDim S3300000 ![] bcast_S_S3300000 (constantI S_ 32 100000#32))) s))))

/-- The aggregation at width 32: every edge's source row of `h`, scaled by the edge's weight `n`, summed into the edge's
    destination row (a source index below zero is first shifted up by the number of nodes). -/
def agg32 (s d : C (F := F) S3300000 .i32) (n : C (F := F) S3300000 .f32) (h : C (F := F) S100000x32 .f32) : C (F := F) S100000x32 .f32 :=
  Host.scatterAdd scatter_S100000x32_S3300000x1_S3300000x32_1_0_0_1
    (broadcastInDim S100000x32 ![] bcast_S_S100000x32 (constant S_ .f32 0x00000000#32))
    (broadcastInDim S3300000x1 ![0] bcast_S3300000_S3300000x1_0 d)
    (mulf (broadcastInDim S3300000x32 ![0, 1] bcast_S3300000x1_S3300000x32_0_1 (broadcastInDim S3300000x1 ![0] bcast_S3300000_S3300000x1_0 n))
      (Host.gather gather_S100000x32_S3300000x1_S3300000x32_1_0_n_n_0_1_132 h
        (broadcastInDim S3300000x1 ![0] bcast_S3300000_S3300000x1_0
          (select (cmpi .slt s (broadcastInDim S3300000 ![] bcast_S_S3300000 (constantI S_ 32 0#32)))
            (addi s (broadcastInDim S3300000 ![] bcast_S_S3300000 (constantI S_ 32 100000#32))) s))))

/-- The aggregation at width 4: every edge's source row of `h`, scaled by the edge's weight `n`, summed into the edge's
    destination row (a source index below zero is first shifted up by the number of nodes). -/
def agg4 (s d : C (F := F) S3300000 .i32) (n : C (F := F) S3300000 .f32) (h : C (F := F) S100000x4 .f32) : C (F := F) S100000x4 .f32 :=
  Host.scatterAdd scatter_S100000x4_S3300000x1_S3300000x4_1_0_0_1
    (broadcastInDim S100000x4 ![] bcast_S_S100000x4 (constant S_ .f32 0x00000000#32))
    (broadcastInDim S3300000x1 ![0] bcast_S3300000_S3300000x1_0 d)
    (mulf (broadcastInDim S3300000x4 ![0, 1] bcast_S3300000x1_S3300000x4_0_1 (broadcastInDim S3300000x1 ![0] bcast_S3300000_S3300000x1_0 n))
      (Host.gather gather_S100000x4_S3300000x1_S3300000x4_1_0_n_n_0_1_14 h
        (broadcastInDim S3300000x1 ![0] bcast_S3300000_S3300000x1_0
          (select (cmpi .slt s (broadcastInDim S3300000 ![] bcast_S_S3300000 (constantI S_ 32 0#32)))
            (addi s (broadcastInDim S3300000 ![] bcast_S_S3300000 (constantI S_ 32 100000#32))) s))))

end Agg

/-! ## What each body stores, as a hypothesis about its arithmetic -/

abbrev B0 : Prop := ∀ (xb : Vec Ideal S10000x128 .f32) (w : Vec Ideal S64x128 .f32) (x : FVec Ideal S100000x128 .f32) (e : Fin 10000 → Fin 100000),
  (∀ r k, xb (ix2 r k) = x (ix2 (e r) k)) → ∀ r j, out0_2 (F := Ideal) xb w (ix2 r j) = Cert.ReferenceIdeal.Stages.dense1 (F := Ideal) x w (ix2 (e r) j)
abbrev B1 : Prop := ∀ (ab : Vec Ideal S10000x64 .f32) (bb : Vec Ideal S1x64 .f32) (a : FVec Ideal S100000x64 .f32) (b : FVec Ideal S64 .f32) (e : Fin 10000 → Fin 100000),
  (∀ r k, ab (ix2 r k) = a (ix2 (e r) k)) → (∀ k, bb (ix2 0 k) = b (ix1 k)) → ∀ r j, out1_2 (F := Ideal) ab bb (ix2 r j) = Cert.ReferenceIdeal.Stages.act64 (F := Ideal) a b (ix2 (e r) j)
abbrev B2 : Prop := ∀ (xb : Vec Ideal S10000x64 .f32) (w : Vec Ideal S32x64 .f32) (x : FVec Ideal S100000x64 .f32) (e : Fin 10000 → Fin 100000),
  (∀ r k, xb (ix2 r k) = x (ix2 (e r) k)) → ∀ r j, out2_2 (F := Ideal) xb w (ix2 r j) = Cert.ReferenceIdeal.Stages.dense2 (F := Ideal) x w (ix2 (e r) j)
abbrev B3 : Prop := ∀ (ab : Vec Ideal S10000x32 .f32) (bb : Vec Ideal S1x32 .f32) (a : FVec Ideal S100000x32 .f32) (b : FVec Ideal S32 .f32) (e : Fin 10000 → Fin 100000),
  (∀ r k, ab (ix2 r k) = a (ix2 (e r) k)) → (∀ k, bb (ix2 0 k) = b (ix1 k)) → ∀ r j, out3_2 (F := Ideal) ab bb (ix2 r j) = Cert.ReferenceIdeal.Stages.act32 (F := Ideal) a b (ix2 (e r) j)
abbrev B4 : Prop := ∀ (xb : Vec Ideal S10000x32 .f32) (w : Vec Ideal S4x32 .f32) (x : FVec Ideal S100000x32 .f32) (e : Fin 10000 → Fin 100000),
  (∀ r k, xb (ix2 r k) = x (ix2 (e r) k)) → ∀ r j, out4_2 (F := Ideal) xb w (ix2 r j) = Cert.ReferenceIdeal.Stages.dense3 (F := Ideal) x w (ix2 (e r) j)
abbrev B5 : Prop := ∀ (ab : Vec Ideal S10000x4 .f32) (bb : Vec Ideal S1x4 .f32) (a : FVec Ideal S100000x4 .f32) (b : FVec Ideal S4 .f32) (e : Fin 10000 → Fin 100000),
  (∀ r k, ab (ix2 r k) = a (ix2 (e r) k)) → (∀ k, bb (ix2 0 k) = b (ix1 k)) → ∀ r j, out5_2 (F := Ideal) ab bb (ix2 r j) = Cert.ReferenceIdeal.Stages.soft (F := Ideal) a b (ix2 (e r) j)

/-! ## Buffers the two middle stretches write, and the carry past them -/

section Carry
variable {F : FTy → Type} [FloatOps F]

def written1 : List (Ref sig .tc) :=
  [main_v36, main_c_8, main_v37, main_v38, main_c_9, main_v39, main_v40, main_v41, main_v42, main_v43, main_v44, main_v45,
   main_cst_10, main_v46, main_v47, main_v48, main_v49]

def written3 : List (Ref sig .tc) :=
  [main_v52, main_c_11, main_v53, main_v54, main_c_12, main_v55, main_v56, main_v57, main_v58, main_v59, main_v60, main_v61,
   main_cst_13, main_v62, main_v63, main_v64, main_v65]

theorem writes1 : (hostOps1 : List (HloOp τ sig (Elt F))).Forall fun op => op.writes ⊆ (written1.map (Proc.devRef (τ := τ) .tc)).toFinset := by
  simp only [hostOps1, written1, List.Forall, nullary_writes, unary_writes, binary_writes, ternary_writes, reshape_writes,
    Finset.singleton_subset_iff, List.mem_toFinset, List.mem_map]
  repeat' apply And.intro
  all_goals exact ⟨_, by decide, rfl⟩

theorem writes3 : (hostOps3 : List (HloOp τ sig (Elt F))).Forall fun op => op.writes ⊆ (written3.map (Proc.devRef (τ := τ) .tc)).toFinset := by
  simp only [hostOps3, written3, List.Forall, nullary_writes, unary_writes, binary_writes, ternary_writes, reshape_writes,
    Finset.singleton_subset_iff, List.mem_toFinset, List.mem_map]
  repeat' apply And.intro
  all_goals exact ⟨_, by decide, rfl⟩

end Carry

variable (m : (ℓ : Loc nD τ sig) → Buf (Elt Ideal) ℓ) (ρ : Dev nD → PrngReg) (c : Dev nD)

/-! ## The arguments at the first region's entry are the launch memory's -/

theorem W5_arg0 : W5 m ρ c (Proc.devRef .tc main_arg0) = m ((c : Thread nD τ).loc main_arg0) := by
  dsimp only [W5, W4, W3, W2, W1, W0, hostOps0, hostOps0_1, hostOps0_2, hostOps0_3, hostOps0_4]
  after_results_simp
theorem W5_arg3 : W5 m ρ c (Proc.devRef .tc main_arg3) = m ((c : Thread nD τ).loc main_arg3) := by
  dsimp only [W5, W4, W3, W2, W1, W0, hostOps0, hostOps0_1, hostOps0_2, hostOps0_3, hostOps0_4]
  after_results_simp
theorem W5_arg4 : W5 m ρ c (Proc.devRef .tc main_arg4) = m ((c : Thread nD τ).loc main_arg4) := by
  dsimp only [W5, W4, W3, W2, W1, W0, hostOps0, hostOps0_1, hostOps0_2, hostOps0_3, hostOps0_4]
  after_results_simp
theorem W5_arg5 : W5 m ρ c (Proc.devRef .tc main_arg5) = m ((c : Thread nD τ).loc main_arg5) := by
  dsimp only [W5, W4, W3, W2, W1, W0, hostOps0, hostOps0_1, hostOps0_2, hostOps0_3, hostOps0_4]
  after_results_simp
theorem W5_arg6 : W5 m ρ c (Proc.devRef .tc main_arg6) = m ((c : Thread nD τ).loc main_arg6) := by
  dsimp only [W5, W4, W3, W2, W1, W0, hostOps0, hostOps0_1, hostOps0_2, hostOps0_3, hostOps0_4]
  after_results_simp
theorem W5_arg7 : W5 m ρ c (Proc.devRef .tc main_arg7) = m ((c : Thread nD τ).loc main_arg7) := by
  dsimp only [W5, W4, W3, W2, W1, W0, hostOps0, hostOps0_1, hostOps0_2, hostOps0_3, hostOps0_4]
  after_results_simp
theorem W5_arg8 : W5 m ρ c (Proc.devRef .tc main_arg8) = m ((c : Thread nD τ).loc main_arg8) := by
  dsimp only [W5, W4, W3, W2, W1, W0, hostOps0, hostOps0_1, hostOps0_2, hostOps0_3, hostOps0_4]
  after_results_simp

/-! ## Carrying a buffer no later segment writes -/

/-- Past the first region. -/
theorem to6 (b : Ref sig .tc) (h0 : ∀ w, Pipeline.arrRef spec0 w ≠ b) :
    W6 m ρ c (Proc.devRef .tc b) = W5 m ρ c (Proc.devRef .tc b) := W6_of_ne m ρ c b h0

/-- To the second region's entry. -/
theorem to7 (b : Ref sig .tc) (h0 : ∀ w, Pipeline.arrRef spec0 w ≠ b) (hw1 : b ∉ written1) :
    W7 m ρ c (Proc.devRef .tc b) = W5 m ρ c (Proc.devRef .tc b) :=
  (after_of_writes_sub hostOps1 (W6 m ρ c) writes1 hw1).trans (to6 m ρ c b h0)

/-- To the third region's entry. -/
theorem to8 (b : Ref sig .tc) (h0 : ∀ w, Pipeline.arrRef spec0 w ≠ b) (hw1 : b ∉ written1) (h1 : ∀ w, Pipeline.arrRef spec1 w ≠ b) :
    W8 m ρ c (Proc.devRef .tc b) = W5 m ρ c (Proc.devRef .tc b) :=
  (W8_of_ne m ρ c b h1).trans (to7 m ρ c b h0 hw1)

/-- Past the third region. -/
theorem to9 (b : Ref sig .tc) (h0 : ∀ w, Pipeline.arrRef spec0 w ≠ b) (hw1 : b ∉ written1) (h1 : ∀ w, Pipeline.arrRef spec1 w ≠ b)
    (h2 : ∀ w, Pipeline.arrRef spec2 w ≠ b) :
    W9 m ρ c (Proc.devRef .tc b) = W5 m ρ c (Proc.devRef .tc b) :=
  (W9_of_ne m ρ c b h2).trans (to8 m ρ c b h0 hw1 h1)

/-- To the fifth region's entry. -/
theorem to11 (b : Ref sig .tc) (h0 : ∀ w, Pipeline.arrRef spec0 w ≠ b) (hw1 : b ∉ written1) (h1 : ∀ w, Pipeline.arrRef spec1 w ≠ b)
    (h2 : ∀ w, Pipeline.arrRef spec2 w ≠ b) (hw3 : b ∉ written3) (h3 : ∀ w, Pipeline.arrRef spec3 w ≠ b) :
    W11 m ρ c (Proc.devRef .tc b) = W5 m ρ c (Proc.devRef .tc b) :=
  (W11_of_ne m ρ c b h3).trans ((after_of_writes_sub hostOps3 (W9 m ρ c) writes3 hw3).trans (to9 m ρ c b h0 hw1 h1 h2))

/-- Past the fifth region. -/
theorem to12 (b : Ref sig .tc) (h0 : ∀ w, Pipeline.arrRef spec0 w ≠ b) (hw1 : b ∉ written1) (h1 : ∀ w, Pipeline.arrRef spec1 w ≠ b)
    (h2 : ∀ w, Pipeline.arrRef spec2 w ≠ b) (hw3 : b ∉ written3) (h3 : ∀ w, Pipeline.arrRef spec3 w ≠ b)
    (h4 : ∀ w, Pipeline.arrRef spec4 w ≠ b) :
    W12 m ρ c (Proc.devRef .tc b) = W5 m ρ c (Proc.devRef .tc b) :=
  (W12_of_ne m ρ c b h4).trans (to11 m ρ c b h0 hw1 h1 h2 hw3 h3)

/-! ## The index vectors and the edge weights, as the first region's entry has them -/

/-- The edges' source nodes, then every node (its own loop). -/
abbrev srcAt : C (F := Ideal) S3300000 .i32 := W5 m ρ c (Proc.devRef .tc main_v5)
/-- The edges' destination nodes, then every node. -/
abbrev dstAt : C (F := Ideal) S3300000 .i32 := W5 m ρ c (Proc.devRef .tc main_v6)
/-- The edges' normalised weights. -/
abbrev nrmAt : C (F := Ideal) S3300000 .f32 := W5 m ρ c (Proc.devRef .tc main_v34)

/-! ## Layer 1 -/

theorem W6_v35 (hB0 : B0) : W6 m ρ c (Proc.devRef .tc main_v35)
    = Cert.ReferenceIdeal.Stages.dense1 (F := Ideal) (m ((c : Thread nD τ).loc main_arg0)) (m ((c : Thread nD τ).loc main_arg3)) :=
  ((W6_arr m ρ c 2).trans (DenseRegions.final0 (V5 m ρ) c hB0)).trans
    (congrArg₂ (Cert.ReferenceIdeal.Stages.dense1 (F := Ideal)) (W5_arg0 m ρ c) (W5_arg3 m ρ c))

theorem W7_v48 : W7 m ρ c (Proc.devRef .tc main_v48)
    = agg64 (F := Ideal) (srcAt m ρ c) (dstAt m ρ c) (nrmAt m ρ c) (W6 m ρ c (Proc.devRef .tc main_v35)) := by
  unfold srcAt dstAt nrmAt
  rw [← to6 m ρ c main_v5 (by decide), ← to6 m ρ c main_v6 (by decide), ← to6 m ρ c main_v34 (by decide)]
  dsimp only [W7, hostOps1]
  after_results_simp
  rfl

theorem W7_v49 (k : Fin 64) : W7 m ρ c (Proc.devRef .tc main_v49) (ix2 0 k) = m ((c : Thread nD τ).loc main_arg4) (ix1 k) := by
  have e : W7 m ρ c (Proc.devRef .tc main_v49)
      = fun i => shapeCast S1x64 (W6 m ρ c (Proc.devRef .tc main_arg4)) shapeCasts_S64_S1x64 i := by
    dsimp only [W7, hostOps1]
    after_results_simp
    rfl
  rw [e, to6 m ρ c main_arg4 (by decide), W5_arg4]
  exact shapeCast_a_1a_apply _ _ 0 k

theorem W8_v50 (hB0 : B0) (hB1 : B1) : W8 m ρ c (Proc.devRef .tc main_v50)
    = Cert.ReferenceIdeal.Stages.act64 (F := Ideal)
        (agg64 (F := Ideal) (srcAt m ρ c) (dstAt m ρ c) (nrmAt m ρ c)
          (Cert.ReferenceIdeal.Stages.dense1 (F := Ideal) (m ((c : Thread nD τ).loc main_arg0)) (m ((c : Thread nD τ).loc main_arg3))))
        (m ((c : Thread nD τ).loc main_arg4)) :=
  ((W8_arr m ρ c 2).trans (ActRegions.final1 (V7 m ρ) c (m ((c : Thread nD τ).loc main_arg4)) (W7_v49 m ρ c) hB1)).trans
    (congrArg (fun a => Cert.ReferenceIdeal.Stages.act64 (F := Ideal) a (m ((c : Thread nD τ).loc main_arg4)))
      ((W7_v48 m ρ c).trans (congrArg (agg64 (F := Ideal) (srcAt m ρ c) (dstAt m ρ c) (nrmAt m ρ c)) (W6_v35 m ρ c hB0))))

/-! ## Layer 2 -/

theorem W9_v51 (hB0 : B0) (hB1 : B1) (hB2 : B2) : W9 m ρ c (Proc.devRef .tc main_v51)
    = Cert.ReferenceIdeal.Stages.dense2 (F := Ideal) (Cert.ReferenceIdeal.Stages.act64 (F := Ideal)
        (agg64 (F := Ideal) (srcAt m ρ c) (dstAt m ρ c) (nrmAt m ρ c)
          (Cert.ReferenceIdeal.Stages.dense1 (F := Ideal) (m ((c : Thread nD τ).loc main_arg0)) (m ((c : Thread nD τ).loc main_arg3))))
        (m ((c : Thread nD τ).loc main_arg4))) (m ((c : Thread nD τ).loc main_arg5)) :=
  ((W9_arr m ρ c 2).trans (DenseRegions.final2 (V8 m ρ) c hB2)).trans
    (congrArg₂ (Cert.ReferenceIdeal.Stages.dense2 (F := Ideal)) (W8_v50 m ρ c hB0 hB1) ((to8 m ρ c main_arg5 (by decide) (by decide) (by decide)).trans (W5_arg5 m ρ c)))

theorem W10_v64 : W10 m ρ c (Proc.devRef .tc main_v64)
    = agg32 (F := Ideal) (srcAt m ρ c) (dstAt m ρ c) (nrmAt m ρ c) (W9 m ρ c (Proc.devRef .tc main_v51)) := by
  unfold srcAt dstAt nrmAt
  rw [← to9 m ρ c main_v5 (by decide) (by decide) (by decide) (by decide), ← to9 m ρ c main_v6 (by decide) (by decide) (by decide) (by decide), ← to9 m ρ c main_v34 (by decide) (by decide) (by decide) (by decide)]
  dsimp only [W10, hostOps3]
  after_results_simp
  rfl

theorem W10_v65 (k : Fin 32) : W10 m ρ c (Proc.devRef .tc main_v65) (ix2 0 k) = m ((c : Thread nD τ).loc main_arg6) (ix1 k) := by
  have e : W10 m ρ c (Proc.devRef .tc main_v65)
      = fun i => shapeCast S1x32 (W9 m ρ c (Proc.devRef .tc main_arg6)) shapeCasts_S32_S1x32 i := by
    dsimp only [W10, hostOps3]
    after_results_simp
    rfl
  rw [e, to9 m ρ c main_arg6 (by decide) (by decide) (by decide) (by decide), W5_arg6]
  exact shapeCast_a_1a_apply _ _ 0 k

theorem W11_v66 (hB0 : B0) (hB1 : B1) (hB2 : B2) (hB3 : B3) : W11 m ρ c (Proc.devRef .tc main_v66)
    = Cert.ReferenceIdeal.Stages.act32 (F := Ideal)
        (agg32 (F := Ideal) (srcAt m ρ c) (dstAt m ρ c) (nrmAt m ρ c)
          (Cert.ReferenceIdeal.Stages.dense2 (F := Ideal) (Cert.ReferenceIdeal.Stages.act64 (F := Ideal)
        (agg64 (F := Ideal) (srcAt m ρ c) (dstAt m ρ c) (nrmAt m ρ c)
          (Cert.ReferenceIdeal.Stages.dense1 (F := Ideal) (m ((c : Thread nD τ).loc main_arg0)) (m ((c : Thread nD τ).loc main_arg3))))
        (m ((c : Thread nD τ).loc main_arg4))) (m ((c : Thread nD τ).loc main_arg5))))
        (m ((c : Thread nD τ).loc main_arg6)) :=
  ((W11_arr m ρ c 2).trans (ActRegions.final3 (V10 m ρ) c (m ((c : Thread nD τ).loc main_arg6)) (W10_v65 m ρ c) hB3)).trans
    (congrArg (fun a => Cert.ReferenceIdeal.Stages.act32 (F := Ideal) a (m ((c : Thread nD τ).loc main_arg6)))
      ((W10_v64 m ρ c).trans (congrArg (agg32 (F := Ideal) (srcAt m ρ c) (dstAt m ρ c) (nrmAt m ρ c)) (W9_v51 m ρ c hB0 hB1 hB2))))

/-! ## Layer 3 -/

theorem W12_v67 (hB0 : B0) (hB1 : B1) (hB2 : B2) (hB3 : B3) (hB4 : B4) : W12 m ρ c (Proc.devRef .tc main_v67)
    = Cert.ReferenceIdeal.Stages.dense3 (F := Ideal) (Cert.ReferenceIdeal.Stages.act32 (F := Ideal)
        (agg32 (F := Ideal) (srcAt m ρ c) (dstAt m ρ c) (nrmAt m ρ c)
          (Cert.ReferenceIdeal.Stages.dense2 (F := Ideal) (Cert.ReferenceIdeal.Stages.act64 (F := Ideal)
        (agg64 (F := Ideal) (srcAt m ρ c) (dstAt m ρ c) (nrmAt m ρ c)
          (Cert.ReferenceIdeal.Stages.dense1 (F := Ideal) (m ((c : Thread nD τ).loc main_arg0)) (m ((c : Thread nD τ).loc main_arg3))))
        (m ((c : Thread nD τ).loc main_arg4))) (m ((c : Thread nD τ).loc main_arg5))))
        (m ((c : Thread nD τ).loc main_arg6))) (m ((c : Thread nD τ).loc main_arg7)) :=
  ((W12_arr m ρ c 2).trans (DenseRegions.final4 (V11 m ρ) c hB4)).trans
    (congrArg₂ (Cert.ReferenceIdeal.Stages.dense3 (F := Ideal)) (W11_v66 m ρ c hB0 hB1 hB2 hB3) ((to11 m ρ c main_arg7 (by decide) (by decide) (by decide) (by decide) (by decide) (by decide)).trans (W5_arg7 m ρ c)))

theorem W13_v80 : W13 m ρ c (Proc.devRef .tc main_v80)
    = agg4 (F := Ideal) (srcAt m ρ c) (dstAt m ρ c) (nrmAt m ρ c) (W12 m ρ c (Proc.devRef .tc main_v67)) := by
  unfold srcAt dstAt nrmAt
  rw [← to12 m ρ c main_v5 (by decide) (by decide) (by decide) (by decide) (by decide) (by decide) (by decide), ← to12 m ρ c main_v6 (by decide) (by decide) (by decide) (by decide) (by decide) (by decide) (by decide), ← to12 m ρ c main_v34 (by decide) (by decide) (by decide) (by decide) (by decide) (by decide) (by decide)]
  dsimp only [W13, hostOps5]
  after_results_simp
  rfl

theorem W13_v81 (k : Fin 4) : W13 m ρ c (Proc.devRef .tc main_v81) (ix2 0 k) = m ((c : Thread nD τ).loc main_arg8) (ix1 k) := by
  have e : W13 m ρ c (Proc.devRef .tc main_v81)
      = fun i => shapeCast S1x4 (W12 m ρ c (Proc.devRef .tc main_arg8)) shapeCasts_S4_S1x4 i := by
    dsimp only [W13, hostOps5]
    after_results_simp
    rfl
  rw [e, to12 m ρ c main_arg8 (by decide) (by decide) (by decide) (by decide) (by decide) (by decide) (by decide), W5_arg8]
  exact shapeCast_a_1a_apply _ _ 0 k

theorem W14_v82 (hB0 : B0) (hB1 : B1) (hB2 : B2) (hB3 : B3) (hB4 : B4) (hB5 : B5) : W14 m ρ c (Proc.devRef .tc main_v82)
    = Cert.ReferenceIdeal.Stages.soft (F := Ideal)
        (agg4 (F := Ideal) (srcAt m ρ c) (dstAt m ρ c) (nrmAt m ρ c)
          (Cert.ReferenceIdeal.Stages.dense3 (F := Ideal) (Cert.ReferenceIdeal.Stages.act32 (F := Ideal)
        (agg32 (F := Ideal) (srcAt m ρ c) (dstAt m ρ c) (nrmAt m ρ c)
          (Cert.ReferenceIdeal.Stages.dense2 (F := Ideal) (Cert.ReferenceIdeal.Stages.act64 (F := Ideal)
        (agg64 (F := Ideal) (srcAt m ρ c) (dstAt m ρ c) (nrmAt m ρ c)
          (Cert.ReferenceIdeal.Stages.dense1 (F := Ideal) (m ((c : Thread nD τ).loc main_arg0)) (m ((c : Thread nD τ).loc main_arg3))))
        (m ((c : Thread nD τ).loc main_arg4))) (m ((c : Thread nD τ).loc main_arg5))))
        (m ((c : Thread nD τ).loc main_arg6))) (m ((c : Thread nD τ).loc main_arg7))))
        (m ((c : Thread nD τ).loc main_arg8)) :=
  ((W14_arr m ρ c 2).trans (ActRegions.final5 (V13 m ρ) c (m ((c : Thread nD τ).loc main_arg8)) (W13_v81 m ρ c) hB5)).trans
    (congrArg (fun a => Cert.ReferenceIdeal.Stages.soft (F := Ideal) a (m ((c : Thread nD τ).loc main_arg8)))
      ((W13_v80 m ρ c).trans (congrArg (agg4 (F := Ideal) (srcAt m ρ c) (dstAt m ρ c) (nrmAt m ρ c)) (W12_v67 m ρ c hB0 hB1 hB2 hB3 hB4))))

end Cert.KernelIdeal.Fold

end
-- ==== Proof.Bridge.lean ====
/-
  Every kernel body against the reference's stage, one entry of a block at a time, on the extended reals.

  A body works on a block of 10000 consecutive rows of a feature matrix. Each of the three kinds of body computes, at
  row \`r\` of its block, a function of row \`r\` of the block alone (and of a small whole operand: the weight or the
  bias). So if the block holds rows \`e r\` of the whole matrix, what the body stores at \`(r, j)\` is what the
  reference's whole-array stage has at \`(e r, j)\`:

  * the product: the body contracts the block's columns with the weight's columns, \`∑ₖ xb(r, k) · w(j, k)\`; the
    reference transposes the weight and contracts \`x\`'s columns with the transposed weight's rows,
    \`∑ₖ x(e r, k) · wᵀ(k, j)\`. Rounding the operands to a shorter format is the identity here, and adding into a
    zero accumulator adds \`0\`.
  * bias and leaky rectifier: with \`v = a + b\`, the body keeps \`v\` where \`v > 0\` and takes \`c · v\` elsewhere, the
    reference keeps \`v\` where \`v ≥ 0\`; the two differ only at \`v = 0\`, where \`c · 0 = 0 = v\`.
  * bias and softmax: both take the row's maximum as a fold of \`max\` from \`-∞\` over the row's entries, then the
    larger of \`-∞\` and it, subtract, exponentiate, sum the row and divide; the reference's sum starts from a zero
    initial value.

  The lemmas are stated once over arbitrary extents and instantiated at the three layers' widths.
-/
import proofs.«161395_j41188736369372_1_alg».proof.Proof.Stages
import proofs.«161395_j41188736369372_1_alg».proof.Proof.Gen.KernelIdeal.Frame
import Idealize.ShloMosaic.Lib.ValueIdx
import Idealize.ShloMosaic.Lib.ValueLayout
import Idealize.ShloMosaic.Lib.Pipeline.Value
import Idealize.ShloMosaic.Lib.KernelVsHost
import Idealize.ShloMosaic.PureOps.Ideal.Laws

noncomputable section

namespace Cert.Bridge

open Idealize.ShloMosaic Idealize.ShloMosaic.ValueIdx
open scoped BigOperators

/-- The two zero offsets of a whole-buffer access, as a constant function. -/
theorem zeros2 : (![0, 0] : Fin 2 → Nat) = fun _ => 0 := funext fun a => by fin_cases a <;> rfl

section Products
variable {R K N : ℕ} {φ₁ φ₂ : FTy}

/-- A matrix product that contracts the columns of both operands (\`[R, K]\` against \`[N, K]\`), accumulated into
    zero, is at \`(r, n)\` the sum over \`k\` of \`lhs(r, k) · rhs(n, k)\`. -/
theorem matmul_cols_apply
    (wf : DotDims.WF (⟨2, ![R, K]⟩ : Shape) ⟨2, ![N, K]⟩ ⟨2, ![R, N]⟩ [1] [1] [0] [0] [] [])
    (lhs : FVec Ideal ⟨2, ![R, K]⟩ φ₁) (rhs : FVec Ideal ⟨2, ![N, K]⟩ φ₂) (r : Fin R) (n : Fin N) :
    FloatOps.matmul (⟨[1], [1], [0], [0], [], [], wf⟩ : DotDims (⟨2, ![R, K]⟩ : Shape) ⟨2, ![N, K]⟩ ⟨2, ![R, N]⟩) none
        lhs rhs (constant (F := Ideal) ⟨2, ![R, N]⟩ .f32 0x00000000#32) (ix2 r n)
      = ∑ k : Fin K, lhs (ix2 r k) * rhs (ix2 n k) := by
  rw [Ideal.matmul_constant_zero_apply]
  rw [← Equiv.sum_comp (contrEquiv1 (⟨[1], [1], [0], [0], [], [], wf⟩ : DotDims (⟨2, ![R, K]⟩ : Shape) ⟨2, ![N, K]⟩ ⟨2, ![R, N]⟩) K rfl rfl).symm]
  refine Finset.sum_congr rfl fun k _ => ?_
  have hl : DotDims.lhsIdx (⟨[1], [1], [0], [0], [], [], wf⟩ : DotDims (⟨2, ![R, K]⟩ : Shape) ⟨2, ![N, K]⟩ ⟨2, ![R, N]⟩) (ix2 r n)
      ((contrEquiv1 (⟨[1], [1], [0], [0], [], [], wf⟩ : DotDims (⟨2, ![R, K]⟩ : Shape) ⟨2, ![N, K]⟩ ⟨2, ![R, N]⟩) K rfl rfl).symm k) = ix2 r k := by
    funext a; apply Fin.ext
    match a with
    | ⟨0, _⟩ => rfl
    | ⟨1, _⟩ => exact (DotDims.lhsIdx_val_of_single _ rfl _ _).trans (contrEquiv1_symm_val _ K rfl rfl k)
  have hr : DotDims.rhsIdx (⟨[1], [1], [0], [0], [], [], wf⟩ : DotDims (⟨2, ![R, K]⟩ : Shape) ⟨2, ![N, K]⟩ ⟨2, ![R, N]⟩) (ix2 r n)
      ((contrEquiv1 (⟨[1], [1], [0], [0], [], [], wf⟩ : DotDims (⟨2, ![R, K]⟩ : Shape) ⟨2, ![N, K]⟩ ⟨2, ![R, N]⟩) K rfl rfl).symm k) = ix2 n k := by
    funext a; apply Fin.ext
    match a with
    | ⟨0, _⟩ => rfl
    | ⟨1, _⟩ => exact (DotDims.rhsIdx_val_of_single _ rfl _ _).trans (contrEquiv1_symm_val _ K rfl rfl k)
  rw [hl, hr]

/-- The host's general product contracting the left operand's columns with the right operand's rows (\`[R, K]\`
    against \`[K, N]\`) is at \`(r, n)\` the sum over \`k\` of \`lhs(r, k) · rhs(k, n)\`. -/
theorem dotGeneral_rows_apply
    (wf : DotDims.WF (⟨2, ![R, K]⟩ : Shape) ⟨2, ![K, N]⟩ ⟨2, ![R, N]⟩ [1] [0] [0] [1] [] [])
    (lhs : FVec Ideal ⟨2, ![R, K]⟩ φ₁) (rhs : FVec Ideal ⟨2, ![K, N]⟩ φ₂) (r : Fin R) (n : Fin N) :
    FloatOps.dotGeneral (⟨[1], [0], [0], [1], [], [], wf⟩ : DotDims (⟨2, ![R, K]⟩ : Shape) ⟨2, ![K, N]⟩ ⟨2, ![R, N]⟩) none .single
        lhs rhs (ix2 r n)
      = ∑ k : Fin K, lhs (ix2 r k) * rhs (ix2 k n) := by
  rw [Ideal.dotGeneral_apply]
  rw [← Equiv.sum_comp (contrEquiv1 (⟨[1], [0], [0], [1], [], [], wf⟩ : DotDims (⟨2, ![R, K]⟩ : Shape) ⟨2, ![K, N]⟩ ⟨2, ![R, N]⟩) K rfl rfl).symm]
  refine Finset.sum_congr rfl fun k _ => ?_
  have hl : DotDims.lhsIdx (⟨[1], [0], [0], [1], [], [], wf⟩ : DotDims (⟨2, ![R, K]⟩ : Shape) ⟨2, ![K, N]⟩ ⟨2, ![R, N]⟩) (ix2 r n)
      ((contrEquiv1 (⟨[1], [0], [0], [1], [], [], wf⟩ : DotDims (⟨2, ![R, K]⟩ : Shape) ⟨2, ![K, N]⟩ ⟨2, ![R, N]⟩) K rfl rfl).symm k) = ix2 r k := by
    funext a; apply Fin.ext
    match a with
    | ⟨0, _⟩ => rfl
    | ⟨1, _⟩ => exact (DotDims.lhsIdx_val_of_single _ rfl _ _).trans (contrEquiv1_symm_val _ K rfl rfl k)
  have hr : DotDims.rhsIdx (⟨[1], [0], [0], [1], [], [], wf⟩ : DotDims (⟨2, ![R, K]⟩ : Shape) ⟨2, ![K, N]⟩ ⟨2, ![R, N]⟩) (ix2 r n)
      ((contrEquiv1 (⟨[1], [0], [0], [1], [], [], wf⟩ : DotDims (⟨2, ![R, K]⟩ : Shape) ⟨2, ![K, N]⟩ ⟨2, ![R, N]⟩) K rfl rfl).symm k) = ix2 k n := by
    funext a; apply Fin.ext
    match a with
    | ⟨0, _⟩ => exact (DotDims.rhsIdx_val_of_single _ rfl _ _).trans (contrEquiv1_symm_val _ K rfl rfl k)
    | ⟨1, _⟩ => rfl
  rw [hl, hr]

end Products

section Dense
variable {R R' K N : ℕ}

/-- The product of a block with the weight, the body's way, is the reference's product of the whole matrix with the
    transposed weight on the block's rows: both are \`∑ₖ x(e r, k) · w(n, k)\`. -/
theorem dense_rows_eq
    (wfK : DotDims.WF (⟨2, ![R, K]⟩ : Shape) ⟨2, ![N, K]⟩ ⟨2, ![R, N]⟩ [1] [1] [0] [0] [] [])
    (wfH : DotDims.WF (⟨2, ![R', K]⟩ : Shape) ⟨2, ![K, N]⟩ ⟨2, ![R', N]⟩ [1] [0] [0] [1] [] [])
    (hT : (⟨2, ![N, K]⟩ : Shape).Transposes [1, 0] ⟨2, ![K, N]⟩)
    (h1 h2 : FTy.bits .bf16 < FTy.bits .f32)
    (xb : FVec Ideal ⟨2, ![R, K]⟩ .f32) (w : FVec Ideal ⟨2, ![N, K]⟩ .f32) (x : FVec Ideal ⟨2, ![R', K]⟩ .f32)
    (e : Fin R → Fin R') (hx : ∀ (r : Fin R) (k : Fin K), xb (ix2 r k) = x (ix2 (e r) k)) (r : Fin R) (n : Fin N) :
    matmul (⟨[1], [1], [0], [0], [], [], wfK⟩ : DotDims (⟨2, ![R, K]⟩ : Shape) ⟨2, ![N, K]⟩ ⟨2, ![R, N]⟩) none
        (truncf .bf16 xb h1) (truncf .bf16 w h2) (constant (F := Ideal) ⟨2, ![R, N]⟩ .f32 0x00000000#32) (ix2 r n)
      = Host.dotGeneral (⟨[1], [0], [0], [1], [], [], wfH⟩ : DotDims (⟨2, ![R', K]⟩ : Shape) ⟨2, ![K, N]⟩ ⟨2, ![R', N]⟩) none
        x (transpose ⟨2, ![K, N]⟩ [1, 0] w hT) (ix2 (e r) n) := by
  refine (matmul_cols_apply wfK _ _ r n).trans (Eq.symm ((dotGeneral_rows_apply wfH _ _ (e r) n).trans ?_))
  refine Finset.sum_congr rfl fun k _ => ?_
  show x (ix2 (e r) k) * transpose ⟨2, ![K, N]⟩ [1, 0] w hT (ix2 k n) = xb (ix2 r k) * w (ix2 n k)
  rw [transpose_ix2_apply w hT k n, hx r k]

end Dense

/-! ## The three products -/

/-- Layer 1's product: the body on a block of rows of \`x\` stores the reference's \`x · w₁ᵀ\` on those rows. -/
theorem out0_2_eq (xb : Vec Ideal Cert.KernelIdeal.S10000x128 .f32) (w : Vec Ideal Cert.KernelIdeal.S64x128 .f32)
    (x : FVec Ideal Cert.ReferenceIdeal.S100000x128 .f32) (e : Fin 10000 → Fin 100000)
    (hx : ∀ (r : Fin 10000) (k : Fin 128), xb (ix2 r k) = x (ix2 (e r) k)) (r : Fin 10000) (j : Fin 64) :
    Cert.KernelIdeal.Gen.out0_2 (F := Ideal) xb w (ix2 r j)
      = Cert.ReferenceIdeal.Stages.dense1 (F := Ideal) x w (ix2 (e r) j) := by
  unfold Cert.KernelIdeal.Gen.out0_2
  rw [View.canon_unit_zero zeros2]
  simp only [View.ld_unit_zero (S := Cert.KernelIdeal.S10000x128) zeros2, View.ld_unit_zero (S := Cert.KernelIdeal.S64x128) zeros2]
  unfold Cert.KernelIdeal.Gen.k0_pay1 Cert.ReferenceIdeal.Stages.dense1
  exact dense_rows_eq _ _ _ _ _ xb w x e hx r j

/-- Layer 2's product. -/
theorem out2_2_eq (xb : Vec Ideal Cert.KernelIdeal.S10000x64 .f32) (w : Vec Ideal Cert.KernelIdeal.S32x64 .f32)
    (x : FVec Ideal Cert.ReferenceIdeal.S100000x64 .f32) (e : Fin 10000 → Fin 100000)
    (hx : ∀ (r : Fin 10000) (k : Fin 64), xb (ix2 r k) = x (ix2 (e r) k)) (r : Fin 10000) (j : Fin 32) :
    Cert.KernelIdeal.Gen.out2_2 (F := Ideal) xb w (ix2 r j)
      = Cert.ReferenceIdeal.Stages.dense2 (F := Ideal) x w (ix2 (e r) j) := by
  unfold Cert.KernelIdeal.Gen.out2_2
  rw [View.canon_unit_zero zeros2]
  simp only [View.ld_unit_zero (S := Cert.KernelIdeal.S10000x64) zeros2, View.ld_unit_zero (S := Cert.KernelIdeal.S32x64) zeros2]
  unfold Cert.KernelIdeal.Gen.k2_pay1 Cert.ReferenceIdeal.Stages.dense2
  rw [shapeCast_self]
  exact dense_rows_eq _ _ _ _ _ xb w x e hx r j

/-- Layer 3's product. -/
theorem out4_2_eq (xb : Vec Ideal Cert.KernelIdeal.S10000x32 .f32) (w : Vec Ideal Cert.KernelIdeal.S4x32 .f32)
    (x : FVec Ideal Cert.ReferenceIdeal.S100000x32 .f32) (e : Fin 10000 → Fin 100000)
    (hx : ∀ (r : Fin 10000) (k : Fin 32), xb (ix2 r k) = x (ix2 (e r) k)) (r : Fin 10000) (j : Fin 4) :
    Cert.KernelIdeal.Gen.out4_2 (F := Ideal) xb w (ix2 r j)
      = Cert.ReferenceIdeal.Stages.dense3 (F := Ideal) x w (ix2 (e r) j) := by
  unfold Cert.KernelIdeal.Gen.out4_2
  rw [View.canon_unit_zero zeros2]
  simp only [View.ld_unit_zero (S := Cert.KernelIdeal.S10000x32) zeros2, View.ld_unit_zero (S := Cert.KernelIdeal.S4x32) zeros2]
  unfold Cert.KernelIdeal.Gen.k4_pay1 Cert.ReferenceIdeal.Stages.dense3
  rw [shapeCast_self]
  exact dense_rows_eq _ _ _ _ _ xb w x e hx r j

/-! ## Bias and the leaky rectifier -/

/-- On the extended reals, keeping \`v\` where \`v > 0\` and taking \`c · v\` elsewhere is keeping \`v\` where \`v ≥ 0\` and
    taking \`c · v\` elsewhere: the two disagree about \`v = 0\` only, and there \`c · 0 = 0\`. -/
theorem leaky_scalar (v c : EReal) :
    Scalar.select (Ideal.cmp .ogt v (Ideal.ofBits .f32 0x00000000#32)) v (c * v)
      = Scalar.select (Ideal.cmp .oge v (Ideal.ofBits .f32 0x00000000#32)) v (c * v) := by
  rw [Ideal.ofBits_zero_f32]
  by_cases h0 : v = 0
  · subst h0
    simp [Ideal.cmp, Scalar.select]
  · have hiff : ((0 : EReal) < v) ↔ ((0 : EReal) ≤ v) := ⟨le_of_lt, fun h => lt_of_le_of_ne h (Ne.symm h0)⟩
    simp only [Ideal.cmp, hiff]

section Leaky
variable {s s' : Shape}

/-- The body's rectifier of \`vK\` at an index and the reference's of \`vH\` at an index where the two agree: one value
    (the slope literal \`c\` is the same word on both sides and is never evaluated). -/
theorem leaky_eq (hb0 : (⟨0, ![]⟩ : Shape).BroadcastsInDim s' ![]) (vK : FVec Ideal s .f32) (vH : FVec Ideal s' .f32)
    (c : BitVec 32) (i : s.Idx) (i' : s'.Idx) (hv : vK i = vH i') :
    select (cmpf .ogt vK (broadcast s (Scalar.ofBits (F := Ideal) .f32 0x00000000#32))) vK
        (mulf (broadcast s (Scalar.ofBits (F := Ideal) .f32 c)) vK) i
      = select (cmpf .oge vH (broadcastInDim s' ![] hb0 (constant (F := Ideal) ⟨0, ![]⟩ .f32 0x00000000#32))) vH
        (mulf (broadcastInDim s' ![] hb0 (constant (F := Ideal) ⟨0, ![]⟩ .f32 c)) vH) i' := by
  show Scalar.select (Ideal.cmp .ogt (vK i) (Ideal.ofBits .f32 0x00000000#32)) (vK i) (Ideal.ofBits .f32 c * vK i)
      = Scalar.select (Ideal.cmp .oge (vH i') (Ideal.ofBits .f32 0x00000000#32)) (vH i') (Ideal.ofBits .f32 c * vH i')
  rw [hv]
  exact leaky_scalar _ _

end Leaky

section Bias
variable {R R' N : ℕ}

/-- The body's bias add at \`(r, j)\`: the block's entry plus the one-row bias at column \`j\`. -/
theorem biasK_apply (hsc1 : (⟨2, ![R, N]⟩ : Shape).ShapeCasts ⟨2, ![R, N]⟩)
    (hsc2 : (⟨2, ![1, N]⟩ : Shape).ShapeCasts ⟨2, ![1, N]⟩) (hbt : (⟨2, ![1, N]⟩ : Shape).Broadcasts ⟨2, ![R, N]⟩)
    (ab : FVec Ideal ⟨2, ![R, N]⟩ .f32) (bb : FVec Ideal ⟨2, ![1, N]⟩ .f32) (r : Fin R) (j : Fin N) :
    addf (shapeCast ⟨2, ![R, N]⟩ ab hsc1) (broadcastTo ⟨2, ![R, N]⟩ (shapeCast ⟨2, ![1, N]⟩ bb hsc2) hbt) (ix2 r j)
      = ab (ix2 r j) + bb (ix2 (0 : Fin 1) j) := by
  rw [shapeCast_self, shapeCast_self]
  show ab (ix2 r j) + broadcastTo ⟨2, ![R, N]⟩ bb hbt (ix2 r j) = _
  rw [broadcastTo_1b_ab_apply]

/-- The reference's bias add at \`(r, j)\`: the entry plus the bias vector at \`j\` (the vector laid out as one row,
    the row repeated down the rows). -/
theorem biasH_apply (hb1 : (⟨1, ![N]⟩ : Shape).BroadcastsInDim ⟨2, ![1, N]⟩ ![1])
    (hb2 : (⟨2, ![1, N]⟩ : Shape).BroadcastsInDim ⟨2, ![R', N]⟩ ![0, 1])
    (a : FVec Ideal ⟨2, ![R', N]⟩ .f32) (b : FVec Ideal ⟨1, ![N]⟩ .f32) (r : Fin R') (j : Fin N) :
    addf a (broadcastInDim ⟨2, ![R', N]⟩ ![0, 1] hb2 (broadcastInDim ⟨2, ![1, N]⟩ ![1] hb1 b)) (ix2 r j)
      = a (ix2 r j) + b (ix1 j) := by
  show a (ix2 r j) + broadcastInDim ⟨2, ![R', N]⟩ ![0, 1] hb2 (broadcastInDim ⟨2, ![1, N]⟩ ![1] hb1 b) (ix2 r j) = _
  rw [broadcastInDim_oneRow_apply]
  refine congrArg (a (ix2 r j) + ·) (broadcastInDim_apply ![1] hb1 b (ix2 (0 : Fin 1) j) (ix1 j) fun ax => ?_)
  match ax with
  | ⟨0, _⟩ =>
    show j.val = if N = 1 then 0 else j.val
    split
    · have := j.isLt; omega
    · rfl

/-- So where the block holds rows \`e r\` of \`a\` and the one-row bias holds \`b\`, the two biased values agree. -/
theorem bias_rows_eq (hsc1 : (⟨2, ![R, N]⟩ : Shape).ShapeCasts ⟨2, ![R, N]⟩)
    (hsc2 : (⟨2, ![1, N]⟩ : Shape).ShapeCasts ⟨2, ![1, N]⟩) (hbt : (⟨2, ![1, N]⟩ : Shape).Broadcasts ⟨2, ![R, N]⟩)
    (hb1 : (⟨1, ![N]⟩ : Shape).BroadcastsInDim ⟨2, ![1, N]⟩ ![1])
    (hb2 : (⟨2, ![1, N]⟩ : Shape).BroadcastsInDim ⟨2, ![R', N]⟩ ![0, 1])
    (ab : FVec Ideal ⟨2, ![R, N]⟩ .f32) (bb : FVec Ideal ⟨2, ![1, N]⟩ .f32)
    (a : FVec Ideal ⟨2, ![R', N]⟩ .f32) (b : FVec Ideal ⟨1, ![N]⟩ .f32) (e : Fin R → Fin R')
    (ha : ∀ (r : Fin R) (j : Fin N), ab (ix2 r j) = a (ix2 (e r) j))
    (hb : ∀ j : Fin N, bb (ix2 (0 : Fin 1) j) = b (ix1 j)) (r : Fin R) (j : Fin N) :
    addf (shapeCast ⟨2, ![R, N]⟩ ab hsc1) (broadcastTo ⟨2, ![R, N]⟩ (shapeCast ⟨2, ![1, N]⟩ bb hsc2) hbt) (ix2 r j)
      = addf a (broadcastInDim ⟨2, ![R', N]⟩ ![0, 1] hb2 (broadcastInDim ⟨2, ![1, N]⟩ ![1] hb1 b)) (ix2 (e r) j) := by
  rw [biasK_apply, biasH_apply, ha, hb]

/-- Bias and rectifier, the body's on a block against the reference's on the whole array. -/
theorem act_rows_eq (hsc1 : (⟨2, ![R, N]⟩ : Shape).ShapeCasts ⟨2, ![R, N]⟩)
    (hsc2 : (⟨2, ![1, N]⟩ : Shape).ShapeCasts ⟨2, ![1, N]⟩) (hbt : (⟨2, ![1, N]⟩ : Shape).Broadcasts ⟨2, ![R, N]⟩)
    (hb1 : (⟨1, ![N]⟩ : Shape).BroadcastsInDim ⟨2, ![1, N]⟩ ![1])
    (hb2 : (⟨2, ![1, N]⟩ : Shape).BroadcastsInDim ⟨2, ![R', N]⟩ ![0, 1])
    (hb0 : (⟨0, ![]⟩ : Shape).BroadcastsInDim ⟨2, ![R', N]⟩ ![])
    (ab : FVec Ideal ⟨2, ![R, N]⟩ .f32) (bb : FVec Ideal ⟨2, ![1, N]⟩ .f32)
    (a : FVec Ideal ⟨2, ![R', N]⟩ .f32) (b : FVec Ideal ⟨1, ![N]⟩ .f32) (c : BitVec 32) (e : Fin R → Fin R')
    (ha : ∀ (r : Fin R) (j : Fin N), ab (ix2 r j) = a (ix2 (e r) j))
    (hb : ∀ j : Fin N, bb (ix2 (0 : Fin 1) j) = b (ix1 j)) (r : Fin R) (j : Fin N) :
    select (cmpf .ogt (addf (shapeCast ⟨2, ![R, N]⟩ ab hsc1) (broadcastTo ⟨2, ![R, N]⟩ (shapeCast ⟨2, ![1, N]⟩ bb hsc2) hbt))
          (broadcast ⟨2, ![R, N]⟩ (Scalar.ofBits (F := Ideal) .f32 0x00000000#32)))
        (addf (shapeCast ⟨2, ![R, N]⟩ ab hsc1) (broadcastTo ⟨2, ![R, N]⟩ (shapeCast ⟨2, ![1, N]⟩ bb hsc2) hbt))
        (mulf (broadcast ⟨2, ![R, N]⟩ (Scalar.ofBits (F := Ideal) .f32 c))
          (addf (shapeCast ⟨2, ![R, N]⟩ ab hsc1) (broadcastTo ⟨2, ![R, N]⟩ (shapeCast ⟨2, ![1, N]⟩ bb hsc2) hbt))) (ix2 r j)
      = select (cmpf .oge (addf a (broadcastInDim ⟨2, ![R', N]⟩ ![0, 1] hb2 (broadcastInDim ⟨2, ![1, N]⟩ ![1] hb1 b)))
          (broadcastInDim ⟨2, ![R', N]⟩ ![] hb0 (constant (F := Ideal) ⟨0, ![]⟩ .f32 0x00000000#32)))
        (addf a (broadcastInDim ⟨2, ![R', N]⟩ ![0, 1] hb2 (broadcastInDim ⟨2, ![1, N]⟩ ![1] hb1 b)))
        (mulf (broadcastInDim ⟨2, ![R', N]⟩ ![] hb0 (constant (F := Ideal) ⟨0, ![]⟩ .f32 c))
          (addf a (broadcastInDim ⟨2, ![R', N]⟩ ![0, 1] hb2 (broadcastInDim ⟨2, ![1, N]⟩ ![1] hb1 b)))) (ix2 (e r) j) :=
  leaky_eq hb0 _ _ c _ _ (bias_rows_eq hsc1 hsc2 hbt hb1 hb2 ab bb a b e ha hb r j)

end Bias

/-! ## The two rectifier layers -/

/-- Layer 1's bias and rectifier: the body on a block of rows of \`a\`, with the bias as one row, stores the
    reference's stage on those rows. -/
theorem out1_2_eq (ab : Vec Ideal Cert.KernelIdeal.S10000x64 .f32) (bb : Vec Ideal Cert.KernelIdeal.S1x64 .f32)
    (a : FVec Ideal Cert.ReferenceIdeal.S100000x64 .f32) (b : FVec Ideal Cert.ReferenceIdeal.S64 .f32)
    (e : Fin 10000 → Fin 100000)
    (ha : ∀ (r : Fin 10000) (j : Fin 64), ab (ix2 r j) = a (ix2 (e r) j))
    (hb : ∀ j : Fin 64, bb (ix2 (0 : Fin 1) j) = b (ix1 j)) (r : Fin 10000) (j : Fin 64) :
    Cert.KernelIdeal.Gen.out1_2 (F := Ideal) ab bb (ix2 r j)
      = Cert.ReferenceIdeal.Stages.act64 (F := Ideal) a b (ix2 (e r) j) := by
  unfold Cert.KernelIdeal.Gen.out1_2
  rw [View.canon_unit_zero zeros2]
  simp only [View.ld_unit_zero (S := Cert.KernelIdeal.S10000x64) zeros2, View.ld_unit_zero (S := Cert.KernelIdeal.S1x64) zeros2]
  unfold Cert.KernelIdeal.Gen.k1_pay1 Cert.ReferenceIdeal.Stages.act64
  exact act_rows_eq _ _ _ _ _ _ ab bb a b _ e ha hb r j

/-- Layer 2's bias and rectifier. -/
theorem out3_2_eq (ab : Vec Ideal Cert.KernelIdeal.S10000x32 .f32) (bb : Vec Ideal Cert.KernelIdeal.S1x32 .f32)
    (a : FVec Ideal Cert.ReferenceIdeal.S100000x32 .f32) (b : FVec Ideal Cert.ReferenceIdeal.S32 .f32)
    (e : Fin 10000 → Fin 100000)
    (ha : ∀ (r : Fin 10000) (j : Fin 32), ab (ix2 r j) = a (ix2 (e r) j))
    (hb : ∀ j : Fin 32, bb (ix2 (0 : Fin 1) j) = b (ix1 j)) (r : Fin 10000) (j : Fin 32) :
    Cert.KernelIdeal.Gen.out3_2 (F := Ideal) ab bb (ix2 r j)
      = Cert.ReferenceIdeal.Stages.act32 (F := Ideal) a b (ix2 (e r) j) := by
  unfold Cert.KernelIdeal.Gen.out3_2
  rw [View.canon_unit_zero zeros2]
  simp only [View.ld_unit_zero (S := Cert.KernelIdeal.S10000x32) zeros2, View.ld_unit_zero (S := Cert.KernelIdeal.S1x32) zeros2]
  unfold Cert.KernelIdeal.Gen.k3_pay1 Cert.ReferenceIdeal.Stages.act32
  exact act_rows_eq _ _ _ _ _ _ ab bb a b _ e ha hb r j

/-! ## Bias and the row softmax -/

section Soft
variable {R N : ℕ}

/-- A row index with the column \`k\` put back is \`(r, k)\`. -/
theorem lift_row (h : (⟨2, ![R, N]⟩ : Shape).Reduces [1] ⟨1, ![R]⟩) (r : Fin R)
    (k : Fin ((⟨2, ![R, N]⟩ : Shape).size 1)) : h.lift (ix1 r) k = ix2 r (⟨k.val, k.isLt⟩ : Fin N) := by
  funext c; apply Fin.ext
  fin_cases c <;> rfl

/-- A column of row values kept as a one-column matrix and repeated along the rows, the body's way
    (\`[R] → [R, 1] → [R, N]\`), reads the row's value at \`(r, j)\`. -/
theorem colK_apply {α : Type} (hsc : (⟨1, ![R]⟩ : Shape).ShapeCasts ⟨2, ![R, 1]⟩)
    (hbt : (⟨2, ![R, 1]⟩ : Shape).Broadcasts ⟨2, ![R, N]⟩) (m : (⟨1, ![R]⟩ : Shape).Idx → α) (r : Fin R) (j : Fin N) :
    broadcastTo ⟨2, ![R, N]⟩ (shapeCast ⟨2, ![R, 1]⟩ m hsc) hbt (ix2 r j) = m (ix1 r) := by
  refine (broadcastTo_apply _ hbt (ix2 r j) (ix2 r (0 : Fin 1)) fun ax => ?_).trans
    (shapeCast_apply m hsc (ix2 r (0 : Fin 1)) (ix1 r) ?_)
  · match ax with
    | ⟨0, _⟩ =>
      show r.val = if R = 1 then 0 else r.val
      split
      · have := r.isLt; omega
      · rfl
    | ⟨1, _⟩ => rfl
  · rw [Shape.rowMajor_val_two, Shape.rowMajor_val_one]
    show r.val = r.val * 1 + 0
    omega

/-- The same column the reference's way (\`[R] → [R, 1]\` along axis 0, then \`[R, 1] → [R, N]\`). -/
theorem colH_apply {α : Type} (h0 : (⟨1, ![R]⟩ : Shape).BroadcastsInDim ⟨2, ![R, 1]⟩ ![0])
    (h01 : (⟨2, ![R, 1]⟩ : Shape).BroadcastsInDim ⟨2, ![R, N]⟩ ![0, 1]) (m : (⟨1, ![R]⟩ : Shape).Idx → α)
    (r : Fin R) (j : Fin N) :
    broadcastInDim ⟨2, ![R, N]⟩ ![0, 1] h01 (broadcastInDim ⟨2, ![R, 1]⟩ ![0] h0 m) (ix2 r j) = m (ix1 r) := by
  refine (broadcastInDim_apply ![0, 1] h01 _ (ix2 r j) (ix2 r (0 : Fin 1)) fun ax => ?_).trans
    (broadcastInDim_apply ![0] h0 m (ix2 r (0 : Fin 1)) (ix1 r) fun ax => ?_)
  · match ax with
    | ⟨0, _⟩ =>
      show r.val = if R = 1 then 0 else r.val
      split
      · have := r.isLt; omega
      · rfl
    | ⟨1, _⟩ => rfl
  · match ax with
    | ⟨0, _⟩ =>
      show r.val = if R = 1 then 0 else r.val
      split
      · have := r.isLt; omega
      · rfl

/-- The softmax of one row of extended reals, with the maximum taken from \`z\` (which both programs spell \`-∞\`)
    and joined to \`z\` once more: entry \`j\` is \`exp (rowⱼ - M) / ∑ₖ exp (rowₖ - M)\`,
    \`M = max z (fold max z row)\`. -/
def rowSoft (z : EReal) (row : Fin N → EReal) (j : Fin N) : EReal :=
  Ideal.div (Ideal.exp (row j - max z ((Finset.univ : Finset (Fin N)).fold max z row)))
    (∑ k : Fin N, Ideal.exp (row k - max z ((Finset.univ : Finset (Fin N)).fold max z row)))

/-- The body's row maximum at row \`r\`: the fold of \`max\` from the accumulator's value over the row. -/
theorem rowMaxK_apply (h : (⟨2, ![R, N]⟩ : Shape).Reduces [1] ⟨1, ![R]⟩) (src : FVec Ideal ⟨2, ![R, N]⟩ .f32)
    (acc : BitVec 32) (hφ : FKind.Formats .f32) (hacc : acc = FKind.maximumf.neutral .f32 hφ) (r : Fin R) :
    multiReduction .maximumf [1] ⟨1, ![R]⟩ src acc h hφ hacc (ix1 r)
      = (Finset.univ : Finset (Fin N)).fold max (Ideal.ofBits .f32 acc) (fun k => src (ix2 r k)) := by
  rw [Ideal.multiReduction_maximumf_single]
  exact congrArg (fun f => Finset.fold max (Ideal.ofBits .f32 acc) f (Finset.univ : Finset (Fin N)))
    (funext fun k => congrArg src (lift_row h r k))

/-- The reference's row maximum at row \`r\`: the same fold from the initial value. -/
theorem rowMaxH_apply (h' : (⟨2, ![R, N]⟩ : Shape).ReducesTo [1] ⟨1, ![R]⟩) (hu : 0 < (⟨0, ![]⟩ : Shape).numel)
    (v : FVec Ideal ⟨2, ![R, N]⟩ .f32) (init : (⟨0, ![]⟩ : Shape).Idx → Ideal .f32) (r : Fin R) :
    Host.reduce FloatOps.maximumf v init h' hu (ix1 r)
      = (Finset.univ : Finset (Fin N)).fold max (init (Shape.Idx.first hu)) (fun k => v (ix2 r k)) := by
  have h : (⟨2, ![R, N]⟩ : Shape).Reduces [1] ⟨1, ![R]⟩ := ⟨h'.1, Nat.one_pos, h'.2⟩
  rw [Host.reduce_eq_fold_single FloatOps.maximumf v init h' h hu]
  exact congrArg (fun f => Finset.fold max (init (Shape.Idx.first hu)) f (Finset.univ : Finset (Fin N)))
    (funext fun k => congrArg v (lift_row h r k))

/-- The body's row sum at row \`r\`. -/
theorem rowSumK_apply (h : (⟨2, ![R, N]⟩ : Shape).Reduces [1] ⟨1, ![R]⟩) (src : FVec Ideal ⟨2, ![R, N]⟩ .f32)
    (acc : BitVec 32) (hφ : FKind.Formats .f32) (hacc : acc = FKind.add.neutral .f32 hφ) (r : Fin R) :
    multiReduction .add [1] ⟨1, ![R]⟩ src acc h hφ hacc (ix1 r) = ∑ k : Fin N, src (ix2 r k) := by
  rw [Ideal.multiReduction_add_single]
  exact Finset.sum_congr rfl fun k _ => congrArg src (lift_row h r k)

/-- The reference's row sum at row \`r\`, from a zero initial value. -/
theorem rowSumH_apply (h' : (⟨2, ![R, N]⟩ : Shape).ReducesTo [1] ⟨1, ![R]⟩) (hu : 0 < (⟨0, ![]⟩ : Shape).numel)
    (v : FVec Ideal ⟨2, ![R, N]⟩ .f32) (r : Fin R) :
    Host.reduceAdd v (constant (F := Ideal) ⟨0, ![]⟩ .f32 0x00000000#32) h' hu (ix1 r) = ∑ k : Fin N, v (ix2 r k) := by
  have h : (⟨2, ![R, N]⟩ : Shape).Reduces [1] ⟨1, ![R]⟩ := ⟨h'.1, Nat.one_pos, h'.2⟩
  show Ideal.hostReduceAdd h' v (Ideal.ofBits .f32 0x00000000#32) (ix1 r) = _
  rw [Ideal.hostReduceAdd_single h' h, Ideal.ofBits_zero_f32, zero_add]
  exact Finset.sum_congr rfl fun k _ => congrArg v (lift_row h r k)

/-- The body's softmax of the biased block \`v\`, read at \`(r, j)\`: the row softmax of row \`r\`. -/
theorem softK_apply (h : (⟨2, ![R, N]⟩ : Shape).Reduces [1] ⟨1, ![R]⟩)
    (hsc : (⟨1, ![R]⟩ : Shape).ShapeCasts ⟨2, ![R, 1]⟩) (hbt : (⟨2, ![R, 1]⟩ : Shape).Broadcasts ⟨2, ![R, N]⟩)
    (hφ : FKind.Formats .f32) (haccM : (0xFF800000#32 : BitVec 32) = FKind.maximumf.neutral .f32 hφ)
    (haccA : (0x00000000#32 : BitVec 32) = FKind.add.neutral .f32 hφ)
    (v : FVec Ideal ⟨2, ![R, N]⟩ .f32) (r : Fin R) (j : Fin N) :
    divf
        (exp (subf v (broadcastTo ⟨2, ![R, N]⟩ (shapeCast ⟨2, ![R, 1]⟩
          (maximumf (broadcast ⟨1, ![R]⟩ (Scalar.ofBits (F := Ideal) .f32 0xFF800000#32))
            (multiReduction .maximumf [1] ⟨1, ![R]⟩ v 0xFF800000#32 h hφ haccM)) hsc) hbt)))
        (broadcastTo ⟨2, ![R, N]⟩ (shapeCast ⟨2, ![R, 1]⟩
          (multiReduction .add [1] ⟨1, ![R]⟩
            (exp (subf v (broadcastTo ⟨2, ![R, N]⟩ (shapeCast ⟨2, ![R, 1]⟩
              (maximumf (broadcast ⟨1, ![R]⟩ (Scalar.ofBits (F := Ideal) .f32 0xFF800000#32))
                (multiReduction .maximumf [1] ⟨1, ![R]⟩ v 0xFF800000#32 h hφ haccM)) hsc) hbt)))
            0x00000000#32 h hφ haccA) hsc) hbt) (ix2 r j)
      = rowSoft (Ideal.ofBits .f32 0xFF800000#32) (fun k => v (ix2 r k)) j := by
  have he : ∀ k : Fin N,
      exp (subf v (broadcastTo ⟨2, ![R, N]⟩ (shapeCast ⟨2, ![R, 1]⟩
          (maximumf (broadcast ⟨1, ![R]⟩ (Scalar.ofBits (F := Ideal) .f32 0xFF800000#32))
            (multiReduction .maximumf [1] ⟨1, ![R]⟩ v 0xFF800000#32 h hφ haccM)) hsc) hbt)) (ix2 r k)
        = Ideal.exp (v (ix2 r k) - max (Ideal.ofBits .f32 0xFF800000#32)
            ((Finset.univ : Finset (Fin N)).fold max (Ideal.ofBits .f32 0xFF800000#32) (fun k => v (ix2 r k)))) := fun k => by
    show Ideal.exp (v (ix2 r k) - broadcastTo ⟨2, ![R, N]⟩ (shapeCast ⟨2, ![R, 1]⟩
          (maximumf (broadcast ⟨1, ![R]⟩ (Scalar.ofBits (F := Ideal) .f32 0xFF800000#32))
            (multiReduction .maximumf [1] ⟨1, ![R]⟩ v 0xFF800000#32 h hφ haccM)) hsc) hbt (ix2 r k)) = _
    rw [colK_apply]
    show Ideal.exp (v (ix2 r k) - max (Ideal.ofBits .f32 0xFF800000#32)
        (multiReduction .maximumf [1] ⟨1, ![R]⟩ v 0xFF800000#32 h hφ haccM (ix1 r))) = _
    rw [rowMaxK_apply]
  show Ideal.div (exp (subf v (broadcastTo ⟨2, ![R, N]⟩ (shapeCast ⟨2, ![R, 1]⟩
          (maximumf (broadcast ⟨1, ![R]⟩ (Scalar.ofBits (F := Ideal) .f32 0xFF800000#32))
            (multiReduction .maximumf [1] ⟨1, ![R]⟩ v 0xFF800000#32 h hφ haccM)) hsc) hbt)) (ix2 r j))
      (broadcastTo ⟨2, ![R, N]⟩ (shapeCast ⟨2, ![R, 1]⟩
          (multiReduction .add [1] ⟨1, ![R]⟩
            (exp (subf v (broadcastTo ⟨2, ![R, N]⟩ (shapeCast ⟨2, ![R, 1]⟩
              (maximumf (broadcast ⟨1, ![R]⟩ (Scalar.ofBits (F := Ideal) .f32 0xFF800000#32))
                (multiReduction .maximumf [1] ⟨1, ![R]⟩ v 0xFF800000#32 h hφ haccM)) hsc) hbt)))
            0x00000000#32 h hφ haccA) hsc) hbt (ix2 r j)) = _
  rw [colK_apply, rowSumK_apply, he j]
  unfold rowSoft
  exact congrArg (Ideal.div _) (Finset.sum_congr rfl fun k _ => he k)

/-- The reference's softmax of the biased array \`v\`, read at \`(r, j)\`: the row softmax of row \`r\`. -/
theorem softH_apply (h' : (⟨2, ![R, N]⟩ : Shape).ReducesTo [1] ⟨1, ![R]⟩) (hu : 0 < (⟨0, ![]⟩ : Shape).numel)
    (hbs : (⟨0, ![]⟩ : Shape).BroadcastsInDim ⟨1, ![R]⟩ ![])
    (h0 : (⟨1, ![R]⟩ : Shape).BroadcastsInDim ⟨2, ![R, 1]⟩ ![0])
    (h01 : (⟨2, ![R, 1]⟩ : Shape).BroadcastsInDim ⟨2, ![R, N]⟩ ![0, 1])
    (v : FVec Ideal ⟨2, ![R, N]⟩ .f32) (r : Fin R) (j : Fin N) :
    Host.divf
        (Host.exp (subf v (broadcastInDim ⟨2, ![R, N]⟩ ![0, 1] h01 (broadcastInDim ⟨2, ![R, 1]⟩ ![0] h0
          (maximumf (broadcastInDim ⟨1, ![R]⟩ ![] hbs (constant (F := Ideal) ⟨0, ![]⟩ .f32 0xFF800000#32))
            (Host.reduce FloatOps.maximumf v (constant (F := Ideal) ⟨0, ![]⟩ .f32 0xFF800000#32) h' hu))))))
        (broadcastInDim ⟨2, ![R, N]⟩ ![0, 1] h01 (broadcastInDim ⟨2, ![R, 1]⟩ ![0] h0
          (Host.reduceAdd
            (Host.exp (subf v (broadcastInDim ⟨2, ![R, N]⟩ ![0, 1] h01 (broadcastInDim ⟨2, ![R, 1]⟩ ![0] h0
              (maximumf (broadcastInDim ⟨1, ![R]⟩ ![] hbs (constant (F := Ideal) ⟨0, ![]⟩ .f32 0xFF800000#32))
                (Host.reduce FloatOps.maximumf v (constant (F := Ideal) ⟨0, ![]⟩ .f32 0xFF800000#32) h' hu))))))
            (constant (F := Ideal) ⟨0, ![]⟩ .f32 0x00000000#32) h' hu))) (ix2 r j)
      = rowSoft (Ideal.ofBits .f32 0xFF800000#32) (fun k => v (ix2 r k)) j := by
  have he : ∀ k : Fin N,
      Host.exp (subf v (broadcastInDim ⟨2, ![R, N]⟩ ![0, 1] h01 (broadcastInDim ⟨2, ![R, 1]⟩ ![0] h0
          (maximumf (broadcastInDim ⟨1, ![R]⟩ ![] hbs (constant (F := Ideal) ⟨0, ![]⟩ .f32 0xFF800000#32))
            (Host.reduce FloatOps.maximumf v (constant (F := Ideal) ⟨0, ![]⟩ .f32 0xFF800000#32) h' hu))))) (ix2 r k)
        = Ideal.exp (v (ix2 r k) - max (Ideal.ofBits .f32 0xFF800000#32)
            ((Finset.univ : Finset (Fin N)).fold max (Ideal.ofBits .f32 0xFF800000#32) (fun k => v (ix2 r k)))) := fun k => by
    show Ideal.exp (v (ix2 r k) - broadcastInDim ⟨2, ![R, N]⟩ ![0, 1] h01 (broadcastInDim ⟨2, ![R, 1]⟩ ![0] h0
          (maximumf (broadcastInDim ⟨1, ![R]⟩ ![] hbs (constant (F := Ideal) ⟨0, ![]⟩ .f32 0xFF800000#32))
            (Host.reduce FloatOps.maximumf v (constant (F := Ideal) ⟨0, ![]⟩ .f32 0xFF800000#32) h' hu))) (ix2 r k)) = _
    rw [colH_apply]
    show Ideal.exp (v (ix2 r k) - max (Ideal.ofBits .f32 0xFF800000#32)
        (Host.reduce FloatOps.maximumf v (constant (F := Ideal) ⟨0, ![]⟩ .f32 0xFF800000#32) h' hu (ix1 r))) = _
    rw [rowMaxH_apply]
    rfl
  show Ideal.div (Host.exp (subf v (broadcastInDim ⟨2, ![R, N]⟩ ![0, 1] h01 (broadcastInDim ⟨2, ![R, 1]⟩ ![0] h0
          (maximumf (broadcastInDim ⟨1, ![R]⟩ ![] hbs (constant (F := Ideal) ⟨0, ![]⟩ .f32 0xFF800000#32))
            (Host.reduce FloatOps.maximumf v (constant (F := Ideal) ⟨0, ![]⟩ .f32 0xFF800000#32) h' hu))))) (ix2 r j))
      (broadcastInDim ⟨2, ![R, N]⟩ ![0, 1] h01 (broadcastInDim ⟨2, ![R, 1]⟩ ![0] h0
          (Host.reduceAdd
            (Host.exp (subf v (broadcastInDim ⟨2, ![R, N]⟩ ![0, 1] h01 (broadcastInDim ⟨2, ![R, 1]⟩ ![0] h0
              (maximumf (broadcastInDim ⟨1, ![R]⟩ ![] hbs (constant (F := Ideal) ⟨0, ![]⟩ .f32 0xFF800000#32))
                (Host.reduce FloatOps.maximumf v (constant (F := Ideal) ⟨0, ![]⟩ .f32 0xFF800000#32) h' hu))))))
            (constant (F := Ideal) ⟨0, ![]⟩ .f32 0x00000000#32) h' hu)) (ix2 r j)) = _
  rw [colH_apply, rowSumH_apply, he j]
  unfold rowSoft
  exact congrArg (Ideal.div _) (Finset.sum_congr rfl fun k _ => he k)

end Soft

/-! ## The softmax layer -/

/-- Layer 3's bias and softmax: the body on a block of rows of \`a\`, with the bias as one row, stores the reference's
    stage on those rows — each is the row softmax of the biased row. -/
theorem out5_2_eq (ab : Vec Ideal Cert.KernelIdeal.S10000x4 .f32) (bb : Vec Ideal Cert.KernelIdeal.S1x4 .f32)
    (a : FVec Ideal Cert.ReferenceIdeal.S100000x4 .f32) (b : FVec Ideal Cert.ReferenceIdeal.S4 .f32)
    (e : Fin 10000 → Fin 100000)
    (ha : ∀ (r : Fin 10000) (j : Fin 4), ab (ix2 r j) = a (ix2 (e r) j))
    (hb : ∀ j : Fin 4, bb (ix2 (0 : Fin 1) j) = b (ix1 j)) (r : Fin 10000) (j : Fin 4) :
    Cert.KernelIdeal.Gen.out5_2 (F := Ideal) ab bb (ix2 r j)
      = Cert.ReferenceIdeal.Stages.soft (F := Ideal) a b (ix2 (e r) j) := by
  unfold Cert.KernelIdeal.Gen.out5_2
  rw [View.canon_unit_zero zeros2]
  simp only [View.ld_unit_zero (S := Cert.KernelIdeal.S10000x4) zeros2, View.ld_unit_zero (S := Cert.KernelIdeal.S1x4) zeros2]
  have hK := softK_apply (R := 10000) (N := 4) Cert.KernelIdeal.Facts₀.reduces_S10000x4_S10000
      Cert.KernelIdeal.Facts₀.shapeCasts_S10000_S10000x1 Cert.KernelIdeal.Facts₀.broadcasts_S10000x1_S10000x4 (.inl rfl) rfl rfl
      (addf (shapeCast ⟨2, ![10000, 4]⟩ ab Cert.KernelIdeal.Facts₀.shapeCasts_S10000x4_S10000x4)
        (broadcastTo ⟨2, ![10000, 4]⟩ (shapeCast ⟨2, ![1, 4]⟩ bb Cert.KernelIdeal.Facts₀.shapeCasts_S1x4_S1x4)
          Cert.KernelIdeal.Facts₀.broadcasts_S1x4_S10000x4)) r j
  have hH := softH_apply (R := 100000) (N := 4) Cert.ReferenceIdeal.Facts₀.reducesTo_S100000x4_S100000_d1
      Cert.ReferenceIdeal.Facts₀.h_S_ Cert.ReferenceIdeal.Facts₀.bcast_S_S100000 Cert.ReferenceIdeal.Facts₀.bcast_S100000_S100000x1_0
      Cert.ReferenceIdeal.Facts₀.bcast_S100000x1_S100000x4_0_1
      (addf a (broadcastInDim ⟨2, ![100000, 4]⟩ ![0, 1] Cert.ReferenceIdeal.Facts₀.bcast_S1x4_S100000x4_0_1
        (broadcastInDim ⟨2, ![1, 4]⟩ ![1] Cert.ReferenceIdeal.Facts₀.bcast_S4_S1x4_1 b))) (e r) j
  have hrow : (fun k : Fin 4 => (addf (shapeCast ⟨2, ![10000, 4]⟩ ab Cert.KernelIdeal.Facts₀.shapeCasts_S10000x4_S10000x4)
        (broadcastTo ⟨2, ![10000, 4]⟩ (shapeCast ⟨2, ![1, 4]⟩ bb Cert.KernelIdeal.Facts₀.shapeCasts_S1x4_S1x4)
          Cert.KernelIdeal.Facts₀.broadcasts_S1x4_S10000x4)) (ix2 r k))
      = fun k : Fin 4 => (addf a (broadcastInDim ⟨2, ![100000, 4]⟩ ![0, 1] Cert.ReferenceIdeal.Facts₀.bcast_S1x4_S100000x4_0_1
        (broadcastInDim ⟨2, ![1, 4]⟩ ![1] Cert.ReferenceIdeal.Facts₀.bcast_S4_S1x4_1 b))) (ix2 (e r) k) :=
    funext fun k => bias_rows_eq _ _ _ _ _ ab bb a b e ha hb r k
  rw [hrow] at hK
  exact (Eq.trans hK hH.symm)

end Cert.Bridge

end
-- ==== Proof.RefGraph.lean ====
/-
  The graph half of the reference network, as functions of whole arrays, each spelled with the host operations the
  reference program applies, in its order.

  The edge table `e : [2, 3200000]` holds a source row and a destination row; both are extended by the self loops
  `0, 1, …, 99999`, giving index vectors of length 3300000 (`src`, `dst`), and the edge weights are extended by
  ones. With `deg(v) = ∑ { w(k) : dst(k) = v }` and `dis(v) = 1/√deg(v)` where `deg(v) > 0` and `0` elsewhere, the
  normalised weight of entry `k` is `nrm(k) = dis(src(k)) · w(k) · dis(dst(k))`.

  One aggregation of a feature matrix `h : [100000, C]` is the matrix whose row `v` is
  `∑ { nrm(k) · h(src(k), ·) : dst(k) = v }`: rows of `h` gathered at the sources (an index below zero is read from
  the end, as the host does before every gather), scaled, and added into the zero matrix at the destinations.

  `net` is the whole network: three times a dense layer, an aggregation, and a bias with its nonlinearity (the leaky
  rectifier twice, then the row softmax).
-/
import proofs.«161395_j41188736369372_1_alg».proof.ReferenceIdeal
import proofs.«161395_j41188736369372_1_alg».proof.Proof.Gen.ReferenceIdeal
import proofs.«161395_j41188736369372_1_alg».proof.Proof.Stages

noncomputable section

namespace Cert.ReferenceIdeal.Graph

open Cert.ReferenceIdeal Cert.ReferenceIdeal.Gen Idealize.ShloMosaic

variable {F : FTy → Type} [FloatOps F]

/-- Row 0 of the edge table followed by the self loops `0 … 99999`: the source of every entry. -/
def src (e : IVec S2x3200000 32) : IVec S3300000 32 :=
  concatenate S3300000 0
    [⟨S3200000, shapeCast S3200000 (extractStridedSlice S1x3200000 ![0, 0] e slices_S2x3200000_S1x3200000_0_0)
        shapeCasts_S1x3200000_S3200000⟩,
     ⟨S100000, iotaInDim S100000 32 0⟩] concatenates_S3200000_S100000_S3300000_d0

/-- Row 1 of the edge table followed by the self loops: the destination of every entry. -/
def dst (e : IVec S2x3200000 32) : IVec S3300000 32 :=
  concatenate S3300000 0
    [⟨S3200000, shapeCast S3200000 (extractStridedSlice S1x3200000 ![1, 0] e slices_S2x3200000_S1x3200000_1_0)
        shapeCasts_S1x3200000_S3200000⟩,
     ⟨S100000, iotaInDim S100000 32 0⟩] concatenates_S3200000_S100000_S3300000_d0

/-- An index vector made ready for a gather: an entry below zero has 100000 added, and the vector is laid out as
    one column. -/
def wrapped (i : IVec S3300000 32) : IVec S3300000x1 32 :=
  broadcastInDim S3300000x1 ![0] bcast_S3300000_S3300000x1_0
    (select (cmpi .slt i (broadcastInDim S3300000 ![] bcast_S_S3300000 (constantI S_ 32 0#32)))
      (addi i (broadcastInDim S3300000 ![] bcast_S_S3300000 (constantI S_ 32 100000#32))) i)

/-- The edge weights followed by a one per self loop. -/
def weights (w : FVec F S3200000 .f32) : FVec F S3300000 .f32 :=
  concatenate S3300000 0
    [⟨S3200000, w⟩, ⟨S100000, broadcastInDim S100000 ![] bcast_S_S100000 (constant S_ .f32 0x3F800000#32)⟩]
    concatenates_S3200000_S100000_S3300000_d0

/-- The weighted in-degree of every node: the weights added into the zero vector at the destinations. -/
def deg (e : IVec S2x3200000 32) (w : FVec F S3200000 .f32) : FVec F S100000 .f32 :=
  Host.scatterAdd scatter_S100000_S3300000x1_S3300000_n_0_0_1
    (broadcastInDim S100000 ![] bcast_S_S100000 (constant S_ .f32 0x00000000#32))
    (broadcastInDim S3300000x1 ![0] bcast_S3300000_S3300000x1_0 (dst e)) (weights w)

/-- `1/√deg` where the degree is positive (the root taken of `1` elsewhere), and `0` elsewhere. -/
def dis (e : IVec S2x3200000 32) (w : FVec F S3200000 .f32) : FVec F S100000 .f32 :=
  select (cmpf .ogt (deg e w) (broadcastInDim S100000 ![] bcast_S_S100000 (constant S_ .f32 0x00000000#32)))
    (Host.rsqrt
      (select (cmpf .ogt (deg e w) (broadcastInDim S100000 ![] bcast_S_S100000 (constant S_ .f32 0x00000000#32)))
        (deg e w) (broadcastInDim S100000 ![] bcast_S_S100000 (constant S_ .f32 0x3F800000#32))))
    (broadcastInDim S100000 ![] bcast_S_S100000 (constant S_ .f32 0x00000000#32))

/-- The normalised weight of every entry: `dis(src) · w · dis(dst)`, multiplied in that order. -/
def nrm (e : IVec S2x3200000 32) (w : FVec F S3200000 .f32) : FVec F S3300000 .f32 :=
  mulf
    (mulf (Host.gather gather_S100000_S3300000x1_S3300000_n_0_n_n_0_1_1 (dis e w) (wrapped (src e))) (weights w))
    (Host.gather gather_S100000_S3300000x1_S3300000_n_0_n_n_0_1_1 (dis e w) (wrapped (dst e)))

/-- One aggregation at width 64: rows of `h` gathered at `s`, scaled by `n`, added into zero at `d`. -/
def agg64 (s d : IVec S3300000 32) (n : FVec F S3300000 .f32) (h : FVec F S100000x64 .f32) : FVec F S100000x64 .f32 :=
  Host.scatterAdd scatter_S100000x64_S3300000x1_S3300000x64_1_0_0_1
    (broadcastInDim S100000x64 ![] bcast_S_S100000x64 (constant S_ .f32 0x00000000#32))
    (broadcastInDim S3300000x1 ![0] bcast_S3300000_S3300000x1_0 d)
    (mulf
      (broadcastInDim S3300000x64 ![0, 1] bcast_S3300000x1_S3300000x64_0_1
        (broadcastInDim S3300000x1 ![0] bcast_S3300000_S3300000x1_0 n))
      (Host.gather gather_S100000x64_S3300000x1_S3300000x64_1_0_n_n_0_1_164 h (wrapped s)))

/-- One aggregation at width 32. -/
def agg32 (s d : IVec S3300000 32) (n : FVec F S3300000 .f32) (h : FVec F S100000x32 .f32) : FVec F S100000x32 .f32 :=
  Host.scatterAdd scatter_S100000x32_S3300000x1_S3300000x32_1_0_0_1
    (broadcastInDim S100000x32 ![] bcast_S_S100000x32 (constant S_ .f32 0x00000000#32))
    (broadcastInDim S3300000x1 ![0] bcast_S3300000_S3300000x1_0 d)
    (mulf
      (broadcastInDim S3300000x32 ![0, 1] bcast_S3300000x1_S3300000x32_0_1
        (broadcastInDim S3300000x1 ![0] bcast_S3300000_S3300000x1_0 n))
      (Host.gather gather_S100000x32_S3300000x1_S3300000x32_1_0_n_n_0_1_132 h (wrapped s)))

/-- One aggregation at width 4. -/
def agg4 (s d : IVec S3300000 32) (n : FVec F S3300000 .f32) (h : FVec F S100000x4 .f32) : FVec F S100000x4 .f32 :=
  Host.scatterAdd scatter_S100000x4_S3300000x1_S3300000x4_1_0_0_1
    (broadcastInDim S100000x4 ![] bcast_S_S100000x4 (constant S_ .f32 0x00000000#32))
    (broadcastInDim S3300000x1 ![0] bcast_S3300000_S3300000x1_0 d)
    (mulf
      (broadcastInDim S3300000x4 ![0, 1] bcast_S3300000x1_S3300000x4_0_1
        (broadcastInDim S3300000x1 ![0] bcast_S3300000_S3300000x1_0 n))
      (Host.gather gather_S100000x4_S3300000x1_S3300000x4_1_0_n_n_0_1_14 h (wrapped s)))

/-- The whole network: dense, aggregate, bias and leaky rectifier at widths 64 and 32, then dense, aggregate, bias
    and row softmax at width 4, every aggregation over the same sources, destinations and normalised weights. -/
def net (x : FVec F S100000x128 .f32) (e : IVec S2x3200000 32) (w : FVec F S3200000 .f32)
    (W1 : FVec F S64x128 .f32) (b1 : FVec F S64 .f32) (W2 : FVec F S32x64 .f32) (b2 : FVec F S32 .f32)
    (W3 : FVec F S4x32 .f32) (b3 : FVec F S4 .f32) : FVec F S100000x4 .f32 :=
  Stages.soft
    (agg4 (src e) (dst e) (nrm e w)
      (Stages.dense3
        (Stages.act32
          (agg32 (src e) (dst e) (nrm e w)
            (Stages.dense2
              (Stages.act64 (agg64 (src e) (dst e) (nrm e w) (Stages.dense1 x W1)) b1) W2)) b2) W3)) b3

end Cert.ReferenceIdeal.Graph

end
-- ==== Proof.RefRun.lean ====
/-
  The reference program's run, read back as one function of its arguments.

  The program is a straight line of 142 host operations (its four calls of outlined functions — two selections in the
  degree normalisation, the two leaky rectifiers, each of which calls a selection of its own — stand in their callers'
  places). Run from any memory it ends with every buffer at the fold of the operations'
  results over the launch contents. That fold is read in four stretches, each from an arbitrary valuation:

  * the first 49 operations leave the source vector, the destination vector and the normalised weights
    (`Graph.src`, `Graph.dst`, `Graph.nrm` of the edge table and the edge weights);
  * the next 29 are the first layer: `Stages.act64 (Graph.agg64 … (Stages.dense1 x W1)) b1`;
  * the next 29 the second layer, the same at width 32 over the first layer's result;
  * the last 35 the third layer, ending in the row softmax.

  No stretch writes an argument, nor (after the first) any of the three graph vectors, so the four compose to
  `Graph.net` of the nine arguments, and the arguments end as they began.
-/
import proofs.«161395_j41188736369372_1_alg».proof.ReferenceIdeal
import proofs.«161395_j41188736369372_1_alg».proof.Proof.Gen.ReferenceIdeal
import proofs.«161395_j41188736369372_1_alg».proof.Proof.Stages
import proofs.«161395_j41188736369372_1_alg».proof.Proof.RefGraph
import Idealize.ShloMosaic.Lib.StableHlo.Run
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The program's 142 operations, in order, each call's operations in the call's place. -/
abbrev ops : List (HloOp τ sig (Elt F)) :=
  [ StableHlo.unary main_arg1 main_v0 ((extractStridedSlice S1x3200000 ![0, 0] · slices_S2x3200000_S1x3200000_0_0) : (⟨S2x3200000, .i32⟩ : BufTy).Contents (Elt F) → (⟨S1x3200000, .i32⟩ : BufTy).Contents (Elt F)),
    StableHlo.reshape main_v0 main_v1 rfl shapeCasts_S1x3200000_S3200000,
    StableHlo.unary main_arg1 main_v2 ((extractStridedSlice S1x3200000 ![1, 0] · slices_S2x3200000_S1x3200000_1_0) : (⟨S2x3200000, .i32⟩ : BufTy).Contents (Elt F) → (⟨S1x3200000, .i32⟩ : BufTy).Contents (Elt F)),
    StableHlo.reshape main_v2 main_v3 rfl shapeCasts_S1x3200000_S3200000,
    StableHlo.nullary main_v4 (iotaInDim S100000 32 0),
    StableHlo.binary main_v1 main_v4 main_v5 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    StableHlo.binary main_v3 main_v4 main_v6 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    StableHlo.nullary main_cst (constant S_ .f32 0x3F800000#32),
    StableHlo.unary main_cst main_v7 (broadcastInDim S100000 ![] bcast_S_S100000 : (⟨S_, .f32⟩ : BufTy).Contents (Elt F) → (⟨S100000, .f32⟩ : BufTy).Contents (Elt F)),
    StableHlo.binary main_arg2 main_v7 main_v8 ((fun a b => concatenate S3300000 0 [⟨S3200000, a⟩, ⟨S100000, b⟩] concatenates_S3200000_S100000_S3300000_d0) : (⟨S3200000, .f32⟩ : BufTy).Contents (Elt F) → (⟨S100000, .f32⟩ : BufTy).Contents (Elt F) → (⟨S3300000, .f32⟩ : BufTy).Contents (Elt F)),
    StableHlo.nullary main_cst_0 (constant S_ .f32 0x00000000#32),
    StableHlo.unary main_cst_0 main_v9 (broadcastInDim S100000 ![] bcast_S_S100000 : (⟨S_, .f32⟩ : BufTy).Contents (Elt F) → (⟨S100000, .f32⟩ : BufTy).Contents (Elt F)),
    StableHlo.unary main_v6 main_v10 (broadcastInDim S3300000x1 ![0] bcast_S3300000_S3300000x1_0 : (⟨S3300000, .i32⟩ : BufTy).Contents (Elt F) → (⟨S3300000x1, .i32⟩ : BufTy).Contents (Elt F)),
    StableHlo.ternary main_v9 main_v10 main_v8 main_v11 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    StableHlo.nullary main_cst_1 (constant S_ .f32 0x00000000#32),
    StableHlo.unary main_cst_1 main_v12 (broadcastInDim S100000 ![] bcast_S_S100000 : (⟨S_, .f32⟩ : BufTy).Contents (Elt F) → (⟨S100000, .f32⟩ : BufTy).Contents (Elt F)),
    StableHlo.binary main_v11 main_v12 main_v13 (cmpf .ogt : (⟨S100000, .f32⟩ : BufTy).Contents (Elt F) → (⟨S100000, .f32⟩ : BufTy).Contents (Elt F) → (⟨S100000, .i1⟩ : BufTy).Contents (Elt F)),
    StableHlo.nullary main_cst_2 (constant S_ .f32 0x00000000#32),
    StableHlo.unary main_cst_2 main_v14 (broadcastInDim S100000 ![] bcast_S_S100000 : (⟨S_, .f32⟩ : BufTy).Contents (Elt F) → (⟨S100000, .f32⟩ : BufTy).Contents (Elt F)),
    StableHlo.binary main_v11 main_v14 main_v15 (cmpf .ogt : (⟨S100000, .f32⟩ : BufTy).Contents (Elt F) → (⟨S100000, .f32⟩ : BufTy).Contents (Elt F) → (⟨S100000, .i1⟩ : BufTy).Contents (Elt F)),
    StableHlo.nullary main_cst_3 (constant S_ .f32 0x3F800000#32),
    StableHlo.TRef.unary (StableHlo.TRef.of (T := ⟨S_, .f32⟩) main_cst_3) main_call0.v0 id,
    StableHlo.TRef.unary main_call0.v0 main_call0.v1 (broadcastInDim S100000 ![] bcast_S_S100000),
    StableHlo.TRef.ternary (StableHlo.TRef.of (T := ⟨S100000, .i1⟩) main_v15) (StableHlo.TRef.of (T := ⟨S100000, .f32⟩) main_v11) main_call0.v1 main_call0.v2 select,
    StableHlo.unary main_v16 main_v17 (Host.rsqrt : (⟨S100000, .f32⟩ : BufTy).Contents (Elt F) → (⟨S100000, .f32⟩ : BufTy).Contents (Elt F)),
    StableHlo.nullary main_cst_4 (constant S_ .f32 0x00000000#32),
    StableHlo.TRef.unary (StableHlo.TRef.of (T := ⟨S_, .f32⟩) main_cst_4) main_call1.v0 id,
    StableHlo.TRef.unary main_call1.v0 main_call1.v1 (broadcastInDim S100000 ![] bcast_S_S100000),
    StableHlo.TRef.ternary (StableHlo.TRef.of (T := ⟨S100000, .i1⟩) main_v13) (StableHlo.TRef.of (T := ⟨S100000, .f32⟩) main_v17) main_call1.v1 main_call1.v2 select,
    StableHlo.nullary main_c (constantI S_ 32 0#32),
    StableHlo.unary main_c main_v19 (broadcastInDim S3300000 ![] bcast_S_S3300000 : (⟨S_, .i32⟩ : BufTy).Contents (Elt F) → (⟨S3300000, .i32⟩ : BufTy).Contents (Elt F)),
    StableHlo.binary main_v5 main_v19 main_v20 (cmpi .slt : (⟨S3300000, .i32⟩ : BufTy).Contents (Elt F) → (⟨S3300000, .i32⟩ : BufTy).Contents (Elt F) → (⟨S3300000, .i1⟩ : BufTy).Contents (Elt F)),
    StableHlo.nullary main_c_5 (constantI S_ 32 100000#32),
    StableHlo.unary main_c_5 main_v21 (broadcastInDim S3300000 ![] bcast_S_S3300000 : (⟨S_, .i32⟩ : BufTy).Contents (Elt F) → (⟨S3300000, .i32⟩ : BufTy).Contents (Elt F)),
    StableHlo.binary main_v5 main_v21 main_v22 (addi : (⟨S3300000, .i32⟩ : BufTy).Contents (Elt F) → (⟨S3300000, .i32⟩ : BufTy).Contents (Elt F) → (⟨S3300000, .i32⟩ : BufTy).Contents (Elt F)),
    StableHlo.ternary main_v20 main_v22 main_v5 main_v23 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    StableHlo.unary main_v23 main_v24 (broadcastInDim S3300000x1 ![0] bcast_S3300000_S3300000x1_0 : (⟨S3300000, .i32⟩ : BufTy).Contents (Elt F) → (⟨S3300000x1, .i32⟩ : BufTy).Contents (Elt F)),
    StableHlo.binary main_v18 main_v24 main_v25 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    StableHlo.binary main_v25 main_v8 main_v26 (mulf : (⟨S3300000, .f32⟩ : BufTy).Contents (Elt F) → (⟨S3300000, .f32⟩ : BufTy).Contents (Elt F) → (⟨S3300000, .f32⟩ : BufTy).Contents (Elt F)),
    StableHlo.nullary main_c_6 (constantI S_ 32 0#32),
    StableHlo.unary main_c_6 main_v27 (broadcastInDim S3300000 ![] bcast_S_S3300000 : (⟨S_, .i32⟩ : BufTy).Contents (Elt F) → (⟨S3300000, .i32⟩ : BufTy).Contents (Elt F)),
    StableHlo.binary main_v6 main_v27 main_v28 (cmpi .slt : (⟨S3300000, .i32⟩ : BufTy).Contents (Elt F) → (⟨S3300000, .i32⟩ : BufTy).Contents (Elt F) → (⟨S3300000, .i1⟩ : BufTy).Contents (Elt F)),
    StableHlo.nullary main_c_7 (constantI S_ 32 100000#32),
    StableHlo.unary main_c_7 main_v29 (broadcastInDim S3300000 ![] bcast_S_S3300000 : (⟨S_, .i32⟩ : BufTy).Contents (Elt F) → (⟨S3300000, .i32⟩ : BufTy).Contents (Elt F)),
    StableHlo.binary main_v6 main_v29 main_v30 (addi : (⟨S3300000, .i32⟩ : BufTy).Contents (Elt F) → (⟨S3300000, .i32⟩ : BufTy).Contents (Elt F) → (⟨S3300000, .i32⟩ : BufTy).Contents (Elt F)),
    StableHlo.ternary main_v28 main_v30 main_v6 main_v31 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    StableHlo.unary main_v31 main_v32 (broadcastInDim S3300000x1 ![0] bcast_S3300000_S3300000x1_0 : (⟨S3300000, .i32⟩ : BufTy).Contents (Elt F) → (⟨S3300000x1, .i32⟩ : BufTy).Contents (Elt F)),
    StableHlo.binary main_v18 main_v32 main_v33 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    StableHlo.binary main_v26 main_v33 main_v34 (mulf : (⟨S3300000, .f32⟩ : BufTy).Contents (Elt F) → (⟨S3300000, .f32⟩ : BufTy).Contents (Elt F) → (⟨S3300000, .f32⟩ : BufTy).Contents (Elt F)),
    StableHlo.unary main_arg3 main_v35 ((transpose S128x64 [1, 0] · transposes_S64x128_S128x64_1_0) : (⟨S64x128, .f32⟩ : BufTy).Contents (Elt F) → (⟨S128x64, .f32⟩ : BufTy).Contents (Elt F)),
    StableHlo.binary main_arg0 main_v35 main_v36 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    StableHlo.unary main_v34 main_v37 (broadcastInDim S3300000x1 ![0] bcast_S3300000_S3300000x1_0 : (⟨S3300000, .f32⟩ : BufTy).Contents (Elt F) → (⟨S3300000x1, .f32⟩ : BufTy).Contents (Elt F)),
    StableHlo.nullary main_c_8 (constantI S_ 32 0#32),
    StableHlo.unary main_c_8 main_v38 (broadcastInDim S3300000 ![] bcast_S_S3300000 : (⟨S_, .i32⟩ : BufTy).Contents (Elt F) → (⟨S3300000, .i32⟩ : BufTy).Contents (Elt F)),
    StableHlo.binary main_v5 main_v38 main_v39 (cmpi .slt : (⟨S3300000, .i32⟩ : BufTy).Contents (Elt F) → (⟨S3300000, .i32⟩ : BufTy).Contents (Elt F) → (⟨S3300000, .i1⟩ : BufTy).Contents (Elt F)),
    StableHlo.nullary main_c_9 (constantI S_ 32 100000#32),
    StableHlo.unary main_c_9 main_v40 (broadcastInDim S3300000 ![] bcast_S_S3300000 : (⟨S_, .i32⟩ : BufTy).Contents (Elt F) → (⟨S3300000, .i32⟩ : BufTy).Contents (Elt F)),
    StableHlo.binary main_v5 main_v40 main_v41 (addi : (⟨S3300000, .i32⟩ : BufTy).Contents (Elt F) → (⟨S3300000, .i32⟩ : BufTy).Contents (Elt F) → (⟨S3300000, .i32⟩ : BufTy).Contents (Elt F)),
    StableHlo.ternary main_v39 main_v41 main_v5 main_v42 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    StableHlo.unary main_v42 main_v43 (broadcastInDim S3300000x1 ![0] bcast_S3300000_S3300000x1_0 : (⟨S3300000, .i32⟩ : BufTy).Contents (Elt F) → (⟨S3300000x1, .i32⟩ : BufTy).Contents (Elt F)),
    StableHlo.binary main_v36 main_v43 main_v44 ((fun x i => Host.gather gather_S100000x64_S3300000x1_S3300000x64_1_0_n_n_0_1_164 x i) : (⟨S100000x64, .f32⟩ : BufTy).Contents (Elt F) → (⟨S3300000x1, .i32⟩ : BufTy).Contents (Elt F) → (⟨S3300000x64, .f32⟩ : BufTy).Contents (Elt F)),
    StableHlo.unary main_v37 main_v45 (broadcastInDim S3300000x64 ![0, 1] bcast_S3300000x1_S3300000x64_0_1 : (⟨S3300000x1, .f32⟩ : BufTy).Contents (Elt F) → (⟨S3300000x64, .f32⟩ : BufTy).Contents (Elt F)),
    StableHlo.binary main_v45 main_v44 main_v46 (mulf : (⟨S3300000x64, .f32⟩ : BufTy).Contents (Elt F) → (⟨S3300000x64, .f32⟩ : BufTy).Contents (Elt F) → (⟨S3300000x64, .f32⟩ : BufTy).Contents (Elt F)),
    StableHlo.nullary main_cst_10 (constant S_ .f32 0x00000000#32),
    StableHlo.unary main_cst_10 main_v47 (broadcastInDim S100000x64 ![] bcast_S_S100000x64 : (⟨S_, .f32⟩ : BufTy).Contents (Elt F) → (⟨S100000x64, .f32⟩ : BufTy).Contents (Elt F)),
    StableHlo.unary main_v6 main_v48 (broadcastInDim S3300000x1 ![0] bcast_S3300000_S3300000x1_0 : (⟨S3300000, .i32⟩ : BufTy).Contents (Elt F) → (⟨S3300000x1, .i32⟩ : BufTy).Contents (Elt F)),
    StableHlo.ternary main_v47 main_v48 main_v46 main_v49 ((fun x i u => Host.scatterAdd scatter_S100000x64_S3300000x1_S3300000x64_1_0_0_1 x i u) : (⟨S100000x64, .f32⟩ : BufTy).Contents (Elt F) → (⟨S3300000x1, .i32⟩ : BufTy).Contents (Elt F) → (⟨S3300000x64, .f32⟩ : BufTy).Contents (Elt F) → (⟨S100000x64, .f32⟩ : BufTy).Contents (Elt F)),
    StableHlo.unary main_arg4 main_v50 (broadcastInDim S1x64 ![1] bcast_S64_S1x64_1 : (⟨S64, .f32⟩ : BufTy).Contents (Elt F) → (⟨S1x64, .f32⟩ : BufTy).Contents (Elt F)),
    StableHlo.unary main_v50 main_v51 (broadcastInDim S100000x64 ![0, 1] bcast_S1x64_S100000x64_0_1 : (⟨S1x64, .f32⟩ : BufTy).Contents (Elt F) → (⟨S100000x64, .f32⟩ : BufTy).Contents (Elt F)),
    StableHlo.binary main_v49 main_v51 main_v52 (addf : (⟨S100000x64, .f32⟩ : BufTy).Contents (Elt F) → (⟨S100000x64, .f32⟩ : BufTy).Contents (Elt F) → (⟨S100000x64, .f32⟩ : BufTy).Contents (Elt F)),
    StableHlo.nullary main_cst_11 (constant S_ .f32 0x3C23D70A#32),
    StableHlo.TRef.nullary main_call2.cst (constant S_ .f32 0x00000000#32),
    StableHlo.TRef.unary main_call2.cst main_call2.v0 (broadcastInDim S100000x64 ![] bcast_S_S100000x64),
    StableHlo.TRef.binary (StableHlo.TRef.of (T := ⟨S100000x64, .f32⟩) main_v52) main_call2.v0 main_call2.v1 (cmpf .oge),
    StableHlo.TRef.unary (StableHlo.TRef.of (T := ⟨S_, .f32⟩) main_cst_11) main_call2.v2 id,
    StableHlo.TRef.unary main_call2.v2 main_call2.v3 (broadcastInDim S100000x64 ![] bcast_S_S100000x64),
    StableHlo.TRef.binary main_call2.v3 (StableHlo.TRef.of (T := ⟨S100000x64, .f32⟩) main_v52) main_call2.v4 mulf,
    StableHlo.TRef.ternary main_call2.v1 (StableHlo.TRef.of (T := ⟨S100000x64, .f32⟩) main_v52) main_call2.v4 main_call2.call0.v0 select,
    StableHlo.unary main_arg5 main_v54 ((transpose S64x32 [1, 0] · transposes_S32x64_S64x32_1_0) : (⟨S32x64, .f32⟩ : BufTy).Contents (Elt F) → (⟨S64x32, .f32⟩ : BufTy).Contents (Elt F)),
    StableHlo.binary main_v53 main_v54 main_v55 ((fun l r => Host.dotGeneral dot_S100000x64_S64x32_S100000x32_1_0_0_1_n_n none l r) : (⟨S100000x64, .f32⟩ : BufTy).Contents (Elt F) → (⟨S64x32, .f32⟩ : BufTy).Contents (Elt F) → (⟨S100000x32, .f32⟩ : BufTy).Contents (Elt F)),
    StableHlo.unary main_v34 main_v56 (broadcastInDim S3300000x1 ![0] bcast_S3300000_S3300000x1_0 : (⟨S3300000, .f32⟩ : BufTy).Contents (Elt F) → (⟨S3300000x1, .f32⟩ : BufTy).Contents (Elt F)),
    StableHlo.nullary main_c_12 (constantI S_ 32 0#32),
    StableHlo.unary main_c_12 main_v57 (broadcastInDim S3300000 ![] bcast_S_S3300000 : (⟨S_, .i32⟩ : BufTy).Contents (Elt F) → (⟨S3300000, .i32⟩ : BufTy).Contents (Elt F)),
    StableHlo.binary main_v5 main_v57 main_v58 (cmpi .slt : (⟨S3300000, .i32⟩ : BufTy).Contents (Elt F) → (⟨S3300000, .i32⟩ : BufTy).Contents (Elt F) → (⟨S3300000, .i1⟩ : BufTy).Contents (Elt F)),
    StableHlo.nullary main_c_13 (constantI S_ 32 100000#32),
    StableHlo.unary main_c_13 main_v59 (broadcastInDim S3300000 ![] bcast_S_S3300000 : (⟨S_, .i32⟩ : BufTy).Contents (Elt F) → (⟨S3300000, .i32⟩ : BufTy).Contents (Elt F)),
    StableHlo.binary main_v5 main_v59 main_v60 (addi : (⟨S3300000, .i32⟩ : BufTy).Contents (Elt F) → (⟨S3300000, .i32⟩ : BufTy).Contents (Elt F) → (⟨S3300000, .i32⟩ : BufTy).Contents (Elt F)),
    StableHlo.ternary main_v58 main_v60 main_v5 main_v61 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    StableHlo.unary main_v61 main_v62 (broadcastInDim S3300000x1 ![0] bcast_S3300000_S3300000x1_0 : (⟨S3300000, .i32⟩ : BufTy).Contents (Elt F) → (⟨S3300000x1, .i32⟩ : BufTy).Contents (Elt F)),
    StableHlo.binary main_v55 main_v62 main_v63 ((fun x i => Host.gather gather_S100000x32_S3300000x1_S3300000x32_1_0_n_n_0_1_132 x i) : (⟨S100000x32, .f32⟩ : BufTy).Contents (Elt F) → (⟨S3300000x1, .i32⟩ : BufTy).Contents (Elt F) → (⟨S3300000x32, .f32⟩ : BufTy).Contents (Elt F)),
    StableHlo.unary main_v56 main_v64 (broadcastInDim S3300000x32 ![0, 1] bcast_S3300000x1_S3300000x32_0_1 : (⟨S3300000x1, .f32⟩ : BufTy).Contents (Elt F) → (⟨S3300000x32, .f32⟩ : BufTy).Contents (Elt F)),
    StableHlo.binary main_v64 main_v63 main_v65 (mulf : (⟨S3300000x32, .f32⟩ : BufTy).Contents (Elt F) → (⟨S3300000x32, .f32⟩ : BufTy).Contents (Elt F) → (⟨S3300000x32, .f32⟩ : BufTy).Contents (Elt F)),
    StableHlo.nullary main_cst_14 (constant S_ .f32 0x00000000#32),
    StableHlo.unary main_cst_14 main_v66 (broadcastInDim S100000x32 ![] bcast_S_S100000x32 : (⟨S_, .f32⟩ : BufTy).Contents (Elt F) → (⟨S100000x32, .f32⟩ : BufTy).Contents (Elt F)),
    StableHlo.unary main_v6 main_v67 (broadcastInDim S3300000x1 ![0] bcast_S3300000_S3300000x1_0 : (⟨S3300000, .i32⟩ : BufTy).Contents (Elt F) → (⟨S3300000x1, .i32⟩ : BufTy).Contents (Elt F)),
    StableHlo.ternary main_v66 main_v67 main_v65 main_v68 ((fun x i u => Host.scatterAdd scatter_S100000x32_S3300000x1_S3300000x32_1_0_0_1 x i u) : (⟨S100000x32, .f32⟩ : BufTy).Contents (Elt F) → (⟨S3300000x1, .i32⟩ : BufTy).Contents (Elt F) → (⟨S3300000x32, .f32⟩ : BufTy).Contents (Elt F) → (⟨S100000x32, .f32⟩ : BufTy).Contents (Elt F)),
    StableHlo.unary main_arg6 main_v69 (broadcastInDim S1x32 ![1] bcast_S32_S1x32_1 : (⟨S32, .f32⟩ : BufTy).Contents (Elt F) → (⟨S1x32, .f32⟩ : BufTy).Contents (Elt F)),
    StableHlo.unary main_v69 main_v70 (broadcastInDim S100000x32 ![0, 1] bcast_S1x32_S100000x32_0_1 : (⟨S1x32, .f32⟩ : BufTy).Contents (Elt F) → (⟨S100000x32, .f32⟩ : BufTy).Contents (Elt F)),
    StableHlo.binary main_v68 main_v70 main_v71 (addf : (⟨S100000x32, .f32⟩ : BufTy).Contents (Elt F) → (⟨S100000x32, .f32⟩ : BufTy).Contents (Elt F) → (⟨S100000x32, .f32⟩ : BufTy).Contents (Elt F)),
    StableHlo.nullary main_cst_15 (constant S_ .f32 0x3C23D70A#32),
    StableHlo.TRef.nullary main_call3.cst (constant S_ .f32 0x00000000#32),
    StableHlo.TRef.unary main_call3.cst main_call3.v0 (broadcastInDim S100000x32 ![] bcast_S_S100000x32),
    StableHlo.TRef.binary (StableHlo.TRef.of (T := ⟨S100000x32, .f32⟩) main_v71) main_call3.v0 main_call3.v1 (cmpf .oge),
    StableHlo.TRef.unary (StableHlo.TRef.of (T := ⟨S_, .f32⟩) main_cst_15) main_call3.v2 id,
    StableHlo.TRef.unary main_call3.v2 main_call3.v3 (broadcastInDim S100000x32 ![] bcast_S_S100000x32),
    StableHlo.TRef.binary main_call3.v3 (StableHlo.TRef.of (T := ⟨S100000x32, .f32⟩) main_v71) main_call3.v4 mulf,
    StableHlo.TRef.ternary main_call3.v1 (StableHlo.TRef.of (T := ⟨S100000x32, .f32⟩) main_v71) main_call3.v4 main_call3.call0.v0 select,
    StableHlo.unary main_arg7 main_v73 ((transpose S32x4 [1, 0] · transposes_S4x32_S32x4_1_0) : (⟨S4x32, .f32⟩ : BufTy).Contents (Elt F) → (⟨S32x4, .f32⟩ : BufTy).Contents (Elt F)),
    StableHlo.binary main_v72 main_v73 main_v74 ((fun l r => Host.dotGeneral dot_S100000x32_S32x4_S100000x4_1_0_0_1_n_n none l r) : (⟨S100000x32, .f32⟩ : BufTy).Contents (Elt F) → (⟨S32x4, .f32⟩ : BufTy).Contents (Elt F) → (⟨S100000x4, .f32⟩ : BufTy).Contents (Elt F)),
    StableHlo.unary main_v34 main_v75 (broadcastInDim S3300000x1 ![0] bcast_S3300000_S3300000x1_0 : (⟨S3300000, .f32⟩ : BufTy).Contents (Elt F) → (⟨S3300000x1, .f32⟩ : BufTy).Contents (Elt F)),
    StableHlo.nullary main_c_16 (constantI S_ 32 0#32),
    StableHlo.unary main_c_16 main_v76 (broadcastInDim S3300000 ![] bcast_S_S3300000 : (⟨S_, .i32⟩ : BufTy).Contents (Elt F) → (⟨S3300000, .i32⟩ : BufTy).Contents (Elt F)),
    StableHlo.binary main_v5 main_v76 main_v77 (cmpi .slt : (⟨S3300000, .i32⟩ : BufTy).Contents (Elt F) → (⟨S3300000, .i32⟩ : BufTy).Contents (Elt F) → (⟨S3300000, .i1⟩ : BufTy).Contents (Elt F)),
    StableHlo.nullary main_c_17 (constantI S_ 32 100000#32),
    StableHlo.unary main_c_17 main_v78 (broadcastInDim S3300000 ![] bcast_S_S3300000 : (⟨S_, .i32⟩ : BufTy).Contents (Elt F) → (⟨S3300000, .i32⟩ : BufTy).Contents (Elt F)),
    StableHlo.binary main_v5 main_v78 main_v79 (addi : (⟨S3300000, .i32⟩ : BufTy).Contents (Elt F) → (⟨S3300000, .i32⟩ : BufTy).Contents (Elt F) → (⟨S3300000, .i32⟩ : BufTy).Contents (Elt F)),
    StableHlo.ternary main_v77 main_v79 main_v5 main_v80 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    StableHlo.unary main_v80 main_v81 (broadcastInDim S3300000x1 ![0] bcast_S3300000_S3300000x1_0 : (⟨S3300000, .i32⟩ : BufTy).Contents (Elt F) → (⟨S3300000x1, .i32⟩ : BufTy).Contents (Elt F)),
    StableHlo.binary main_v74 main_v81 main_v82 ((fun x i => Host.gather gather_S100000x4_S3300000x1_S3300000x4_1_0_n_n_0_1_14 x i) : (⟨S100000x4, .f32⟩ : BufTy).Contents (Elt F) → (⟨S3300000x1, .i32⟩ : BufTy).Contents (Elt F) → (⟨S3300000x4, .f32⟩ : BufTy).Contents (Elt F)),
    StableHlo.unary main_v75 main_v83 (broadcastInDim S3300000x4 ![0, 1] bcast_S3300000x1_S3300000x4_0_1 : (⟨S3300000x1, .f32⟩ : BufTy).Contents (Elt F) → (⟨S3300000x4, .f32⟩ : BufTy).Contents (Elt F)),
    StableHlo.binary main_v83 main_v82 main_v84 (mulf : (⟨S3300000x4, .f32⟩ : BufTy).Contents (Elt F) → (⟨S3300000x4, .f32⟩ : BufTy).Contents (Elt F) → (⟨S3300000x4, .f32⟩ : BufTy).Contents (Elt F)),
    StableHlo.nullary main_cst_18 (constant S_ .f32 0x00000000#32),
    StableHlo.unary main_cst_18 main_v85 (broadcastInDim S100000x4 ![] bcast_S_S100000x4 : (⟨S_, .f32⟩ : BufTy).Contents (Elt F) → (⟨S100000x4, .f32⟩ : BufTy).Contents (Elt F)),
    StableHlo.unary main_v6 main_v86 (broadcastInDim S3300000x1 ![0] bcast_S3300000_S3300000x1_0 : (⟨S3300000, .i32⟩ : BufTy).Contents (Elt F) → (⟨S3300000x1, .i32⟩ : BufTy).Contents (Elt F)),
    StableHlo.ternary main_v85 main_v86 main_v84 main_v87 ((fun x i u => Host.scatterAdd scatter_S100000x4_S3300000x1_S3300000x4_1_0_0_1 x i u) : (⟨S100000x4, .f32⟩ : BufTy).Contents (Elt F) → (⟨S3300000x1, .i32⟩ : BufTy).Contents (Elt F) → (⟨S3300000x4, .f32⟩ : BufTy).Contents (Elt F) → (⟨S100000x4, .f32⟩ : BufTy).Contents (Elt F)),
    StableHlo.unary main_arg8 main_v88 (broadcastInDim S1x4 ![1] bcast_S4_S1x4_1 : (⟨S4, .f32⟩ : BufTy).Contents (Elt F) → (⟨S1x4, .f32⟩ : BufTy).Contents (Elt F)),
    StableHlo.unary main_v88 main_v89 (broadcastInDim S100000x4 ![0, 1] bcast_S1x4_S100000x4_0_1 : (⟨S1x4, .f32⟩ : BufTy).Contents (Elt F) → (⟨S100000x4, .f32⟩ : BufTy).Contents (Elt F)),
    StableHlo.binary main_v87 main_v89 main_v90 (addf : (⟨S100000x4, .f32⟩ : BufTy).Contents (Elt F) → (⟨S100000x4, .f32⟩ : BufTy).Contents (Elt F) → (⟨S100000x4, .f32⟩ : BufTy).Contents (Elt F)),
    StableHlo.nullary main_cst_19 (constant S_ .f32 0xFF800000#32),
    StableHlo.binary main_v90 main_cst_19 main_v91 ((fun x v => Host.reduce FloatOps.maximumf x v reducesTo_S100000x4_S100000_d1 h_S_) : (⟨S100000x4, .f32⟩ : BufTy).Contents (Elt F) → (⟨S_, .f32⟩ : BufTy).Contents (Elt F) → (⟨S100000, .f32⟩ : BufTy).Contents (Elt F)),
    StableHlo.nullary main_cst_20 (constant S_ .f32 0xFF800000#32),
    StableHlo.unary main_cst_20 main_v92 (broadcastInDim S100000 ![] bcast_S_S100000 : (⟨S_, .f32⟩ : BufTy).Contents (Elt F) → (⟨S100000, .f32⟩ : BufTy).Contents (Elt F)),
    StableHlo.binary main_v92 main_v91 main_v93 (maximumf : (⟨S100000, .f32⟩ : BufTy).Contents (Elt F) → (⟨S100000, .f32⟩ : BufTy).Contents (Elt F) → (⟨S100000, .f32⟩ : BufTy).Contents (Elt F)),
    StableHlo.unary main_v93 main_v94 (broadcastInDim S100000x1 ![0] bcast_S100000_S100000x1_0 : (⟨S100000, .f32⟩ : BufTy).Contents (Elt F) → (⟨S100000x1, .f32⟩ : BufTy).Contents (Elt F)),
    StableHlo.unary main_v94 main_v95 (broadcastInDim S100000x4 ![0, 1] bcast_S100000x1_S100000x4_0_1 : (⟨S100000x1, .f32⟩ : BufTy).Contents (Elt F) → (⟨S100000x4, .f32⟩ : BufTy).Contents (Elt F)),
    StableHlo.binary main_v90 main_v95 main_v96 (subf : (⟨S100000x4, .f32⟩ : BufTy).Contents (Elt F) → (⟨S100000x4, .f32⟩ : BufTy).Contents (Elt F) → (⟨S100000x4, .f32⟩ : BufTy).Contents (Elt F)),
    StableHlo.unary main_v96 main_v97 (Host.exp : (⟨S100000x4, .f32⟩ : BufTy).Contents (Elt F) → (⟨S100000x4, .f32⟩ : BufTy).Contents (Elt F)),
    StableHlo.nullary main_cst_21 (constant S_ .f32 0x00000000#32),
    StableHlo.binary main_v97 main_cst_21 main_v98 ((fun x v => Host.reduceAdd x v reducesTo_S100000x4_S100000_d1 h_S_) : (⟨S100000x4, .f32⟩ : BufTy).Contents (Elt F) → (⟨S_, .f32⟩ : BufTy).Contents (Elt F) → (⟨S100000, .f32⟩ : BufTy).Contents (Elt F)),
    StableHlo.unary main_v98 main_v99 (broadcastInDim S100000x1 ![0] bcast_S100000_S100000x1_0 : (⟨S100000, .f32⟩ : BufTy).Contents (Elt F) → (⟨S100000x1, .f32⟩ : BufTy).Contents (Elt F)),
    StableHlo.unary main_v99 main_v100 (broadcastInDim S100000x4 ![0, 1] bcast_S100000x1_S100000x4_0_1 : (⟨S100000x1, .f32⟩ : BufTy).Contents (Elt F) → (⟨S100000x4, .f32⟩ : BufTy).Contents (Elt F)),
    StableHlo.binary main_v97 main_v100 main_v101 (Host.divf : (⟨S100000x4, .f32⟩ : BufTy).Contents (Elt F) → (⟨S100000x4, .f32⟩ : BufTy).Contents (Elt F) → (⟨S100000x4, .f32⟩ : BufTy).Contents (Elt F)) ]

/-- Operations 1 … 49: the two index vectors, the degrees, and the normalised weights. -/
def opsGraph : List (HloOp τ sig (Elt F)) :=
  [ StableHlo.unary main_arg1 main_v0 ((extractStridedSlice S1x3200000 ![0, 0] · slices_S2x3200000_S1x3200000_0_0) : (⟨S2x3200000, .i32⟩ : BufTy).Contents (Elt F) → (⟨S1x3200000, .i32⟩ : BufTy).Contents (Elt F)),
    StableHlo.reshape main_v0 main_v1 rfl shapeCasts_S1x3200000_S3200000,
    StableHlo.unary main_arg1 main_v2 ((extractStridedSlice S1x3200000 ![1, 0] · slices_S2x3200000_S1x3200000_1_0) : (⟨S2x3200000, .i32⟩ : BufTy).Contents (Elt F) → (⟨S1x3200000, .i32⟩ : BufTy).Contents (Elt F)),
    StableHlo.reshape main_v2 main_v3 rfl shapeCasts_S1x3200000_S3200000,
    StableHlo.nullary main_v4 (iotaInDim S100000 32 0),
    StableHlo.binary main_v1 main_v4 main_v5 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    StableHlo.binary main_v3 main_v4 main_v6 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    StableHlo.nullary main_cst (constant S_ .f32 0x3F800000#32),
    StableHlo.unary main_cst main_v7 (broadcastInDim S100000 ![] bcast_S_S100000 : (⟨S_, .f32⟩ : BufTy).Contents (Elt F) → (⟨S100000, .f32⟩ : BufTy).Contents (Elt F)),
    StableHlo.binary main_arg2 main_v7 main_v8 ((fun a b => concatenate S3300000 0 [⟨S3200000, a⟩, ⟨S100000, b⟩] concatenates_S3200000_S100000_S3300000_d0) : (⟨S3200000, .f32⟩ : BufTy).Contents (Elt F) → (⟨S100000, .f32⟩ : BufTy).Contents (Elt F) → (⟨S3300000, .f32⟩ : BufTy).Contents (Elt F)),
    StableHlo.nullary main_cst_0 (constant S_ .f32 0x00000000#32),
    StableHlo.unary main_cst_0 main_v9 (broadcastInDim S100000 ![] bcast_S_S100000 : (⟨S_, .f32⟩ : BufTy).Contents (Elt F) → (⟨S100000, .f32⟩ : BufTy).Contents (Elt F)),
    StableHlo.unary main_v6 main_v10 (broadcastInDim S3300000x1 ![0] bcast_S3300000_S3300000x1_0 : (⟨S3300000, .i32⟩ : BufTy).Contents (Elt F) → (⟨S3300000x1, .i32⟩ : BufTy).Contents (Elt F)),
    StableHlo.ternary main_v9 main_v10 main_v8 main_v11 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    StableHlo.nullary main_cst_1 (constant S_ .f32 0x00000000#32),
    StableHlo.unary main_cst_1 main_v12 (broadcastInDim S100000 ![] bcast_S_S100000 : (⟨S_, .f32⟩ : BufTy).Contents (Elt F) → (⟨S100000, .f32⟩ : BufTy).Contents (Elt F)),
    StableHlo.binary main_v11 main_v12 main_v13 (cmpf .ogt : (⟨S100000, .f32⟩ : BufTy).Contents (Elt F) → (⟨S100000, .f32⟩ : BufTy).Contents (Elt F) → (⟨S100000, .i1⟩ : BufTy).Contents (Elt F)),
    StableHlo.nullary main_cst_2 (constant S_ .f32 0x00000000#32),
    StableHlo.unary main_cst_2 main_v14 (broadcastInDim S100000 ![] bcast_S_S100000 : (⟨S_, .f32⟩ : BufTy).Contents (Elt F) → (⟨S100000, .f32⟩ : BufTy).Contents (Elt F)),
    StableHlo.binary main_v11 main_v14 main_v15 (cmpf .ogt : (⟨S100000, .f32⟩ : BufTy).Contents (Elt F) → (⟨S100000, .f32⟩ : BufTy).Contents (Elt F) → (⟨S100000, .i1⟩ : BufTy).Contents (Elt F)),
    StableHlo.nullary main_cst_3 (constant S_ .f32 0x3F800000#32),
    StableHlo.TRef.unary (StableHlo.TRef.of (T := ⟨S_, .f32⟩) main_cst_3) main_call0.v0 id,
    StableHlo.TRef.unary main_call0.v0 main_call0.v1 (broadcastInDim S100000 ![] bcast_S_S100000),
    StableHlo.TRef.ternary (StableHlo.TRef.of (T := ⟨S100000, .i1⟩) main_v15) (StableHlo.TRef.of (T := ⟨S100000, .f32⟩) main_v11) main_call0.v1 main_call0.v2 select,
    StableHlo.unary main_v16 main_v17 (Host.rsqrt : (⟨S100000, .f32⟩ : BufTy).Contents (Elt F) → (⟨S100000, .f32⟩ : BufTy).Contents (Elt F)),
    StableHlo.nullary main_cst_4 (constant S_ .f32 0x00000000#32),
    StableHlo.TRef.unary (StableHlo.TRef.of (T := ⟨S_, .f32⟩) main_cst_4) main_call1.v0 id,
    StableHlo.TRef.unary main_call1.v0 main_call1.v1 (broadcastInDim S100000 ![] bcast_S_S100000),
    StableHlo.TRef.ternary (StableHlo.TRef.of (T := ⟨S100000, .i1⟩) main_v13) (StableHlo.TRef.of (T := ⟨S100000, .f32⟩) main_v17) main_call1.v1 main_call1.v2 select,
    StableHlo.nullary main_c (constantI S_ 32 0#32),
    StableHlo.unary main_c main_v19 (broadcastInDim S3300000 ![] bcast_S_S3300000 : (⟨S_, .i32⟩ : BufTy).Contents (Elt F) → (⟨S3300000, .i32⟩ : BufTy).Contents (Elt F)),
    StableHlo.binary main_v5 main_v19 main_v20 (cmpi .slt : (⟨S3300000, .i32⟩ : BufTy).Contents (Elt F) → (⟨S3300000, .i32⟩ : BufTy).Contents (Elt F) → (⟨S3300000, .i1⟩ : BufTy).Contents (Elt F)),
    StableHlo.nullary main_c_5 (constantI S_ 32 100000#32),
    StableHlo.unary main_c_5 main_v21 (broadcastInDim S3300000 ![] bcast_S_S3300000 : (⟨S_, .i32⟩ : BufTy).Contents (Elt F) → (⟨S3300000, .i32⟩ : BufTy).Contents (Elt F)),
    StableHlo.binary main_v5 main_v21 main_v22 (addi : (⟨S3300000, .i32⟩ : BufTy).Contents (Elt F) → (⟨S3300000, .i32⟩ : BufTy).Contents (Elt F) → (⟨S3300000, .i32⟩ : BufTy).Contents (Elt F)),
    StableHlo.ternary main_v20 main_v22 main_v5 main_v23 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    StableHlo.unary main_v23 main_v24 (broadcastInDim S3300000x1 ![0] bcast_S3300000_S3300000x1_0 : (⟨S3300000, .i32⟩ : BufTy).Contents (Elt F) → (⟨S3300000x1, .i32⟩ : BufTy).Contents (Elt F)),
    StableHlo.binary main_v18 main_v24 main_v25 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    StableHlo.binary main_v25 main_v8 main_v26 (mulf : (⟨S3300000, .f32⟩ : BufTy).Contents (Elt F) → (⟨S3300000, .f32⟩ : BufTy).Contents (Elt F) → (⟨S3300000, .f32⟩ : BufTy).Contents (Elt F)),
    StableHlo.nullary main_c_6 (constantI S_ 32 0#32),
    StableHlo.unary main_c_6 main_v27 (broadcastInDim S3300000 ![] bcast_S_S3300000 : (⟨S_, .i32⟩ : BufTy).Contents (Elt F) → (⟨S3300000, .i32⟩ : BufTy).Contents (Elt F)),
    StableHlo.binary main_v6 main_v27 main_v28 (cmpi .slt : (⟨S3300000, .i32⟩ : BufTy).Contents (Elt F) → (⟨S3300000, .i32⟩ : BufTy).Contents (Elt F) → (⟨S3300000, .i1⟩ : BufTy).Contents (Elt F)),
    StableHlo.nullary main_c_7 (constantI S_ 32 100000#32),
    StableHlo.unary main_c_7 main_v29 (broadcastInDim S3300000 ![] bcast_S_S3300000 : (⟨S_, .i32⟩ : BufTy).Contents (Elt F) → (⟨S3300000, .i32⟩ : BufTy).Contents (Elt F)),
    StableHlo.binary main_v6 main_v29 main_v30 (addi : (⟨S3300000, .i32⟩ : BufTy).Contents (Elt F) → (⟨S3300000, .i32⟩ : BufTy).Contents (Elt F) → (⟨S3300000, .i32⟩ : BufTy).Contents (Elt F)),
    StableHlo.ternary main_v28 main_v30 main_v6 main_v31 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    StableHlo.unary main_v31 main_v32 (broadcastInDim S3300000x1 ![0] bcast_S3300000_S3300000x1_0 : (⟨S3300000, .i32⟩ : BufTy).Contents (Elt F) → (⟨S3300000x1, .i32⟩ : BufTy).Contents (Elt F)),
    StableHlo.binary main_v18 main_v32 main_v33 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    StableHlo.binary main_v26 main_v33 main_v34 (mulf : (⟨S3300000, .f32⟩ : BufTy).Contents (Elt F) → (⟨S3300000, .f32⟩ : BufTy).Contents (Elt F) → (⟨S3300000, .f32⟩ : BufTy).Contents (Elt F)) ]

/-- Operations 50 … 78: the first layer (dense, aggregate, bias, leaky rectifier) at width 64. -/
def opsLayer1 : List (HloOp τ sig (Elt F)) :=
  [ StableHlo.unary main_arg3 main_v35 ((transpose S128x64 [1, 0] · transposes_S64x128_S128x64_1_0) : (⟨S64x128, .f32⟩ : BufTy).Contents (Elt F) → (⟨S128x64, .f32⟩ : BufTy).Contents (Elt F)),
    StableHlo.binary main_arg0 main_v35 main_v36 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    StableHlo.unary main_v34 main_v37 (broadcastInDim S3300000x1 ![0] bcast_S3300000_S3300000x1_0 : (⟨S3300000, .f32⟩ : BufTy).Contents (Elt F) → (⟨S3300000x1, .f32⟩ : BufTy).Contents (Elt F)),
    StableHlo.nullary main_c_8 (constantI S_ 32 0#32),
    StableHlo.unary main_c_8 main_v38 (broadcastInDim S3300000 ![] bcast_S_S3300000 : (⟨S_, .i32⟩ : BufTy).Contents (Elt F) → (⟨S3300000, .i32⟩ : BufTy).Contents (Elt F)),
    StableHlo.binary main_v5 main_v38 main_v39 (cmpi .slt : (⟨S3300000, .i32⟩ : BufTy).Contents (Elt F) → (⟨S3300000, .i32⟩ : BufTy).Contents (Elt F) → (⟨S3300000, .i1⟩ : BufTy).Contents (Elt F)),
    StableHlo.nullary main_c_9 (constantI S_ 32 100000#32),
    StableHlo.unary main_c_9 main_v40 (broadcastInDim S3300000 ![] bcast_S_S3300000 : (⟨S_, .i32⟩ : BufTy).Contents (Elt F) → (⟨S3300000, .i32⟩ : BufTy).Contents (Elt F)),
    StableHlo.binary main_v5 main_v40 main_v41 (addi : (⟨S3300000, .i32⟩ : BufTy).Contents (Elt F) → (⟨S3300000, .i32⟩ : BufTy).Contents (Elt F) → (⟨S3300000, .i32⟩ : BufTy).Contents (Elt F)),
    StableHlo.ternary main_v39 main_v41 main_v5 main_v42 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    StableHlo.unary main_v42 main_v43 (broadcastInDim S3300000x1 ![0] bcast_S3300000_S3300000x1_0 : (⟨S3300000, .i32⟩ : BufTy).Contents (Elt F) → (⟨S3300000x1, .i32⟩ : BufTy).Contents (Elt F)),
    StableHlo.binary main_v36 main_v43 main_v44 ((fun x i => Host.gather gather_S100000x64_S3300000x1_S3300000x64_1_0_n_n_0_1_164 x i) : (⟨S100000x64, .f32⟩ : BufTy).Contents (Elt F) → (⟨S3300000x1, .i32⟩ : BufTy).Contents (Elt F) → (⟨S3300000x64, .f32⟩ : BufTy).Contents (Elt F)),
    StableHlo.unary main_v37 main_v45 (broadcastInDim S3300000x64 ![0, 1] bcast_S3300000x1_S3300000x64_0_1 : (⟨S3300000x1, .f32⟩ : BufTy).Contents (Elt F) → (⟨S3300000x64, .f32⟩ : BufTy).Contents (Elt F)),
    StableHlo.binary main_v45 main_v44 main_v46 (mulf : (⟨S3300000x64, .f32⟩ : BufTy).Contents (Elt F) → (⟨S3300000x64, .f32⟩ : BufTy).Contents (Elt F) → (⟨S3300000x64, .f32⟩ : BufTy).Contents (Elt F)),
    StableHlo.nullary main_cst_10 (constant S_ .f32 0x00000000#32),
    StableHlo.unary main_cst_10 main_v47 (broadcastInDim S100000x64 ![] bcast_S_S100000x64 : (⟨S_, .f32⟩ : BufTy).Contents (Elt F) → (⟨S100000x64, .f32⟩ : BufTy).Contents (Elt F)),
    StableHlo.unary main_v6 main_v48 (broadcastInDim S3300000x1 ![0] bcast_S3300000_S3300000x1_0 : (⟨S3300000, .i32⟩ : BufTy).Contents (Elt F) → (⟨S3300000x1, .i32⟩ : BufTy).Contents (Elt F)),
    StableHlo.ternary main_v47 main_v48 main_v46 main_v49 ((fun x i u => Host.scatterAdd scatter_S100000x64_S3300000x1_S3300000x64_1_0_0_1 x i u) : (⟨S100000x64, .f32⟩ : BufTy).Contents (Elt F) → (⟨S3300000x1, .i32⟩ : BufTy).Contents (Elt F) → (⟨S3300000x64, .f32⟩ : BufTy).Contents (Elt F) → (⟨S100000x64, .f32⟩ : BufTy).Contents (Elt F)),
    StableHlo.unary main_arg4 main_v50 (broadcastInDim S1x64 ![1] bcast_S64_S1x64_1 : (⟨S64, .f32⟩ : BufTy).Contents (Elt F) → (⟨S1x64, .f32⟩ : BufTy).Contents (Elt F)),
    StableHlo.unary main_v50 main_v51 (broadcastInDim S100000x64 ![0, 1] bcast_S1x64_S100000x64_0_1 : (⟨S1x64, .f32⟩ : BufTy).Contents (Elt F) → (⟨S100000x64, .f32⟩ : BufTy).Contents (Elt F)),
    StableHlo.binary main_v49 main_v51 main_v52 (addf : (⟨S100000x64, .f32⟩ : BufTy).Contents (Elt F) → (⟨S100000x64, .f32⟩ : BufTy).Contents (Elt F) → (⟨S100000x64, .f32⟩ : BufTy).Contents (Elt F)),
    StableHlo.nullary main_cst_11 (constant S_ .f32 0x3C23D70A#32),
    StableHlo.TRef.nullary main_call2.cst (constant S_ .f32 0x00000000#32),
    StableHlo.TRef.unary main_call2.cst main_call2.v0 (broadcastInDim S100000x64 ![] bcast_S_S100000x64),
    StableHlo.TRef.binary (StableHlo.TRef.of (T := ⟨S100000x64, .f32⟩) main_v52) main_call2.v0 main_call2.v1 (cmpf .oge),
    StableHlo.TRef.unary (StableHlo.TRef.of (T := ⟨S_, .f32⟩) main_cst_11) main_call2.v2 id,
    StableHlo.TRef.unary main_call2.v2 main_call2.v3 (broadcastInDim S100000x64 ![] bcast_S_S100000x64),
    StableHlo.TRef.binary main_call2.v3 (StableHlo.TRef.of (T := ⟨S100000x64, .f32⟩) main_v52) main_call2.v4 mulf,
    StableHlo.TRef.ternary main_call2.v1 (StableHlo.TRef.of (T := ⟨S100000x64, .f32⟩) main_v52) main_call2.v4 main_call2.call0.v0 select ]

/-- Operations 79 … 107: the second layer at width 32. -/
def opsLayer2 : List (HloOp τ sig (Elt F)) :=
  [ StableHlo.unary main_arg5 main_v54 ((transpose S64x32 [1, 0] · transposes_S32x64_S64x32_1_0) : (⟨S32x64, .f32⟩ : BufTy).Contents (Elt F) → (⟨S64x32, .f32⟩ : BufTy).Contents (Elt F)),
    StableHlo.binary main_v53 main_v54 main_v55 ((fun l r => Host.dotGeneral dot_S100000x64_S64x32_S100000x32_1_0_0_1_n_n none l r) : (⟨S100000x64, .f32⟩ : BufTy).Contents (Elt F) → (⟨S64x32, .f32⟩ : BufTy).Contents (Elt F) → (⟨S100000x32, .f32⟩ : BufTy).Contents (Elt F)),
    StableHlo.unary main_v34 main_v56 (broadcastInDim S3300000x1 ![0] bcast_S3300000_S3300000x1_0 : (⟨S3300000, .f32⟩ : BufTy).Contents (Elt F) → (⟨S3300000x1, .f32⟩ : BufTy).Contents (Elt F)),
    StableHlo.nullary main_c_12 (constantI S_ 32 0#32),
    StableHlo.unary main_c_12 main_v57 (broadcastInDim S3300000 ![] bcast_S_S3300000 : (⟨S_, .i32⟩ : BufTy).Contents (Elt F) → (⟨S3300000, .i32⟩ : BufTy).Contents (Elt F)),
    StableHlo.binary main_v5 main_v57 main_v58 (cmpi .slt : (⟨S3300000, .i32⟩ : BufTy).Contents (Elt F) → (⟨S3300000, .i32⟩ : BufTy).Contents (Elt F) → (⟨S3300000, .i1⟩ : BufTy).Contents (Elt F)),
    StableHlo.nullary main_c_13 (constantI S_ 32 100000#32),
    StableHlo.unary main_c_13 main_v59 (broadcastInDim S3300000 ![] bcast_S_S3300000 : (⟨S_, .i32⟩ : BufTy).Contents (Elt F) → (⟨S3300000, .i32⟩ : BufTy).Contents (Elt F)),
    StableHlo.binary main_v5 main_v59 main_v60 (addi : (⟨S3300000, .i32⟩ : BufTy).Contents (Elt F) → (⟨S3300000, .i32⟩ : BufTy).Contents (Elt F) → (⟨S3300000, .i32⟩ : BufTy).Contents (Elt F)),
    StableHlo.ternary main_v58 main_v60 main_v5 main_v61 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    StableHlo.unary main_v61 main_v62 (broadcastInDim S3300000x1 ![0] bcast_S3300000_S3300000x1_0 : (⟨S3300000, .i32⟩ : BufTy).Contents (Elt F) → (⟨S3300000x1, .i32⟩ : BufTy).Contents (Elt F)),
    StableHlo.binary main_v55 main_v62 main_v63 ((fun x i => Host.gather gather_S100000x32_S3300000x1_S3300000x32_1_0_n_n_0_1_132 x i) : (⟨S100000x32, .f32⟩ : BufTy).Contents (Elt F) → (⟨S3300000x1, .i32⟩ : BufTy).Contents (Elt F) → (⟨S3300000x32, .f32⟩ : BufTy).Contents (Elt F)),
    StableHlo.unary main_v56 main_v64 (broadcastInDim S3300000x32 ![0, 1] bcast_S3300000x1_S3300000x32_0_1 : (⟨S3300000x1, .f32⟩ : BufTy).Contents (Elt F) → (⟨S3300000x32, .f32⟩ : BufTy).Contents (Elt F)),
    StableHlo.binary main_v64 main_v63 main_v65 (mulf : (⟨S3300000x32, .f32⟩ : BufTy).Contents (Elt F) → (⟨S3300000x32, .f32⟩ : BufTy).Contents (Elt F) → (⟨S3300000x32, .f32⟩ : BufTy).Contents (Elt F)),
    StableHlo.nullary main_cst_14 (constant S_ .f32 0x00000000#32),
    StableHlo.unary main_cst_14 main_v66 (broadcastInDim S100000x32 ![] bcast_S_S100000x32 : (⟨S_, .f32⟩ : BufTy).Contents (Elt F) → (⟨S100000x32, .f32⟩ : BufTy).Contents (Elt F)),
    StableHlo.unary main_v6 main_v67 (broadcastInDim S3300000x1 ![0] bcast_S3300000_S3300000x1_0 : (⟨S3300000, .i32⟩ : BufTy).Contents (Elt F) → (⟨S3300000x1, .i32⟩ : BufTy).Contents (Elt F)),
    StableHlo.ternary main_v66 main_v67 main_v65 main_v68 ((fun x i u => Host.scatterAdd scatter_S100000x32_S3300000x1_S3300000x32_1_0_0_1 x i u) : (⟨S100000x32, .f32⟩ : BufTy).Contents (Elt F) → (⟨S3300000x1, .i32⟩ : BufTy).Contents (Elt F) → (⟨S3300000x32, .f32⟩ : BufTy).Contents (Elt F) → (⟨S100000x32, .f32⟩ : BufTy).Contents (Elt F)),
    StableHlo.unary main_arg6 main_v69 (broadcastInDim S1x32 ![1] bcast_S32_S1x32_1 : (⟨S32, .f32⟩ : BufTy).Contents (Elt F) → (⟨S1x32, .f32⟩ : BufTy).Contents (Elt F)),
    StableHlo.unary main_v69 main_v70 (broadcastInDim S100000x32 ![0, 1] bcast_S1x32_S100000x32_0_1 : (⟨S1x32, .f32⟩ : BufTy).Contents (Elt F) → (⟨S100000x32, .f32⟩ : BufTy).Contents (Elt F)),
    StableHlo.binary main_v68 main_v70 main_v71 (addf : (⟨S100000x32, .f32⟩ : BufTy).Contents (Elt F) → (⟨S100000x32, .f32⟩ : BufTy).Contents (Elt F) → (⟨S100000x32, .f32⟩ : BufTy).Contents (Elt F)),
    StableHlo.nullary main_cst_15 (constant S_ .f32 0x3C23D70A#32),
    StableHlo.TRef.nullary main_call3.cst (constant S_ .f32 0x00000000#32),
    StableHlo.TRef.unary main_call3.cst main_call3.v0 (broadcastInDim S100000x32 ![] bcast_S_S100000x32),
    StableHlo.TRef.binary (StableHlo.TRef.of (T := ⟨S100000x32, .f32⟩) main_v71) main_call3.v0 main_call3.v1 (cmpf .oge),
    StableHlo.TRef.unary (StableHlo.TRef.of (T := ⟨S_, .f32⟩) main_cst_15) main_call3.v2 id,
    StableHlo.TRef.unary main_call3.v2 main_call3.v3 (broadcastInDim S100000x32 ![] bcast_S_S100000x32),
    StableHlo.TRef.binary main_call3.v3 (StableHlo.TRef.of (T := ⟨S100000x32, .f32⟩) main_v71) main_call3.v4 mulf,
    StableHlo.TRef.ternary main_call3.v1 (StableHlo.TRef.of (T := ⟨S100000x32, .f32⟩) main_v71) main_call3.v4 main_call3.call0.v0 select ]

/-- Operations 108 … 142: the third layer at width 4, ending in the row softmax. -/
def opsLayer3 : List (HloOp τ sig (Elt F)) :=
  [ StableHlo.unary main_arg7 main_v73 ((transpose S32x4 [1, 0] · transposes_S4x32_S32x4_1_0) : (⟨S4x32, .f32⟩ : BufTy).Contents (Elt F) → (⟨S32x4, .f32⟩ : BufTy).Contents (Elt F)),
    StableHlo.binary main_v72 main_v73 main_v74 ((fun l r => Host.dotGeneral dot_S100000x32_S32x4_S100000x4_1_0_0_1_n_n none l r) : (⟨S100000x32, .f32⟩ : BufTy).Contents (Elt F) → (⟨S32x4, .f32⟩ : BufTy).Contents (Elt F) → (⟨S100000x4, .f32⟩ : BufTy).Contents (Elt F)),
    StableHlo.unary main_v34 main_v75 (broadcastInDim S3300000x1 ![0] bcast_S3300000_S3300000x1_0 : (⟨S3300000, .f32⟩ : BufTy).Contents (Elt F) → (⟨S3300000x1, .f32⟩ : BufTy).Contents (Elt F)),
    StableHlo.nullary main_c_16 (constantI S_ 32 0#32),
    StableHlo.unary main_c_16 main_v76 (broadcastInDim S3300000 ![] bcast_S_S3300000 : (⟨S_, .i32⟩ : BufTy).Contents (Elt F) → (⟨S3300000, .i32⟩ : BufTy).Contents (Elt F)),
    StableHlo.binary main_v5 main_v76 main_v77 (cmpi .slt : (⟨S3300000, .i32⟩ : BufTy).Contents (Elt F) → (⟨S3300000, .i32⟩ : BufTy).Contents (Elt F) → (⟨S3300000, .i1⟩ : BufTy).Contents (Elt F)),
    StableHlo.nullary main_c_17 (constantI S_ 32 100000#32),
    StableHlo.unary main_c_17 main_v78 (broadcastInDim S3300000 ![] bcast_S_S3300000 : (⟨S_, .i32⟩ : BufTy).Contents (Elt F) → (⟨S3300000, .i32⟩ : BufTy).Contents (Elt F)),
    StableHlo.binary main_v5 main_v78 main_v79 (addi : (⟨S3300000, .i32⟩ : BufTy).Contents (Elt F) → (⟨S3300000, .i32⟩ : BufTy).Contents (Elt F) → (⟨S3300000, .i32⟩ : BufTy).Contents (Elt F)),
    StableHlo.ternary main_v77 main_v79 main_v5 main_v80 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    StableHlo.unary main_v80 main_v81 (broadcastInDim S3300000x1 ![0] bcast_S3300000_S3300000x1_0 : (⟨S3300000, .i32⟩ : BufTy).Contents (Elt F) → (⟨S3300000x1, .i32⟩ : BufTy).Contents (Elt F)),
    StableHlo.binary main_v74 main_v81 main_v82 ((fun x i => Host.gather gather_S100000x4_S3300000x1_S3300000x4_1_0_n_n_0_1_14 x i) : (⟨S100000x4, .f32⟩ : BufTy).Contents (Elt F) → (⟨S3300000x1, .i32⟩ : BufTy).Contents (Elt F) → (⟨S3300000x4, .f32⟩ : BufTy).Contents (Elt F)),
    StableHlo.unary main_v75 main_v83 (broadcastInDim S3300000x4 ![0, 1] bcast_S3300000x1_S3300000x4_0_1 : (⟨S3300000x1, .f32⟩ : BufTy).Contents (Elt F) → (⟨S3300000x4, .f32⟩ : BufTy).Contents (Elt F)),
    StableHlo.binary main_v83 main_v82 main_v84 (mulf : (⟨S3300000x4, .f32⟩ : BufTy).Contents (Elt F) → (⟨S3300000x4, .f32⟩ : BufTy).Contents (Elt F) → (⟨S3300000x4, .f32⟩ : BufTy).Contents (Elt F)),
    StableHlo.nullary main_cst_18 (constant S_ .f32 0x00000000#32),
    StableHlo.unary main_cst_18 main_v85 (broadcastInDim S100000x4 ![] bcast_S_S100000x4 : (⟨S_, .f32⟩ : BufTy).Contents (Elt F) → (⟨S100000x4, .f32⟩ : BufTy).Contents (Elt F)),
    StableHlo.unary main_v6 main_v86 (broadcastInDim S3300000x1 ![0] bcast_S3300000_S3300000x1_0 : (⟨S3300000, .i32⟩ : BufTy).Contents (Elt F) → (⟨S3300000x1, .i32⟩ : BufTy).Contents (Elt F)),
    StableHlo.ternary main_v85 main_v86 main_v84 main_v87 ((fun x i u => Host.scatterAdd scatter_S100000x4_S3300000x1_S3300000x4_1_0_0_1 x i u) : (⟨S100000x4, .f32⟩ : BufTy).Contents (Elt F) → (⟨S3300000x1, .i32⟩ : BufTy).Contents (Elt F) → (⟨S3300000x4, .f32⟩ : BufTy).Contents (Elt F) → (⟨S100000x4, .f32⟩ : BufTy).Contents (Elt F)),
    StableHlo.unary main_arg8 main_v88 (broadcastInDim S1x4 ![1] bcast_S4_S1x4_1 : (⟨S4, .f32⟩ : BufTy).Contents (Elt F) → (⟨S1x4, .f32⟩ : BufTy).Contents (Elt F)),
    StableHlo.unary main_v88 main_v89 (broadcastInDim S100000x4 ![0, 1] bcast_S1x4_S100000x4_0_1 : (⟨S1x4, .f32⟩ : BufTy).Contents (Elt F) → (⟨S100000x4, .f32⟩ : BufTy).Contents (Elt F)),
    StableHlo.binary main_v87 main_v89 main_v90 (addf : (⟨S100000x4, .f32⟩ : BufTy).Contents (Elt F) → (⟨S100000x4, .f32⟩ : BufTy).Contents (Elt F) → (⟨S100000x4, .f32⟩ : BufTy).Contents (Elt F)),
    StableHlo.nullary main_cst_19 (constant S_ .f32 0xFF800000#32),
    StableHlo.binary main_v90 main_cst_19 main_v91 ((fun x v => Host.reduce FloatOps.maximumf x v reducesTo_S100000x4_S100000_d1 h_S_) : (⟨S100000x4, .f32⟩ : BufTy).Contents (Elt F) → (⟨S_, .f32⟩ : BufTy).Contents (Elt F) → (⟨S100000, .f32⟩ : BufTy).Contents (Elt F)),
    StableHlo.nullary main_cst_20 (constant S_ .f32 0xFF800000#32),
    StableHlo.unary main_cst_20 main_v92 (broadcastInDim S100000 ![] bcast_S_S100000 : (⟨S_, .f32⟩ : BufTy).Contents (Elt F) → (⟨S100000, .f32⟩ : BufTy).Contents (Elt F)),
    StableHlo.binary main_v92 main_v91 main_v93 (maximumf : (⟨S100000, .f32⟩ : BufTy).Contents (Elt F) → (⟨S100000, .f32⟩ : BufTy).Contents (Elt F) → (⟨S100000, .f32⟩ : BufTy).Contents (Elt F)),
    StableHlo.unary main_v93 main_v94 (broadcastInDim S100000x1 ![0] bcast_S100000_S100000x1_0 : (⟨S100000, .f32⟩ : BufTy).Contents (Elt F) → (⟨S100000x1, .f32⟩ : BufTy).Contents (Elt F)),
    StableHlo.unary main_v94 main_v95 (broadcastInDim S100000x4 ![0, 1] bcast_S100000x1_S100000x4_0_1 : (⟨S100000x1, .f32⟩ : BufTy).Contents (Elt F) → (⟨S100000x4, .f32⟩ : BufTy).Contents (Elt F)),
    StableHlo.binary main_v90 main_v95 main_v96 (subf : (⟨S100000x4, .f32⟩ : BufTy).Contents (Elt F) → (⟨S100000x4, .f32⟩ : BufTy).Contents (Elt F) → (⟨S100000x4, .f32⟩ : BufTy).Contents (Elt F)),
    StableHlo.unary main_v96 main_v97 (Host.exp : (⟨S100000x4, .f32⟩ : BufTy).Contents (Elt F) → (⟨S100000x4, .f32⟩ : BufTy).Contents (Elt F)),
    StableHlo.nullary main_cst_21 (constant S_ .f32 0x00000000#32),
    StableHlo.binary main_v97 main_cst_21 main_v98 ((fun x v => Host.reduceAdd x v reducesTo_S100000x4_S100000_d1 h_S_) : (⟨S100000x4, .f32⟩ : BufTy).Contents (Elt F) → (⟨S_, .f32⟩ : BufTy).Contents (Elt F) → (⟨S100000, .f32⟩ : BufTy).Contents (Elt F)),
    StableHlo.unary main_v98 main_v99 (broadcastInDim S100000x1 ![0] bcast_S100000_S100000x1_0 : (⟨S100000, .f32⟩ : BufTy).Contents (Elt F) → (⟨S100000x1, .f32⟩ : BufTy).Contents (Elt F)),
    StableHlo.unary main_v99 main_v100 (broadcastInDim S100000x4 ![0, 1] bcast_S100000x1_S100000x4_0_1 : (⟨S100000x1, .f32⟩ : BufTy).Contents (Elt F) → (⟨S100000x4, .f32⟩ : BufTy).Contents (Elt F)),
    StableHlo.binary main_v97 main_v100 main_v101 (Host.divf : (⟨S100000x4, .f32⟩ : BufTy).Contents (Elt F) → (⟨S100000x4, .f32⟩ : BufTy).Contents (Elt F) → (⟨S100000x4, .f32⟩ : BufTy).Contents (Elt F)) ]

/-- The whole line is the four stretches in order. -/
theorem ops_eq : (ops : List (HloOp τ sig (Elt F))) = opsGraph ++ (opsLayer1 ++ (opsLayer2 ++ opsLayer3)) := rfl

set_option maxHeartbeats 4000000 in
/-- The program is that line: its three parts and the functions it calls unfold to one chain of steps. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

set_option maxHeartbeats 4000000 in
/-- Every operation touches TensorCore references only. -/
theorem ops_sub : (ops : List (HloOp τ sig (Elt F))).Forall fun op => op.bufs ⊆ tcRefs τ sig :=
  ⟨unary_bufs_sub .., reshape_bufs_sub .., unary_bufs_sub .., reshape_bufs_sub .., nullary_bufs_sub .., binary_bufs_sub ..,
    binary_bufs_sub .., nullary_bufs_sub .., unary_bufs_sub .., binary_bufs_sub .., nullary_bufs_sub .., unary_bufs_sub ..,
    unary_bufs_sub .., ternary_bufs_sub .., nullary_bufs_sub .., unary_bufs_sub .., binary_bufs_sub .., nullary_bufs_sub ..,
    unary_bufs_sub .., binary_bufs_sub .., nullary_bufs_sub .., unary_bufs_sub .., unary_bufs_sub .., ternary_bufs_sub ..,
    unary_bufs_sub .., nullary_bufs_sub .., unary_bufs_sub .., unary_bufs_sub .., ternary_bufs_sub .., nullary_bufs_sub ..,
    unary_bufs_sub .., binary_bufs_sub .., nullary_bufs_sub .., unary_bufs_sub .., binary_bufs_sub .., ternary_bufs_sub ..,
    unary_bufs_sub .., binary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    binary_bufs_sub .., unary_bufs_sub .., binary_bufs_sub .., unary_bufs_sub .., nullary_bufs_sub .., unary_bufs_sub ..,
    binary_bufs_sub .., nullary_bufs_sub .., unary_bufs_sub .., binary_bufs_sub .., ternary_bufs_sub .., unary_bufs_sub ..,
    binary_bufs_sub .., unary_bufs_sub .., binary_bufs_sub .., nullary_bufs_sub .., unary_bufs_sub .., unary_bufs_sub ..,
    ternary_bufs_sub .., unary_bufs_sub .., unary_bufs_sub .., binary_bufs_sub .., nullary_bufs_sub .., nullary_bufs_sub ..,
    unary_bufs_sub .., binary_bufs_sub .., unary_bufs_sub .., unary_bufs_sub .., binary_bufs_sub .., ternary_bufs_sub ..,
    unary_bufs_sub .., binary_bufs_sub .., unary_bufs_sub .., nullary_bufs_sub .., unary_bufs_sub .., binary_bufs_sub ..,
    nullary_bufs_sub .., unary_bufs_sub .., binary_bufs_sub .., ternary_bufs_sub .., unary_bufs_sub .., binary_bufs_sub ..,
    unary_bufs_sub .., binary_bufs_sub .., nullary_bufs_sub .., unary_bufs_sub .., unary_bufs_sub .., ternary_bufs_sub ..,
    unary_bufs_sub .., unary_bufs_sub .., binary_bufs_sub .., nullary_bufs_sub .., nullary_bufs_sub .., unary_bufs_sub ..,
    binary_bufs_sub .., unary_bufs_sub .., unary_bufs_sub .., binary_bufs_sub .., ternary_bufs_sub .., unary_bufs_sub ..,
    binary_bufs_sub .., unary_bufs_sub .., nullary_bufs_sub .., unary_bufs_sub .., binary_bufs_sub .., nullary_bufs_sub ..,
    unary_bufs_sub .., binary_bufs_sub .., ternary_bufs_sub .., unary_bufs_sub .., binary_bufs_sub .., unary_bufs_sub ..,
    binary_bufs_sub .., nullary_bufs_sub .., unary_bufs_sub .., unary_bufs_sub .., ternary_bufs_sub .., unary_bufs_sub ..,
    unary_bufs_sub .., binary_bufs_sub .., nullary_bufs_sub .., binary_bufs_sub .., nullary_bufs_sub .., unary_bufs_sub ..,
    binary_bufs_sub .., unary_bufs_sub .., unary_bufs_sub .., binary_bufs_sub .., unary_bufs_sub .., nullary_bufs_sub ..,
    binary_bufs_sub .., unary_bufs_sub .., unary_bufs_sub .., binary_bufs_sub ..⟩

/-! ## The four stretches, each from any contents -/

set_option maxHeartbeats 4000000 in
/-- After the first stretch the source vector is `Graph.src` of the edge table. -/
theorem graph_src (V : Valuation τ sig (Elt F)) :
    after opsGraph V (Proc.devRef .tc main_v5) = Graph.src (V (Proc.devRef .tc main_arg1)) := by
  unfold opsGraph; after_results_simp <;> rfl

set_option maxHeartbeats 4000000 in
/-- After the first stretch the destination vector is `Graph.dst` of the edge table. -/
theorem graph_dst (V : Valuation τ sig (Elt F)) :
    after opsGraph V (Proc.devRef .tc main_v6) = Graph.dst (V (Proc.devRef .tc main_arg1)) := by
  unfold opsGraph; after_results_simp <;> rfl

set_option maxHeartbeats 4000000 in
/-- After the first stretch the normalised weights are `Graph.nrm` of the edge table and the edge weights. -/
theorem graph_nrm (V : Valuation τ sig (Elt F)) :
    after opsGraph V (Proc.devRef .tc main_v34) = Graph.nrm (V (Proc.devRef .tc main_arg1)) (V (Proc.devRef .tc main_arg2)) := by
  unfold opsGraph; after_results_simp <;> rfl

set_option maxHeartbeats 4000000 in
/-- The first stretch writes no argument. -/
theorem graph_keeps : ∀ b ∈ ([main_arg0, main_arg1, main_arg2, main_arg3, main_arg4, main_arg5, main_arg6, main_arg7, main_arg8] : List (Ref sig .tc)), ∀ V : Valuation τ sig (Elt F),
    after opsGraph V (Proc.devRef .tc b) = V (Proc.devRef .tc b) := by
  intro b hb V
  simp only [List.mem_cons, List.not_mem_nil, or_false] at hb
  rcases hb with rfl | rfl | rfl | rfl | rfl | rfl | rfl | rfl | rfl <;> (unfold opsGraph; after_results_simp)

set_option maxHeartbeats 4000000 in
/-- The first layer's result, from any contents. -/
theorem layer1_res (V : Valuation τ sig (Elt F)) :
    after opsLayer1 V (Proc.devRef .tc main_v53)
      = Stages.act64 (Graph.agg64 (V (Proc.devRef .tc main_v5)) (V (Proc.devRef .tc main_v6)) (V (Proc.devRef .tc main_v34))
          (Stages.dense1 (V (Proc.devRef .tc main_arg0)) (V (Proc.devRef .tc main_arg3)))) (V (Proc.devRef .tc main_arg4)) := by
  unfold opsLayer1; after_results_simp <;> rfl

set_option maxHeartbeats 4000000 in
/-- The first layer writes neither a graph vector nor an argument. -/
theorem layer1_keeps : ∀ b ∈ ([main_v5, main_v6, main_v34, main_arg0, main_arg1, main_arg2, main_arg3, main_arg4, main_arg5, main_arg6, main_arg7, main_arg8] : List (Ref sig .tc)), ∀ V : Valuation τ sig (Elt F),
    after opsLayer1 V (Proc.devRef .tc b) = V (Proc.devRef .tc b) := by
  intro b hb V
  simp only [List.mem_cons, List.not_mem_nil, or_false] at hb
  rcases hb with rfl | rfl | rfl | rfl | rfl | rfl | rfl | rfl | rfl | rfl | rfl | rfl <;> (unfold opsLayer1; after_results_simp)

set_option maxHeartbeats 4000000 in
/-- The second layer's result, from any contents. -/
theorem layer2_res (V : Valuation τ sig (Elt F)) :
    after opsLayer2 V (Proc.devRef .tc main_v72)
      = Stages.act32 (Graph.agg32 (V (Proc.devRef .tc main_v5)) (V (Proc.devRef .tc main_v6)) (V (Proc.devRef .tc main_v34))
          (Stages.dense2 (V (Proc.devRef .tc main_v53)) (V (Proc.devRef .tc main_arg5)))) (V (Proc.devRef .tc main_arg6)) := by
  unfold opsLayer2; after_results_simp <;> rfl

set_option maxHeartbeats 4000000 in
/-- The second layer writes neither a graph vector nor an argument. -/
theorem layer2_keeps : ∀ b ∈ ([main_v5, main_v6, main_v34, main_arg0, main_arg1, main_arg2, main_arg3, main_arg4, main_arg5, main_arg6, main_arg7, main_arg8] : List (Ref sig .tc)), ∀ V : Valuation τ sig (Elt F),
    after opsLayer2 V (Proc.devRef .tc b) = V (Proc.devRef .tc b) := by
  intro b hb V
  simp only [List.mem_cons, List.not_mem_nil, or_false] at hb
  rcases hb with rfl | rfl | rfl | rfl | rfl | rfl | rfl | rfl | rfl | rfl | rfl | rfl <;> (unfold opsLayer2; after_results_simp)

set_option maxHeartbeats 4000000 in
/-- The third layer's result, from any contents. -/
theorem layer3_res (V : Valuation τ sig (Elt F)) :
    after opsLayer3 V (Proc.devRef .tc main_v101)
      = Stages.soft (Graph.agg4 (V (Proc.devRef .tc main_v5)) (V (Proc.devRef .tc main_v6)) (V (Proc.devRef .tc main_v34))
          (Stages.dense3 (V (Proc.devRef .tc main_v72)) (V (Proc.devRef .tc main_arg7)))) (V (Proc.devRef .tc main_arg8)) := by
  unfold opsLayer3; after_results_simp <;> rfl

set_option maxHeartbeats 4000000 in
/-- The third layer writes no argument. -/
theorem layer3_keeps : ∀ b ∈ ([main_arg0, main_arg1, main_arg2, main_arg3, main_arg4, main_arg5, main_arg6, main_arg7, main_arg8] : List (Ref sig .tc)), ∀ V : Valuation τ sig (Elt F),
    after opsLayer3 V (Proc.devRef .tc b) = V (Proc.devRef .tc b) := by
  intro b hb V
  simp only [List.mem_cons, List.not_mem_nil, or_false] at hb
  rcases hb with rfl | rfl | rfl | rfl | rfl | rfl | rfl | rfl | rfl <;> (unfold opsLayer3; after_results_simp)

/-! ## The whole line -/

/-- The result buffer after the whole line is the network of the nine arguments. -/
theorem net_eq (V : Valuation τ sig (Elt F)) :
    after ops V (Proc.devRef .tc main_v101)
      = Graph.net (V (Proc.devRef .tc main_arg0)) (V (Proc.devRef .tc main_arg1)) (V (Proc.devRef .tc main_arg2)) (V (Proc.devRef .tc main_arg3))
          (V (Proc.devRef .tc main_arg4)) (V (Proc.devRef .tc main_arg5)) (V (Proc.devRef .tc main_arg6)) (V (Proc.devRef .tc main_arg7))
          (V (Proc.devRef .tc main_arg8)) := by
  rw [ops_eq, after_append, after_append, after_append, layer3_res]
  simp only [layer2_keeps main_v5 (by decide), layer2_keeps main_v6 (by decide), layer2_keeps main_v34 (by decide), layer2_keeps main_arg7 (by decide), layer2_keeps main_arg8 (by decide)]
  rw [layer2_res]
  simp only [layer1_keeps main_v5 (by decide), layer1_keeps main_v6 (by decide), layer1_keeps main_v34 (by decide), layer1_keeps main_arg5 (by decide), layer1_keeps main_arg6 (by decide), layer1_keeps main_arg7 (by decide), layer1_keeps main_arg8 (by decide)]
  rw [layer1_res]
  simp only [graph_keeps main_arg0 (by decide), graph_keeps main_arg3 (by decide), graph_keeps main_arg4 (by decide), graph_keeps main_arg5 (by decide), graph_keeps main_arg6 (by decide), graph_keeps main_arg7 (by decide), graph_keeps main_arg8 (by decide)]
  rw [graph_src, graph_dst, graph_nrm]
  rfl

/-- No operation of the line writes an argument. -/
theorem args_kept : ∀ b ∈ ([main_arg0, main_arg1, main_arg2, main_arg3, main_arg4, main_arg5, main_arg6, main_arg7, main_arg8] : List (Ref sig .tc)), ∀ V : Valuation τ sig (Elt F),
    after ops V (Proc.devRef .tc b) = V (Proc.devRef .tc b) := by
  intro b hb V
  rw [ops_eq, after_append, after_append, after_append, layer3_keeps b hb, layer2_keeps b (List.mem_cons_of_mem _ (List.mem_cons_of_mem _ (List.mem_cons_of_mem _ hb))),
    layer1_keeps b (List.mem_cons_of_mem _ (List.mem_cons_of_mem _ (List.mem_cons_of_mem _ hb))), graph_keeps b hb]

set_option maxHeartbeats 4000000 in
/-- On every device, for any float values, from any memory with zero counters: every weakly fair execution of the
    program terminates with the result buffer at `Graph.net` of the nine arguments' launch contents and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v101)
        = Graph.net (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg7))
            (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c main_v101).trans (net_eq (launchContents m c)),
      (h c main_arg0).trans (args_kept main_arg0 (by decide) (launchContents m c)),
      (h c main_arg1).trans (args_kept main_arg1 (by decide) (launchContents m c)),
      (h c main_arg2).trans (args_kept main_arg2 (by decide) (launchContents m c)),
      (h c main_arg3).trans (args_kept main_arg3 (by decide) (launchContents m c)),
      (h c main_arg4).trans (args_kept main_arg4 (by decide) (launchContents m c)),
      (h c main_arg5).trans (args_kept main_arg5 (by decide) (launchContents m c)),
      (h c main_arg6).trans (args_kept main_arg6 (by decide) (launchContents m c)),
      (h c main_arg7).trans (args_kept main_arg7 (by decide) (launchContents m c)),
      (h c main_arg8).trans (args_kept main_arg8 (by decide) (launchContents m c))⟩)
    (run_seq scopedRefs_eq scopedSems_eq defs main (fun _ => ops) main_eq (fun _ => ops_sub) m ρ)

end Cert.ReferenceIdeal.RefRun

end
-- ==== Proof.Join.lean ====
/-
  The idealized kernel's result is the reference network of the arguments.

  Before the first region both programs apply the same host operations to the edge table and the edge weights, so
  the kernel's index vectors and normalised weights at that point are the reference's `src`, `dst` and `nrm` of the
  arguments; and the kernel's three aggregation stretches apply the reference's aggregation, operation for operation.
  With the dense and activation steps already stated as the reference's own (`KernelFold`), the kernel's result is
  the reference network `net` of the nine arguments.
-/
import proofs.«161395_j41188736369372_1_alg».proof.Proof.KernelFold
import proofs.«161395_j41188736369372_1_alg».proof.Proof.RefGraph

set_option maxRecDepth 16384

noncomputable section

namespace Cert.Join

open Cert.KernelIdeal Cert.KernelIdeal.Gen Cert.KernelIdeal.Fold Idealize.ShloMosaic Idealize.ShloMosaic.TcCoe
open Idealize.SL Idealize.SL.Sem Idealize.ShloMosaic.StableHlo

variable (m : (ℓ : Loc nD τ sig) → Buf (Elt Ideal) ℓ) (ρ : Dev nD → PrngReg) (c : Dev nD)

/-! ## The two programs' dimension records of the gathers and scatters are the same records -/

theorem rec_gather : (gather_S100000_S3300000x1_S3300000_n_0_n_n_0_1_1 : GatherDims S100000 S3300000x1 S3300000)
    = Cert.ReferenceIdeal.gather_S100000_S3300000x1_S3300000_n_0_n_n_0_1_1 := rfl
theorem rec_gather64 : (gather_S100000x64_S3300000x1_S3300000x64_1_0_n_n_0_1_164 : GatherDims S100000x64 S3300000x1 S3300000x64)
    = Cert.ReferenceIdeal.gather_S100000x64_S3300000x1_S3300000x64_1_0_n_n_0_1_164 := rfl
theorem rec_scatter64 : (scatter_S100000x64_S3300000x1_S3300000x64_1_0_0_1 : ScatterDims S100000x64 S3300000x1 S3300000x64)
    = Cert.ReferenceIdeal.scatter_S100000x64_S3300000x1_S3300000x64_1_0_0_1 := rfl
theorem rec_gather32 : (gather_S100000x32_S3300000x1_S3300000x32_1_0_n_n_0_1_132 : GatherDims S100000x32 S3300000x1 S3300000x32)
    = Cert.ReferenceIdeal.gather_S100000x32_S3300000x1_S3300000x32_1_0_n_n_0_1_132 := rfl
theorem rec_scatter32 : (scatter_S100000x32_S3300000x1_S3300000x32_1_0_0_1 : ScatterDims S100000x32 S3300000x1 S3300000x32)
    = Cert.ReferenceIdeal.scatter_S100000x32_S3300000x1_S3300000x32_1_0_0_1 := rfl
theorem rec_gather4 : (gather_S100000x4_S3300000x1_S3300000x4_1_0_n_n_0_1_14 : GatherDims S100000x4 S3300000x1 S3300000x4)
    = Cert.ReferenceIdeal.gather_S100000x4_S3300000x1_S3300000x4_1_0_n_n_0_1_14 := rfl
theorem rec_scatter4 : (scatter_S100000x4_S3300000x1_S3300000x4_1_0_0_1 : ScatterDims S100000x4 S3300000x1 S3300000x4)
    = Cert.ReferenceIdeal.scatter_S100000x4_S3300000x1_S3300000x4_1_0_0_1 := rfl

/-- An index vector made ready for a gather, spelled out, is the reference's `wrapped`. -/
theorem wr (s : IVec S3300000 32) : (broadcastInDim S3300000x1 ![0] bcast_S3300000_S3300000x1_0
      (select (cmpi .slt s (broadcastInDim S3300000 ![] bcast_S_S3300000 (constantI S_ 32 0#32)))
        (addi s (broadcastInDim S3300000 ![] bcast_S_S3300000 (constantI S_ 32 100000#32))) s)) = Cert.ReferenceIdeal.Graph.wrapped s := rfl

/-- The kernel's aggregation stretch at width 64 is the reference's aggregation. -/
theorem agg64_eq (s d : IVec S3300000 32) (n : FVec Ideal S3300000 .f32) (h : FVec Ideal S100000x64 .f32) :
    agg64 (F := Ideal) s d n h = Cert.ReferenceIdeal.Graph.agg64 (F := Ideal) s d n h := by
  unfold agg64 Cert.ReferenceIdeal.Graph.agg64
  rw [rec_scatter64, rec_gather64, wr]

/-- The kernel's aggregation stretch at width 32 is the reference's aggregation. -/
theorem agg32_eq (s d : IVec S3300000 32) (n : FVec Ideal S3300000 .f32) (h : FVec Ideal S100000x32 .f32) :
    agg32 (F := Ideal) s d n h = Cert.ReferenceIdeal.Graph.agg32 (F := Ideal) s d n h := by
  unfold agg32 Cert.ReferenceIdeal.Graph.agg32
  rw [rec_scatter32, rec_gather32, wr]

/-- The kernel's aggregation stretch at width 4 is the reference's aggregation. -/
theorem agg4_eq (s d : IVec S3300000 32) (n : FVec Ideal S3300000 .f32) (h : FVec Ideal S100000x4 .f32) :
    agg4 (F := Ideal) s d n h = Cert.ReferenceIdeal.Graph.agg4 (F := Ideal) s d n h := by
  unfold agg4 Cert.ReferenceIdeal.Graph.agg4
  rw [rec_scatter4, rec_gather4, wr]

/-! ## The stretches before the first region, each read from an arbitrary valuation `V` -/

section Stages
variable (V : Valuation τ sig (Elt Ideal))

/-! ### The first stretch: the index vectors, the extended weights, the degree and its two tests -/

theorem a_src : after hostOps0 V (Proc.devRef .tc main_v5) = Cert.ReferenceIdeal.Graph.src (V (Proc.devRef .tc main_arg1)) := by
  after_results_simp
  try rfl

theorem a_dst : after hostOps0 V (Proc.devRef .tc main_v6) = Cert.ReferenceIdeal.Graph.dst (V (Proc.devRef .tc main_arg1)) := by
  after_results_simp
  try rfl

theorem a_weights : after hostOps0 V (Proc.devRef .tc main_v8) = Cert.ReferenceIdeal.Graph.weights (F := Ideal) (V (Proc.devRef .tc main_arg2)) := by
  after_results_simp
  try rfl

theorem a_deg : after hostOps0 V (Proc.devRef .tc main_v11) = Cert.ReferenceIdeal.Graph.deg (F := Ideal) (V (Proc.devRef .tc main_arg1)) (V (Proc.devRef .tc main_arg2)) := by
  after_results_simp
  try rfl

theorem a_pos : after hostOps0 V (Proc.devRef .tc main_v13) = cmpf .ogt (Cert.ReferenceIdeal.Graph.deg (F := Ideal) (V (Proc.devRef .tc main_arg1)) (V (Proc.devRef .tc main_arg2))) (broadcastInDim S100000 ![] bcast_S_S100000 (constant (F := Ideal) S_ .f32 0x00000000#32)) := by
  after_results_simp
  try rfl

theorem a_pos' : after hostOps0 V (Proc.devRef .tc main_v15) = cmpf .ogt (Cert.ReferenceIdeal.Graph.deg (F := Ideal) (V (Proc.devRef .tc main_arg1)) (V (Proc.devRef .tc main_arg2))) (broadcastInDim S100000 ![] bcast_S_S100000 (constant (F := Ideal) S_ .f32 0x00000000#32)) := by
  after_results_simp
  try rfl

theorem a_one : after hostOps0 V (Proc.devRef .tc main_cst_3) = constant (F := Ideal) S_ .f32 0x3F800000#32 := by
  after_results_simp
  try rfl

/-! ### The two selections around the root -/

theorem b_dis : after hostOps0_3 (after hostOps0_2 (after hostOps0_1 V)) (Proc.devRef .tc main_v18)
    = select (V (Proc.devRef .tc main_v13)) (Host.rsqrt (select (V (Proc.devRef .tc main_v15)) (V (Proc.devRef .tc main_v11))
        (broadcastInDim S100000 ![] bcast_S_S100000 (V (Proc.devRef .tc main_cst_3)))))
      (broadcastInDim S100000 ![] bcast_S_S100000 (constant (F := Ideal) S_ .f32 0x00000000#32)) := by
  after_results_simp
  try rfl

theorem b_src : after hostOps0_3 (after hostOps0_2 (after hostOps0_1 V)) (Proc.devRef .tc main_v5) = (V (Proc.devRef .tc main_v5)) := by
  after_results_simp
theorem b_dst : after hostOps0_3 (after hostOps0_2 (after hostOps0_1 V)) (Proc.devRef .tc main_v6) = (V (Proc.devRef .tc main_v6)) := by
  after_results_simp
theorem b_weights : after hostOps0_3 (after hostOps0_2 (after hostOps0_1 V)) (Proc.devRef .tc main_v8) = (V (Proc.devRef .tc main_v8)) := by
  after_results_simp

/-! ### The last stretch before the first region: the normalised weights -/

/-- `dis` gathered at the sources, times the weights, times `dis` gathered at the destinations. -/
def nrmOf (d : FVec Ideal S100000 .f32) (s t : IVec S3300000 32) (w : FVec Ideal S3300000 .f32) : FVec Ideal S3300000 .f32 :=
  mulf (mulf (Host.gather Cert.ReferenceIdeal.gather_S100000_S3300000x1_S3300000_n_0_n_n_0_1_1 d (Cert.ReferenceIdeal.Graph.wrapped s)) w)
    (Host.gather Cert.ReferenceIdeal.gather_S100000_S3300000x1_S3300000_n_0_n_n_0_1_1 d (Cert.ReferenceIdeal.Graph.wrapped t))

theorem c_nrm : after hostOps0_4 V (Proc.devRef .tc main_v34)
    = nrmOf (V (Proc.devRef .tc main_v18)) (V (Proc.devRef .tc main_v5)) (V (Proc.devRef .tc main_v6)) (V (Proc.devRef .tc main_v8)) := by
  after_results_simp
  rw [rec_gather, wr, wr]
  rfl

theorem c_src : after hostOps0_4 V (Proc.devRef .tc main_v5) = (V (Proc.devRef .tc main_v5)) := by
  after_results_simp
theorem c_dst : after hostOps0_4 V (Proc.devRef .tc main_v6) = (V (Proc.devRef .tc main_v6)) := by
  after_results_simp

end Stages

/-! ## Composed from the launch memory -/

theorem s4_dis : W4 m ρ c (Proc.devRef .tc main_v18) = Cert.ReferenceIdeal.Graph.dis (F := Ideal) (m ((c : Thread nD τ).loc main_arg1)) (m ((c : Thread nD τ).loc main_arg2)) := by
  refine (b_dis (W1 m ρ c)).trans ?_
  rw [show W1 m ρ c (Proc.devRef .tc main_v13) = _ from a_pos (W0 m ρ c), show W1 m ρ c (Proc.devRef .tc main_v15) = _ from a_pos' (W0 m ρ c),
    show W1 m ρ c (Proc.devRef .tc main_v11) = _ from a_deg (W0 m ρ c), show W1 m ρ c (Proc.devRef .tc main_cst_3) = _ from a_one (W0 m ρ c)]
  rfl

theorem s4_src : W4 m ρ c (Proc.devRef .tc main_v5) = Cert.ReferenceIdeal.Graph.src (m ((c : Thread nD τ).loc main_arg1)) :=
  (b_src (W1 m ρ c)).trans (a_src (W0 m ρ c))

theorem s4_dst : W4 m ρ c (Proc.devRef .tc main_v6) = Cert.ReferenceIdeal.Graph.dst (m ((c : Thread nD τ).loc main_arg1)) :=
  (b_dst (W1 m ρ c)).trans (a_dst (W0 m ρ c))

theorem s4_weights : W4 m ρ c (Proc.devRef .tc main_v8) = Cert.ReferenceIdeal.Graph.weights (F := Ideal) (m ((c : Thread nD τ).loc main_arg2)) :=
  (b_weights (W1 m ρ c)).trans (a_weights (W0 m ρ c))

/-- The sources at the first region's entry are the reference's, of the edge table. -/
theorem src_eq : srcAt m ρ c = Cert.ReferenceIdeal.Graph.src (m ((c : Thread nD τ).loc main_arg1)) := (c_src (W4 m ρ c)).trans (s4_src m ρ c)

/-- The destinations likewise. -/
theorem dst_eq : dstAt m ρ c = Cert.ReferenceIdeal.Graph.dst (m ((c : Thread nD τ).loc main_arg1)) := (c_dst (W4 m ρ c)).trans (s4_dst m ρ c)

/-- The normalised weights likewise, of the edge table and the edge weights: `dis` gathered at the sources, times
    the weights, times `dis` gathered at the destinations. -/
theorem nrm_eq : nrmAt m ρ c = Cert.ReferenceIdeal.Graph.nrm (F := Ideal) (m ((c : Thread nD τ).loc main_arg1)) (m ((c : Thread nD τ).loc main_arg2)) := by
  refine (c_nrm (W4 m ρ c)).trans ?_
  rw [s4_dis, s4_src, s4_dst, s4_weights]
  rfl

/-- The kernel's result term is the reference network of the arguments. -/
theorem net_eq :
    Cert.ReferenceIdeal.Stages.soft (F := Ideal)
        (agg4 (F := Ideal) (srcAt m ρ c) (dstAt m ρ c) (nrmAt m ρ c)
          (Cert.ReferenceIdeal.Stages.dense3 (F := Ideal) (Cert.ReferenceIdeal.Stages.act32 (F := Ideal)
        (agg32 (F := Ideal) (srcAt m ρ c) (dstAt m ρ c) (nrmAt m ρ c)
          (Cert.ReferenceIdeal.Stages.dense2 (F := Ideal) (Cert.ReferenceIdeal.Stages.act64 (F := Ideal)
        (agg64 (F := Ideal) (srcAt m ρ c) (dstAt m ρ c) (nrmAt m ρ c)
          (Cert.ReferenceIdeal.Stages.dense1 (F := Ideal) (m ((c : Thread nD τ).loc main_arg0)) (m ((c : Thread nD τ).loc main_arg3))))
        (m ((c : Thread nD τ).loc main_arg4))) (m ((c : Thread nD τ).loc main_arg5))))
        (m ((c : Thread nD τ).loc main_arg6))) (m ((c : Thread nD τ).loc main_arg7))))
        (m ((c : Thread nD τ).loc main_arg8))
      = Cert.ReferenceIdeal.Graph.net (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7))
          (m ((c : Thread nD τ).loc main_arg8)) := by
  rw [src_eq, dst_eq, nrm_eq, agg64_eq, agg32_eq, agg4_eq]
  rfl

end Cert.Join

end
-- ==== Proof.lean ====
/-
  A three-layer graph convolution, computed two ways, gives one result on the extended reals.

  Both programs first turn the edge table into source and destination index vectors (with a loop at every node) and
  the edge weights into normalised weights `dis(src) · w · dis(dst)`, `dis = 1/√degree`. Then, three times: features
  times the transposed weight matrix; every edge's source row, scaled by the edge's normalised weight, summed into
  the edge's destination row; plus the bias; then the leaky rectifier (layers 1 and 2) or the softmax of every row
  (layer 3).

  The kernel computes the product and the bias-and-nonlinearity steps in grid regions, ten blocks of 10000 rows each,
  the reference with whole-array host operations. On the extended reals they agree:
  * entry `(r, n)` of a product is `∑ₖ x(r, k) · w(n, k)` either way — rounding to a narrower format is the identity,
    the kernel contracts the weight's second axis directly where the reference transposes first, and a row of the
    product depends on the same row of the features only, so row blocks tile the whole product;
  * the kernel's rectifier tests `v > 0`, the reference's `v ≥ 0`: they differ only at `v = 0`, where the slope's
    product with `0` is `0`;
  * bias, rectifier and softmax act on each row by itself, so again row blocks tile the whole-array step;
  * the graph steps between the regions are the same host operations in both programs.
  No finiteness of the inputs is used: only reindexing of finite sums and the equalities above.

  The three frame claims: the two kernels' are the generated frames; the reference's is its run with the result
  dropped. The idealization rewrote nothing, so what it preserves is trivially true.
-/
import proofs.«161395_j41188736369372_1_alg».proof.Defs
import proofs.«161395_j41188736369372_1_alg».proof.Proof.Gen.Kernel
import proofs.«161395_j41188736369372_1_alg».proof.Proof.Gen.Kernel.Skeleton
import proofs.«161395_j41188736369372_1_alg».proof.Proof.Gen.Kernel.Launch
import proofs.«161395_j41188736369372_1_alg».proof.Proof.Gen.Kernel.Points
import proofs.«161395_j41188736369372_1_alg».proof.Proof.Gen.Kernel.Frame
import proofs.«161395_j41188736369372_1_alg».proof.Proof.Gen.KernelIdeal
import proofs.«161395_j41188736369372_1_alg».proof.Proof.Gen.KernelIdeal.Skeleton
import proofs.«161395_j41188736369372_1_alg».proof.Proof.Gen.KernelIdeal.Launch
import proofs.«161395_j41188736369372_1_alg».proof.Proof.Gen.KernelIdeal.Points
import proofs.«161395_j41188736369372_1_alg».proof.Proof.Gen.KernelIdeal.Frame
import proofs.«161395_j41188736369372_1_alg».proof.Proof.Gen.ReferenceIdeal
import proofs.«161395_j41188736369372_1_alg».proof.Proof.Gen.Pre_finite_inputs
import proofs.«161395_j41188736369372_1_alg».proof.Proof.KernelRun
import proofs.«161395_j41188736369372_1_alg».proof.Proof.KernelFold
import proofs.«161395_j41188736369372_1_alg».proof.Proof.Bridge
import proofs.«161395_j41188736369372_1_alg».proof.Proof.RefRun
import proofs.«161395_j41188736369372_1_alg».proof.Proof.Join
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference runs, and leaves its arguments alone: its run, with the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- The idealized kernel's run, its result the reference network of the arguments: the run names the result as the
    last boundary's contents, the fold reads those back to the network's term, and that term is `net`. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v82)
          = Cert.ReferenceIdeal.Graph.net (F := Ideal)
              (m ((c.tc : Thread Cert.KernelIdeal.nD Cert.KernelIdeal.τ).loc Cert.KernelIdeal.main_arg0))
              (m ((c.tc : Thread Cert.KernelIdeal.nD Cert.KernelIdeal.τ).loc Cert.KernelIdeal.main_arg1))
              (m ((c.tc : Thread Cert.KernelIdeal.nD Cert.KernelIdeal.τ).loc Cert.KernelIdeal.main_arg2))
              (m ((c.tc : Thread Cert.KernelIdeal.nD Cert.KernelIdeal.τ).loc Cert.KernelIdeal.main_arg3))
              (m ((c.tc : Thread Cert.KernelIdeal.nD Cert.KernelIdeal.τ).loc Cert.KernelIdeal.main_arg4))
              (m ((c.tc : Thread Cert.KernelIdeal.nD Cert.KernelIdeal.τ).loc Cert.KernelIdeal.main_arg5))
              (m ((c.tc : Thread Cert.KernelIdeal.nD Cert.KernelIdeal.τ).loc Cert.KernelIdeal.main_arg6))
              (m ((c.tc : Thread Cert.KernelIdeal.nD Cert.KernelIdeal.τ).loc Cert.KernelIdeal.main_arg7))
              (m ((c.tc : Thread Cert.KernelIdeal.nD Cert.KernelIdeal.τ).loc Cert.KernelIdeal.main_arg8))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
        ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
        ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
        ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)) :=
  (θ_run Cert.KernelIdeal.defs _ _).mono
    (fun r h c => ⟨(h c).1.trans ((Cert.KernelIdeal.Fold.W14_v82 m ρ c Cert.Bridge.out0_2_eq Cert.Bridge.out1_2_eq Cert.Bridge.out2_2_eq
        Cert.Bridge.out3_2_eq Cert.Bridge.out4_2_eq Cert.Bridge.out5_2_eq).trans (Cert.Join.net_eq m ρ c)), (h c).2⟩)
    (Cert.KernelIdeal.ResultRun.run_result m ρ)

/-- From memories agreeing on the arguments both programs end with the reference network of those arguments. -/
theorem algebraic : Cert.algebraic_KernelIdeal_ReferenceIdeal := by
  intro m ρ m' ρ' _ hagree
  refine ⟨_, kernel_run m ρ, ?_⟩
  refine (θ_run Cert.ReferenceIdeal.defs _ _).mono (fun _ h c => ⟨(h c).1.trans ?_, (h c).2⟩)
    (Cert.ReferenceIdeal.RefRun.run (F := Ideal) m' ρ')
  obtain ⟨h0, h1, h2, h3, h4, h5, h6, h7, h8⟩ := hagree c
  rw [h0, h1, h2, h3, h4, h5, h6, h7, h8]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
